-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel
  bcast_S_S72x64 : S_.BroadcastsInDim S72x64 (![] : Fin 0 → Fin S72x64.rank)
  reducesTo_S72x64_S_d0_1 : S72x64.ReducesTo [0, 1] S_
  bcast_S_S72x72 : S_.BroadcastsInDim S72x72 (![] : Fin 0 → Fin S72x72.rank)
  reducesTo_S72x72_S_d0_1 : S72x72.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  main_v23

def fn {F : FTy → Type} [FloatOps F] (main_arg0 : FVec F S8x64x128x128 .f32) (main_arg1 : FVec F S72x64 .f32) (main_arg2 : FVec F S72x72 .f32) (main_arg3 : FVec F S72 .f32) (main_arg4 : FVec F S72 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  let main_v4 : FVec F S72x64 .f32 := Host.absf main_arg1
  let main_cst_0 : FVec F S_ .f32 := constant S_ .f32 0x7F800000#32
  let main_v5 : FVec F S72x64 .f32 := broadcastInDim S72x64 ![] bcast_S_S72x64 main_cst_0
  let main_v6 : IVec S72x64 1 := cmpf .olt main_v4 main_v5
  let main_c_1 : IVec S_ 1 := constantI S_ 1 1#1
  let main_v7 : IVec S_ 1 := (fun x v => Host.reduce IntOp.andi x v reducesTo_S72x64_S_d0_1 h_S_) main_v6 main_c_1
  let main_v8 : IVec S_ 1 := andi main_v3 main_v7
  let main_v9 : FVec F S72x72 .f32 := Host.absf main_arg2
  let main_cst_2 : FVec F S_ .f32 := constant S_ .f32 0x7F800000#32
  let main_v10 : FVec F S72x72 .f32 := broadcastInDim S72x72 ![] bcast_S_S72x72 main_cst_2
  let main_v11 : IVec S72x72 1 := cmpf .olt main_v9 main_v10
  let main_c_3 : IVec S_ 1 := constantI S_ 1 1#1
  let main_v12 : IVec S_ 1 := (fun x v => Host.reduce IntOp.andi x v reducesTo_S72x72_S_d0_1 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_v13 main_v16
-- ==== Kernel.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S8x64 : Shape := ⟨2, ![8, 64]⟩
abbrev S8x64x64x128 : Shape := ⟨4, ![8, 64, 64, 128]⟩
abbrev S8x64x64 : Shape := ⟨3, ![8, 64, 64]⟩
abbrev S64x72 : Shape := ⟨2, ![64, 72]⟩
abbrev S8x72 : Shape := ⟨2, ![8, 72]⟩
abbrev S_ : Shape := ⟨0, ![]⟩
abbrev S8 : Shape := ⟨1, ![8]⟩
abbrev S8x1 : Shape := ⟨2, ![8, 1]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x8x8x9 : Shape := ⟨4, ![8, 8, 8, 9]⟩
abbrev S8x64x9 : Shape := ⟨3, ![8, 64, 9]⟩
abbrev S8x64x1x128 : Shape := ⟨4, ![8, 64, 1, 128]⟩
abbrev S8x64x129x128 : Shape := ⟨4, ![8, 64, 129, 128]⟩
abbrev S8x64x130x128 : Shape := ⟨4, ![8, 64, 130, 128]⟩
abbrev S8x64x130x1 : Shape := ⟨4, ![8, 64, 130, 1]⟩
abbrev S8x64x130x129 : Shape := ⟨4, ![8, 64, 130, 129]⟩
abbrev S8x64x130x130 : Shape := ⟨4, ![8, 64, 130, 130]⟩
abbrev S1x64x130x130 : Shape := ⟨4, ![1, 64, 130, 130]⟩
abbrev S1x64x9 : Shape := ⟨3, ![1, 64, 9]⟩
abbrev S1x64x128x128 : Shape := ⟨4, ![1, 64, 128, 128]⟩
abbrev S64x128x128 : Shape := ⟨3, ![64, 128, 128]⟩
abbrev S1x64x1 : Shape := ⟨3, ![1, 64, 1]⟩
abbrev S64 : Shape := ⟨1, ![64]⟩
abbrev S64x1x1 : Shape := ⟨3, ![64, 1, 1]⟩

abbrev nBuf : Space → Nat
  | .hbm => 84
  | .vmem => 12
  | .smem => 0
  | _ => 0

abbrev bufTy : (tb : Table) → Fin (tcTables nBuf tb) → BufTy
  | .hbm, ⟨0, _⟩ => ⟨S8x64x128x128, .f32⟩
  | .hbm, ⟨1, _⟩ => ⟨S72x64, .f32⟩
  | .hbm, ⟨2, _⟩ => ⟨S72x72, .f32⟩
  | .hbm, ⟨3, _⟩ => ⟨S72, .f32⟩
  | .hbm, ⟨4, _⟩ => ⟨S72, .f32⟩
  | .hbm, ⟨5, _⟩ => ⟨S8x64, .f32⟩
  | .hbm, ⟨6, _⟩ => ⟨S64x72, .f32⟩
  | .hbm, ⟨7, _⟩ => ⟨S8x72, .f32⟩
  | .hbm, ⟨8, _⟩ => ⟨S72x72, .f32⟩
  | .hbm, ⟨9, _⟩ => ⟨S8x72, .f32⟩
  | .hbm, ⟨10, _⟩ => ⟨S8x72, .f32⟩
  | .hbm, ⟨11, _⟩ => ⟨S8x72, .f32⟩
  | .hbm, ⟨12, _⟩ => ⟨S_, .f32⟩
  | .hbm, ⟨13, _⟩ => ⟨S8x72, .f32⟩
  | .hbm, ⟨14, _⟩ => ⟨S8x72, .f32⟩
  | .hbm, ⟨15, _⟩ => ⟨S_, .f32⟩
  | .hbm, ⟨16, _⟩ => ⟨S8x72, .f32⟩
  | .hbm, ⟨17, _⟩ => ⟨S8x72, .f32⟩
  | .hbm, ⟨18, _⟩ => ⟨S8x72, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x72, .f32⟩
  | .hbm, ⟨26, _⟩ => ⟨S8x72, .f32⟩
  | .hbm, ⟨27, _⟩ => ⟨S8x72, .f32⟩
  | .hbm, ⟨28, _⟩ => ⟨S_, .f32⟩
  | .hbm, ⟨29, _⟩ => ⟨S8, .f32⟩
  | .hbm, ⟨30, _⟩ => ⟨S8x1, .f32⟩
  | .hbm, ⟨31, _⟩ => ⟨S_, .f32⟩
  | .hbm, ⟨32, _⟩ => ⟨S8x1, .f32⟩
  | .hbm, ⟨33, _⟩ => ⟨S8x1, .f32⟩
  | .hbm, ⟨34, _⟩ => ⟨S8x72, .f32⟩
  | .hbm, ⟨35, _⟩ => ⟨S8x72, .f32⟩
  | .hbm, ⟨36, _⟩ => ⟨S_, .f32⟩
  | .hbm, ⟨37, _⟩ => ⟨S8x1, .f32⟩
  | .hbm, ⟨38, _⟩ => ⟨S8x1, .f32⟩
  | .hbm, ⟨39, _⟩ => ⟨S8x1, .f32⟩
  | .hbm, ⟨40, _⟩ => ⟨S8x72, .f32⟩
  | .hbm, ⟨41, _⟩ => ⟨S8x72, .f32⟩
  | .hbm, ⟨42, _⟩ => ⟨S1x72, .f32⟩
  | .hbm, ⟨43, _⟩ => ⟨S8x72, .f32⟩
  | .hbm, ⟨44, _⟩ => ⟨S8x72, .f32⟩
  | .hbm, ⟨45, _⟩ => ⟨S1x72, .f32⟩
  | .hbm, ⟨46, _⟩ => ⟨S8x72, .f32⟩
  | .hbm, ⟨47, _⟩ => ⟨S8x72, .f32⟩
  | .hbm, ⟨48, _⟩ => ⟨S8x8x9, .f32⟩
  | .hbm, ⟨49, _⟩ => ⟨S_, .f32⟩
  | .hbm, ⟨50, _⟩ => ⟨S8x8, .f32⟩
  | .hbm, ⟨51, _⟩ => ⟨S_, .f32⟩
  | .hbm, ⟨52, _⟩ => ⟨S8x8, .f32⟩
  | .hbm, ⟨53, _⟩ => ⟨S8x8, .f32⟩
  | .hbm, ⟨54, _⟩ => ⟨S8x8x1, .f32⟩
  | .hbm, ⟨55, _⟩ => ⟨S8x8x9, .f32⟩
  | .hbm, ⟨56, _⟩ => ⟨S8x8x9, .f32⟩
  | .hbm, ⟨57, _⟩ => ⟨S8x8x9, .f32⟩
  | .hbm, ⟨58, _⟩ => ⟨S_, .f32⟩
  | .hbm, ⟨59, _⟩ => ⟨S8x8, .f32⟩
  | .hbm, ⟨60, _⟩ => ⟨S8x8x1, .f32⟩
  | .hbm, ⟨61, _⟩ => ⟨S8x8x9, .f32⟩
  | .hbm, ⟨62, _⟩ => ⟨S8x8x9, .f32⟩
  | .hbm, ⟨63, _⟩ => ⟨S8x8x8x9, .f32⟩
  | .hbm, ⟨64, _⟩ => ⟨S8x64x9, .f32⟩
  | .hbm, ⟨65, _⟩ => ⟨S_, .i32⟩
  | .hbm, ⟨66, _⟩ => ⟨S8x64x1x128, .f32⟩
  | .hbm, ⟨67, _⟩ => ⟨S8x64x1x128, .f32⟩
  | .hbm, ⟨68, _⟩ => ⟨S8x64x1x128, .f32⟩
  | .hbm, ⟨69, _⟩ => ⟨S8x64x129x128, .f32⟩
  | .hbm, ⟨70, _⟩ => ⟨S8x64x1x128, .f32⟩
  | .hbm, ⟨71, _⟩ => ⟨S8x64x1x128, .f32⟩
  | .hbm, ⟨72, _⟩ => ⟨S8x64x1x128, .f32⟩
  | .hbm, ⟨73, _⟩ => ⟨S8x64x130x128, .f32⟩
  | .hbm, ⟨74, _⟩ => ⟨S8x64x130x1, .f32⟩
  | .hbm, ⟨75, _⟩ => ⟨S8x64x130x1, .f32⟩
  | .hbm, ⟨76, _⟩ => ⟨S8x64x130x1, .f32⟩
  | .hbm, ⟨77, _⟩ => ⟨S8x64x130x129, .f32⟩
  | .hbm, ⟨78, _⟩ => ⟨S8x64x130x1, .f32⟩
  | .hbm, ⟨79, _⟩ => ⟨S8x64x130x1, .f32⟩
  | .hbm, ⟨80, _⟩ => ⟨S8x64x130x1, .f32⟩
  | .hbm, ⟨81, _⟩ => ⟨S8x64x130x130, .f32⟩
  | .hbm, ⟨82, _⟩ => ⟨S8x64x128x128, .f32⟩
  | .hbm, ⟨83, _⟩ => ⟨S8x64x128x128, .f32⟩
  | .local _ .vmem, ⟨0, _⟩ => ⟨S8x64x64x128, .f32⟩
  | .local _ .vmem, ⟨1, _⟩ => ⟨S8x64x64x128, .f32⟩
  | .local _ .vmem, ⟨2, _⟩ => ⟨S8x64, .f32⟩
  | .local _ .vmem, ⟨3, _⟩ => ⟨S8x64, .f32⟩
  | .local _ .vmem, ⟨4, _⟩ => ⟨S1x64x130x130, .f32⟩
  | .local _ .vmem, ⟨5, _⟩ => ⟨S1x64x130x130, .f32⟩
  | .local _ .vmem, ⟨6, _⟩ => ⟨S1x64x9, .f32⟩
  | .local _ .vmem, ⟨7, _⟩ => ⟨S1x64x9, .f32⟩
  | .local _ .vmem, ⟨8, _⟩ => ⟨S1x64x128x128, .f32⟩
  | .local _ .vmem, ⟨9, _⟩ => ⟨S1x64x128x128, .f32⟩
  | .local _ .vmem, ⟨10, _⟩ => ⟨S1x64x128x128, .f32⟩
  | .local _ .vmem, ⟨11, _⟩ => ⟨S1x64x128x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x130x130 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x64x128_S8x64x64x128_0_0_0_0 : ∀ a, (![0, 0, 0, 0] : Fin 4 → Nat) a + S8x64x64x128.size a ≤ S8x64x64x128.size a
  h_S8x64x64x128 : 0 < S8x64x64x128.numel
  reduces_S8x64x64x128_S8x64x64 : S8x64x64x128.Reduces [3] S8x64x64
  reduces_S8x64x64_S8x64 : S8x64x64.Reduces [2] S8x64
  transposes_S72x64_S64x72_1_0 : S72x64.Transposes [1, 0] S64x72
  transposes_S72x72_S72x72_1_0 : S72x72.Transposes [1, 0] S72x72
  bcast_S_S8x72 : S_.BroadcastsInDim S8x72 (![] : Fin 0 → Fin S8x72.rank)
  reducesTo_S8x72_S8_d1 : S8x72.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x72_0_1 : S8x1.BroadcastsInDim S8x72 (![0, 1] : Fin 2 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  bcast_S8x8x9_S8x8x8x9_0_1_3 : S8x8x9.BroadcastsInDim S8x8x8x9 (![0, 1, 3] : Fin 3 → Fin S8x8x8x9.rank)
  shapeCasts_S8x8x8x9_S8x64x9 : S8x8x8x9.ShapeCasts S8x64x9
  slices_S8x64x128x128_S8x64x1x128_0_0_0_0 : S8x64x128x128.Slices ![0, 0, 0, 0] S8x64x1x128
  slices_S8x64x128x128_S8x64x1x128_0_0_1_0 : S8x64x128x128.Slices ![0, 0, 1, 0] S8x64x1x128
  concatenates_S8x64x1x128_S8x64x128x128_S8x64x129x128_d2 : Shape.Concatenates [S8x64x1x128, S8x64x128x128] S8x64x129x128 2
  slices_S8x64x129x128_S8x64x1x128_0_0_128_0 : S8x64x129x128.Slices ![0, 0, 128, 0] S8x64x1x128
  slices_S8x64x129x128_S8x64x1x128_0_0_127_0 : S8x64x129x128.Slices ![0, 0, 127, 0] S8x64x1x128
  concatenates_S8x64x129x128_S8x64x1x128_S8x64x130x128_d2 : Shape.Concatenates [S8x64x129x128, S8x64x1x128] S8x64x130x128 2
  slices_S8x64x130x128_S8x64x130x1_0_0_0_0 : S8x64x130x128.Slices ![0, 0, 0, 0] S8x64x130x1
  slices_S8x64x130x128_S8x64x130x1_0_0_0_1 : S8x64x130x128.Slices ![0, 0, 0, 1] S8x64x130x1
  concatenates_S8x64x130x1_S8x64x130x128_S8x64x130x129_d3 : Shape.Concatenates [S8x64x130x1, S8x64x130x128] S8x64x130x129 3
  slices_S8x64x130x129_S8x64x130x1_0_0_0_128 : S8x64x130x129.Slices ![0, 0, 0, 128] S8x64x130x1
  slices_S8x64x130x129_S8x64x130x1_0_0_0_127 : S8x64x130x129.Slices ![0, 0, 0, 127] S8x64x130x1
  concatenates_S8x64x130x129_S8x64x130x1_S8x64x130x130_d3 : Shape.Concatenates [S8x64x130x129, S8x64x130x1] S8x64x130x130 3
  inb_S1x64x130x130_S1x64x128x128_0_0_1_1 : ∀ a, (![0, 0, 1, 1] : Fin 4 → Nat) a + S1x64x128x128.size a ≤ S1x64x130x130.size a
  h_S1x64x128x128 : 0 < S1x64x128x128.numel
  shapeCasts_S1x64x128x128_S64x128x128 : S1x64x128x128.ShapeCasts S64x128x128
  inb_S1x64x130x130_S1x64x128x128_0_0_0_0 : ∀ a, (![0, 0, 0, 0] : Fin 4 → Nat) a + S1x64x128x128.size a ≤ S1x64x130x130.size a
  inb_S1x64x9_S1x64x1_0_0_0 : ∀ a, (![0, 0, 0] : Fin 3 → Nat) a + S1x64x1.size a ≤ S1x64x9.size a
  h_S1x64x1 : 0 < S1x64x1.numel
  shapeCasts_S1x64x1_S64 : S1x64x1.ShapeCasts S64
  shapeCasts_S64_S64x1x1 : S64.ShapeCasts S64x1x1
  broadcasts_S64x1x1_S64x128x128 : S64x1x1.Broadcasts S64x128x128
  inb_S1x64x130x130_S1x64x128x128_0_0_0_1 : ∀ a, (![0, 0, 0, 1] : Fin 4 → Nat) a + S1x64x128x128.size a ≤ S1x64x130x130.size a
  inb_S1x64x9_S1x64x1_0_0_1 : ∀ a, (![0, 0, 1] : Fin 3 → Nat) a + S1x64x1.size a ≤ S1x64x9.size a
  inb_S1x64x130x130_S1x64x128x128_0_0_0_2 : ∀ a, (![0, 0, 0, 2] : Fin 4 → Nat) a + S1x64x128x128.size a ≤ S1x64x130x130.size a
  inb_S1x64x9_S1x64x1_0_0_2 : ∀ a, (![0, 0, 2] : Fin 3 → Nat) a + S1x64x1.size a ≤ S1x64x9.size a
  inb_S1x64x130x130_S1x64x128x128_0_0_1_0 : ∀ a, (![0, 0, 1, 0] : Fin 4 → Nat) a + S1x64x128x128.size a ≤ S1x64x130x130.size a
  inb_S1x64x9_S1x64x1_0_0_3 : ∀ a, (![0, 0, 3] : Fin 3 → Nat) a + S1x64x1.size a ≤ S1x64x9.size a
  inb_S1x64x9_S1x64x1_0_0_4 : ∀ a, (![0, 0, 4] : Fin 3 → Nat) a + S1x64x1.size a ≤ S1x64x9.size a
  inb_S1x64x130x130_S1x64x128x128_0_0_1_2 : ∀ a, (![0, 0, 1, 2] : Fin 4 → Nat) a + S1x64x128x128.size a ≤ S1x64x130x130.size a
  inb_S1x64x9_S1x64x1_0_0_5 : ∀ a, (![0, 0, 5] : Fin 3 → Nat) a + S1x64x1.size a ≤ S1x64x9.size a
  inb_S1x64x130x130_S1x64x128x128_0_0_2_0 : ∀ a, (![0, 0, 2, 0] : Fin 4 → Nat) a + S1x64x128x128.size a ≤ S1x64x130x130.size a
  inb_S1x64x9_S1x64x1_0_0_6 : ∀ a, (![0, 0, 6] : Fin 3 → Nat) a + S1x64x1.size a ≤ S1x64x9.size a
  inb_S1x64x130x130_S1x64x128x128_0_0_2_1 : ∀ a, (![0, 0, 2, 1] : Fin 4 → Nat) a + S1x64x128x128.size a ≤ S1x64x130x130.size a
  inb_S1x64x9_S1x64x1_0_0_7 : ∀ a, (![0, 0, 7] : Fin 3 → Nat) a + S1x64x1.size a ≤ S1x64x9.size a
  inb_S1x64x130x130_S1x64x128x128_0_0_2_2 : ∀ a, (![0, 0, 2, 2] : Fin 4 → Nat) a + S1x64x128x128.size a ≤ S1x64x130x130.size a
  inb_S1x64x9_S1x64x1_0_0_8 : ∀ a, (![0, 0, 8] : Fin 3 → Nat) a + S1x64x1.size a ≤ S1x64x9.size a
  inb_S1x64x128x128_S1x64x128x128_0_0_0_0 : ∀ a, (![0, 0, 0, 0] : Fin 4 → Nat) a + S1x64x128x128.size a ≤ S1x64x128x128.size a
  shapeCasts_S64x128x128_S1x64x128x128 : S64x128x128.ShapeCasts S1x64x128x128
  dot_S8x64_S64x72_S8x72_1_0_0_1_n_n_wf : DotDims.WF S8x64 S64x72 S8x72 [1] [0] [0] [1] [] []
  dot_S8x72_S72x72_S8x72_1_0_0_1_n_n_wf : DotDims.WF S8x72 S72x72 S8x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64x128.size a ≤ S8x64x128x128.size a
  hwx0_0 : ∀ i : grid0.Coords, EltTy.bits .f32 = 32 ∨ (Rect.block (s := S8x64x128x128) S8x64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x130x130.size a ≤ S8x64x130x130.size a
  hwx1_0 : ∀ i : grid1.Coords, EltTy.bits .f32 = 32 ∨ (Rect.block (s := S8x64x130x130) S1x64x130x130.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x9.size a ≤ S8x64x9.size a
  hwx1_1 : ∀ i : grid1.Coords, EltTy.bits .f32 = 32 ∨ (Rect.block (s := S8x64x9) S1x64x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S8x64x128x128.size a
  hwx1_2 : ∀ i : grid1.Coords, EltTy.bits .f32 = 32 ∨ (Rect.block (s := S8x64x128x128) S1x64x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x128.size a ≤ S8x64x128x128.size a
  hwx1_3 : ∀ i : grid1.Coords, EltTy.bits .f32 = 32 ∨ (Rect.block (s := S8x64x128x128) S1x64x128x128.size (cc1_transform_3 i) (hinb1_3 i)).WholeWords (EltTy.packing .f32)

variable [Facts₀]

def dot_S8x64_S64x72_S8x72_1_0_0_1_n_n : DotDims S8x64 S64x72 S8x72 where
  lhsContracting := [1]
  rhsContracting := [0]
  lhsNonContracting := [0]
  rhsNonContracting := [1]
  lhsBatch := []
  rhsBatch := []
  wf := dot_S8x64_S64x72_S8x72_1_0_0_1_n_n_wf
def dot_S8x72_S72x72_S8x72_1_0_0_1_n_n : DotDims S8x72 S72x72 S8x72 where
  lhsContracting := [1]
  rhsContracting := [0]
  lhsNonContracting := [0]
  rhsNonContracting := [1]
  lhsBatch := []
  rhsBatch := []
  wf := dot_S8x72_S72x72_S8x72_1_0_0_1_n_n_wf

abbrev win0_0 : Pipeline.Window sig grid0 :=
  Pipeline.Window.ofSpec (Memref.whole main_arg0) S8x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v50) S1x64x130x130.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S1x64x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x64x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S_ : Shape := ⟨0, ![]⟩
abbrev S8x64 : Shape := ⟨2, ![8, 64]⟩
abbrev S64x72 : Shape := ⟨2, ![64, 72]⟩
abbrev S8x72 : Shape := ⟨2, ![8, 72]⟩
abbrev S8 : Shape := ⟨1, ![8]⟩
abbrev S8x1 : Shape := ⟨2, ![8, 1]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x8x8x9 : Shape := ⟨4, ![8, 8, 8, 9]⟩
abbrev S8x64x9 : Shape := ⟨3, ![8, 64, 9]⟩
abbrev S8x64x1x128 : Shape := ⟨4, ![8, 64, 1, 128]⟩
abbrev S8x64x129x128 : Shape := ⟨4, ![8, 64, 129, 128]⟩
abbrev S8x64x130x128 : Shape := ⟨4, ![8, 64, 130, 128]⟩
abbrev S8x64x130x1 : Shape := ⟨4, ![8, 64, 130, 1]⟩
abbrev S8x64x130x129 : Shape := ⟨4, ![8, 64, 130, 129]⟩
abbrev S8x64x130x130 : Shape := ⟨4, ![8, 64, 130, 130]⟩
abbrev S8x64x1 : Shape := ⟨3, ![8, 64, 1]⟩
abbrev S8x64x1x1 : Shape := ⟨4, ![8, 64, 1, 1]⟩

abbrev nBuf : Space → Nat
  | .hbm => 152
  | .vmem => 0
  | .smem => 0
  | _ => 0

abbrev hbmTy0_0 (i : Nat) : BufTy := match i % 128 with
  | 0 => ⟨S8x64x128x128, .f32⟩
  | 1 => ⟨S72x64, .f32⟩
  | 2 => ⟨S72x72, .f32⟩
  | 3 => ⟨S72, .f32⟩
  | 4 => ⟨S72, .f32⟩
  | 5 => ⟨S_, .f32⟩
  | 6 => ⟨S8x64, .f32⟩
  | 7 => ⟨S_, .f32⟩
  | 8 => ⟨S8x64, .f32⟩
  | 9 => ⟨S8x64, .f32⟩
  | 10 => ⟨S64x72, .f32⟩
  | 11 => ⟨S8x72, .f32⟩
  | 12 => ⟨S72x72, .f32⟩
  | 13 => ⟨S8x72, .f32⟩
  | 14 => ⟨S8x72, .f32⟩
  | 15 => ⟨S8x72, .f32⟩
  | 16 => ⟨S_, .f32⟩
  | 17 => ⟨S8x72, .f32⟩
  | 18 => ⟨S8x72, .f32⟩
  | 19 => ⟨S_, .f32⟩
  | 20 => ⟨S8x72, .f32⟩
  | 21 => ⟨S8x72, .f32⟩
  | 22 => ⟨S8x72, .f32⟩
  | 23 => ⟨S_, .f32⟩
  | 24 => ⟨S8, .f32⟩
  | 25 => ⟨S8x1, .f32⟩
  | 26 => ⟨S_, .f32⟩
  | 27 => ⟨S8x1, .f32⟩
  | 28 => ⟨S8x1, .f32⟩
  | 29 => ⟨S8x72, .f32⟩
  | 30 => ⟨S8x72, .f32⟩
  | 31 => ⟨S8x72, .f32⟩
  | 32 => ⟨S_, .f32⟩
  | 33 => ⟨S8, .f32⟩
  | 34 => ⟨S8x1, .f32⟩
  | 35 => ⟨S_, .f32⟩
  | 36 => ⟨S8x1, .f32⟩
  | 37 => ⟨S8x1, .f32⟩
  | 38 => ⟨S8x72, .f32⟩
  | 39 => ⟨S8x72, .f32⟩
  | 40 => ⟨S_, .f32⟩
  | 41 => ⟨S8x1, .f32⟩
  | 42 => ⟨S8x1, .f32⟩
  | 43 => ⟨S8x1, .f32⟩
  | 44 => ⟨S8x72, .f32⟩
  | 45 => ⟨S8x72, .f32⟩
  | 46 => ⟨S1x72, .f32⟩
  | 47 => ⟨S8x72, .f32⟩
  | 48 => ⟨S8x72, .f32⟩
  | 49 => ⟨S1x72, .f32⟩
  | 50 => ⟨S8x72, .f32⟩
  | 51 => ⟨S8x72, .f32⟩
  | 52 => ⟨S8x8x9, .f32⟩
  | 53 => ⟨S_, .f32⟩
  | 54 => ⟨S8x8, .f32⟩
  | 55 => ⟨S_, .f32⟩
  | 56 => ⟨S8x8, .f32⟩
  | 57 => ⟨S8x8, .f32⟩
  | 58 => ⟨S8x8x1, .f32⟩
  | 59 => ⟨S8x8x9, .f32⟩
  | 60 => ⟨S8x8x9, .f32⟩
  | 61 => ⟨S8x8x9, .f32⟩
  | 62 => ⟨S_, .f32⟩
  | 63 => ⟨S8x8, .f32⟩
  | 64 => ⟨S8x8x1, .f32⟩
  | 65 => ⟨S8x8x9, .f32⟩
  | 66 => ⟨S8x8x9, .f32⟩
  | 67 => ⟨S8x8x8x9, .f32⟩
  | 68 => ⟨S8x64x9, .f32⟩
  | 69 => ⟨S_, .i32⟩
  | 70 => ⟨S8x64x1x128, .f32⟩
  | 71 => ⟨S8x64x1x128, .f32⟩
  | 72 => ⟨S8x64x1x128, .f32⟩
  | 73 => ⟨S8x64x129x128, .f32⟩
  | 74 => ⟨S8x64x1x128, .f32⟩
  | 75 => ⟨S8x64x1x128, .f32⟩
  | 76 => ⟨S8x64x1x128, .f32⟩
  | 77 => ⟨S8x64x130x128, .f32⟩
  | 78 => ⟨S8x64x130x1, .f32⟩
  | 79 => ⟨S8x64x130x1, .f32⟩
  | 80 => ⟨S8x64x130x1, .f32⟩
  | 81 => ⟨S8x64x130x129, .f32⟩
  | 82 => ⟨S8x64x130x1, .f32⟩
  | 83 => ⟨S8x64x130x1, .f32⟩
  | 84 => ⟨S8x64x130x1, .f32⟩
  | 85 => ⟨S8x64x130x130, .f32⟩
  | 86 => ⟨S_, .f32⟩
  | 87 => ⟨S8x64x128x128, .f32⟩
  | 88 => ⟨S8x64x128x128, .f32⟩
  | 89 => ⟨S8x64x1, .f32⟩
  | 90 => ⟨S8x64, .f32⟩
  | 91 => ⟨S8x64x1x1, .f32⟩
  | 92 => ⟨S8x64x128x128, .f32⟩
  | 93 => ⟨S8x64x128x128, .f32⟩
  | 94 => ⟨S8x64x128x128, .f32⟩
  | 95 => ⟨S8x64x128x128, .f32⟩
  | 96 => ⟨S8x64x1, .f32⟩
  | 97 => ⟨S8x64, .f32⟩
  | 98 => ⟨S8x64x1x1, .f32⟩
  | 99 => ⟨S8x64x128x128, .f32⟩
  | 100 => ⟨S8x64x128x128, .f32⟩
  | 101 => ⟨S8x64x128x128, .f32⟩
  | 102 => ⟨S8x64x128x128, .f32⟩
  | 103 => ⟨S8x64x1, .f32⟩
  | 104 => ⟨S8x64, .f32⟩
  | 105 => ⟨S8x64x1x1, .f32⟩
  | 106 => ⟨S8x64x128x128, .f32⟩
  | 107 => ⟨S8x64x128x128, .f32⟩
  | 108 => ⟨S8x64x128x128, .f32⟩
  | 109 => ⟨S8x64x128x128, .f32⟩
  | 110 => ⟨S8x64x1, .f32⟩
  | 111 => ⟨S8x64, .f32⟩
  | 112 => ⟨S8x64x1x1, .f32⟩
  | 113 => ⟨S8x64x128x128, .f32⟩
  | 114 => ⟨S8x64x128x128, .f32⟩
  | 115 => ⟨S8x64x128x128, .f32⟩
  | 116 => ⟨S8x64x128x128, .f32⟩
  | 117 => ⟨S8x64x1, .f32⟩
  | 118 => ⟨S8x64, .f32⟩
  | 119 => ⟨S8x64x1x1, .f32⟩
  | 120 => ⟨S8x64x128x128, .f32⟩
  | 121 => ⟨S8x64x128x128, .f32⟩
  | 122 => ⟨S8x64x128x128, .f32⟩
  | 123 => ⟨S8x64x128x128, .f32⟩
  | 124 => ⟨S8x64x1, .f32⟩
  | 125 => ⟨S8x64, .f32⟩
  | 126 => ⟨S8x64x1x1, .f32⟩
  | 127 => ⟨S8x64x128x128, .f32⟩
  | _ => ⟨S8x64x128x128, .f32⟩

abbrev hbmTy0_1 (i : Nat) : BufTy := match i % 128 with
  | 0 => ⟨S8x64x128x128, .f32⟩
  | 1 => ⟨S8x64x128x128, .f32⟩
  | 2 => ⟨S8x64x128x128, .f32⟩
  | 3 => ⟨S8x64x1, .f32⟩
  | 4 => ⟨S8x64, .f32⟩
  | 5 => ⟨S8x64x1x1, .f32⟩
  | 6 => ⟨S8x64x128x128, .f32⟩
  | 7 => ⟨S8x64x128x128, .f32⟩
  | 8 => ⟨S8x64x128x128, .f32⟩
  | 9 => ⟨S8x64x128x128, .f32⟩
  | 10 => ⟨S8x64x1, .f32⟩
  | 11 => ⟨S8x64, .f32⟩
  | 12 => ⟨S8x64x1x1, .f32⟩
  | 13 => ⟨S8x64x128x128, .f32⟩
  | 14 => ⟨S8x64x128x128, .f32⟩
  | 15 => ⟨S8x64x128x128, .f32⟩
  | 16 => ⟨S8x64x128x128, .f32⟩
  | 17 => ⟨S8x64x1, .f32⟩
  | 18 => ⟨S8x64, .f32⟩
  | 19 => ⟨S8x64x1x1, .f32⟩
  | 20 => ⟨S8x64x128x128, .f32⟩
  | 21 => ⟨S8x64x128x128, .f32⟩
  | 22 => ⟨S8x64x128x128, .f32⟩
  | 23 => ⟨S8x64x128x128, .f32⟩
  | _ => ⟨S8x64x128x128, .f32⟩

abbrev hbmTy (i : Nat) : BufTy := match i / 128 with
  | 0 => hbmTy0_0 i
  | 1 => hbmTy0_1 i
  | _ => ⟨S8x64x128x128, .f32⟩

abbrev bufTy : (tb : Table) → Fin (tcTables nBuf tb) → BufTy
  | .hbm, ⟨i, _⟩ => hbmTy i
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]

class Facts₀ : Prop where
  reducesTo_S8x64x128x128_S8x64_d2_3 : S8x64x128x128.ReducesTo [2, 3] S8x64
  h_S_ : 0 < S_.numel
  bcast_S_S8x64 : S_.BroadcastsInDim S8x64 (![] : Fin 0 → Fin S8x64.rank)
  transposes_S72x64_S64x72_1_0 : S72x64.Transposes [1, 0] S64x72
  transposes_S72x72_S72x72_1_0 : S72x72.Transposes [1, 0] S72x72
  bcast_S_S8x72 : S_.BroadcastsInDim S8x72 (![] : Fin 0 → Fin S8x72.rank)
  reducesTo_S8x72_S8_d1 : S8x72.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x72_0_1 : S8x1.BroadcastsInDim S8x72 (![0, 1] : Fin 2 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  bcast_S8x8x9_S8x8x8x9_0_1_3 : S8x8x9.BroadcastsInDim S8x8x8x9 (![0, 1, 3] : Fin 3 → Fin S8x8x8x9.rank)
  shapeCasts_S8x8x8x9_S8x64x9 : S8x8x8x9.ShapeCasts S8x64x9
  slices_S8x64x128x128_S8x64x1x128_0_0_0_0 : S8x64x128x128.Slices ![0, 0, 0, 0] S8x64x1x128
  slices_S8x64x128x128_S8x64x1x128_0_0_1_0 : S8x64x128x128.Slices ![0, 0, 1, 0] S8x64x1x128
  concatenates_S8x64x1x128_S8x64x128x128_S8x64x129x128_d2 : Shape.Concatenates [S8x64x1x128, S8x64x128x128] S8x64x129x128 2
  slices_S8x64x129x128_S8x64x1x128_0_0_128_0 : S8x64x129x128.Slices ![0, 0, 128, 0] S8x64x1x128
  slices_S8x64x129x128_S8x64x1x128_0_0_127_0 : S8x64x129x128.Slices ![0, 0, 127, 0] S8x64x1x128
  concatenates_S8x64x129x128_S8x64x1x128_S8x64x130x128_d2 : Shape.Concatenates [S8x64x129x128, S8x64x1x128] S8x64x130x128 2
  slices_S8x64x130x128_S8x64x130x1_0_0_0_0 : S8x64x130x128.Slices ![0, 0, 0, 0] S8x64x130x1
  slices_S8x64x130x128_S8x64x130x1_0_0_0_1 : S8x64x130x128.Slices ![0, 0, 0, 1] S8x64x130x1
  concatenates_S8x64x130x1_S8x64x130x128_S8x64x130x129_d3 : Shape.Concatenates [S8x64x130x1, S8x64x130x128] S8x64x130x129 3
  slices_S8x64x130x129_S8x64x130x1_0_0_0_128 : S8x64x130x129.Slices ![0, 0, 0, 128] S8x64x130x1
  slices_S8x64x130x129_S8x64x130x1_0_0_0_127 : S8x64x130x129.Slices ![0, 0, 0, 127] S8x64x130x1
  concatenates_S8x64x130x129_S8x64x130x1_S8x64x130x130_d3 : Shape.Concatenates [S8x64x130x129, S8x64x130x1] S8x64x130x130 3
  bcast_S_S8x64x128x128 : S_.BroadcastsInDim S8x64x128x128 (![] : Fin 0 → Fin S8x64x128x128.rank)
  slices_S8x64x130x130_S8x64x128x128_0_0_0_0 : S8x64x130x130.Slices ![0, 0, 0, 0] S8x64x128x128
  slices_S8x64x9_S8x64x1_0_0_0 : S8x64x9.Slices ![0, 0, 0] S8x64x1
  shapeCasts_S8x64x1_S8x64 : S8x64x1.ShapeCasts S8x64
  bcast_S8x64_S8x64x1x1_0_1 : S8x64.BroadcastsInDim S8x64x1x1 (![0, 1] : Fin 2 → Fin S8x64x1x1.rank)
  bcast_S8x64x1x1_S8x64x128x128_0_1_2_3 : S8x64x1x1.BroadcastsInDim S8x64x128x128 (![0, 1, 2, 3] : Fin 4 → Fin S8x64x128x128.rank)
  slices_S8x64x130x130_S8x64x128x128_0_0_0_1 : S8x64x130x130.Slices ![0, 0, 0, 1] S8x64x128x128
  slices_S8x64x9_S8x64x1_0_0_1 : S8x64x9.Slices ![0, 0, 1] S8x64x1
  slices_S8x64x130x130_S8x64x128x128_0_0_0_2 : S8x64x130x130.Slices ![0, 0, 0, 2] S8x64x128x128
  slices_S8x64x9_S8x64x1_0_0_2 : S8x64x9.Slices ![0, 0, 2] S8x64x1
  slices_S8x64x130x130_S8x64x128x128_0_0_1_0 : S8x64x130x130.Slices ![0, 0, 1, 0] S8x64x128x128
  slices_S8x64x9_S8x64x1_0_0_3 : S8x64x9.Slices ![0, 0, 3] S8x64x1
  slices_S8x64x130x130_S8x64x128x128_0_0_1_1 : S8x64x130x130.Slices ![0, 0, 1, 1] S8x64x128x128
  slices_S8x64x9_S8x64x1_0_0_4 : S8x64x9.Slices ![0, 0, 4] S8x64x1
  slices_S8x64x130x130_S8x64x128x128_0_0_1_2 : S8x64x130x130.Slices ![0, 0, 1, 2] S8x64x128x128
  slices_S8x64x9_S8x64x1_0_0_5 : S8x64x9.Slices ![0, 0, 5] S8x64x1
  slices_S8x64x130x130_S8x64x128x128_0_0_2_0 : S8x64x130x130.Slices ![0, 0, 2, 0] S8x64x128x128
  slices_S8x64x9_S8x64x1_0_0_6 : S8x64x9.Slices ![0, 0, 6] S8x64x1
  slices_S8x64x130x130_S8x64x128x128_0_0_2_1 : S8x64x130x130.Slices ![0, 0, 2, 1] S8x64x128x128
  slices_S8x64x9_S8x64x1_0_0_7 : S8x64x9.Slices ![0, 0, 7] S8x64x1
  slices_S8x64x130x130_S8x64x128x128_0_0_2_2 : S8x64x130x130.Slices ![0, 0, 2, 2] S8x64x128x128
  slices_S8x64x9_S8x64x1_0_0_8 : S8x64x9.Slices ![0, 0, 8] S8x64x1
  dot_S8x64_S64x72_S8x72_1_0_0_1_n_n_wf : DotDims.WF S8x64 S64x72 S8x72 [1] [0] [0] [1] [] []
  dot_S8x72_S72x72_S8x72_1_0_0_1_n_n_wf : DotDims.WF S8x72 S72x72 S8x72 [1] [0] [0] [1] [] []

variable [Facts₀]

def dot_S8x64_S64x72_S8x72_1_0_0_1_n_n : DotDims S8x64 S64x72 S8x72 where
  lhsContracting := [1]
  rhsContracting := [0]
  lhsNonContracting := [0]
  rhsNonContracting := [1]
  lhsBatch := []
  rhsBatch := []
  wf := dot_S8x64_S64x72_S8x72_1_0_0_1_n_n_wf
def dot_S8x72_S72x72_S8x72_1_0_0_1_n_n : DotDims S8x72 S72x72 S8x72 where
  lhsContracting := [1]
  rhsContracting := [0]
  lhsNonContracting := [0]
  rhsNonContracting := [1]
  lhsBatch := []
  rhsBatch := []
  wf := dot_S8x72_S72x72_S8x72_1_0_0_1_n_n_wf

class Facts : Prop extends Facts₀ where

variable [Facts]
-- ==== Proof.BFrame0.lean ====
/-
  The pooling region of the kernel program as printed (the word-level instance), read at the contents `V` the region is entered with.
  The grid has two points; point `t` stages rows 64 t … 64 t + 63 of every image plane. The body keeps an
  8 x 64 accumulator in a scratch buffer across the two points: at point 0 it clears it, at each point it adds the
  plane-block's sum (over the lane axis, then over the 64 rows), and at point 1 it scales the accumulator by 2^-14
  into the output block, which is written back only there. This module runs the body once per case, states what
  the accumulator and the output block hold after each point, and gives the region's proof data and body obligation;
  the invariant carries the accumulator's contents from one point to the next.
-/
import proofs.«141267_j22771916603489_2_alg».proof.Proof.Gen.Kernel.Launch
import proofs.«141267_j22771916603489_2_alg».proof.Proof.Gen.Kernel.Skeleton
import proofs.«141267_j22771916603489_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The body's two conditions, decided over the grid -/

/-- "This is the first point": the accumulator is cleared. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val % 2 = 0 :=
  (by decide +kernel : ∀ t : Fin grid0.N, condA (grid0.coords t) ↔ t.val % 2 = 0)
/-- "This is the last point": the scaled accumulator is stored to the output block. -/
abbrev condB (i : grid0.Coords) : Prop := k0_cond2 i = 1#1
theorem hcondB : ∀ t : Fin cfg0.N, condB (grid0.coords t) ↔ t.val % 2 = 1 :=
  (by decide +kernel : ∀ t : Fin grid0.N, condB (grid0.coords t) ↔ t.val % 2 = 1)

theorem liveAt0_0 : ∀ t : Fin cfg0.N, cfg0.idle 0 (grid0.coords t) = false := by decide +kernel
theorem idleAt0_1_A : ∀ t : Fin cfg0.N, condA (grid0.coords t) → ¬condB (grid0.coords t) → cfg0.idle 1 (grid0.coords t) = true := by decide +kernel
theorem noFlush0_1_A : ∀ t : Fin cfg0.N, condA (grid0.coords t) → ¬condB (grid0.coords t) → (cfg0.win 1).flush t = false := by decide +kernel
theorem liveAt0_1_B : ∀ t : Fin cfg0.N, ¬condA (grid0.coords t) → condB (grid0.coords t) → cfg0.idle 1 (grid0.coords t) = false := by decide +kernel

/-! ## The memrefs the body is called with -/

abbrev VO0_1 : View sig .tc .vmem S8x64 .f32 := (Memref.whole cc0_stg1_0 : Memref sig .tc .vmem S8x64 .f32).view
abbrev ms0_0 (t : Fin cfg0.N) : Memref sig .tc .vmem S8x64x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64 .f32 := win0_1.stage (cfg0.slots t 1)
abbrev hs0_1 (t : Fin cfg0.N) : (ms0_1 t).IsWhole := hstage0_1 ((cfg0.slots t 1).cast nbuf0_1)
/-- The accumulator's buffer. -/
abbrev scM0 : Memref sig .tc .vmem S8x64 .f32 := Memref.whole cc0_scratch0
abbrev VS0 : View sig .tc .vmem S8x64 .f32 := scM0.view

/-- The scoped buffers of the other region, which this region's body never touches: each whole at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator's buffer singled out. -/
theorem PhiA0_eq (c : Dev nD) :
    (Pipeline.ΦA spec0 c : sProp 𝕄)
      = iprop(iprop((∃ d, owns (c : Thread nD τ) scM0 fullShare d) ∗ rest8 c) ∗ (∃ r, prngReg c r)) := by
  unfold Pipeline.ΦA rest8; rw [scopedRest0_eq]; simp only [scM0, owns_whole]; try rfl

/-! ## The body, once per case -/

set_option maxHeartbeats 4000000 in
/-- FIRST POINT (the accumulator cleared, nothing stored to the output): on whole memrefs, the plane block at `x0`, the
    output's buffer at `xi1` handed back untouched, the accumulator's at anything, the body runs to the continuation with
    the accumulator's buffer at its pieces written. -/
noncomputable def kernelRun0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) :
    Σ' (L1 : List (View.Piece (Elt F) S8x64 .f32)), { LS0 : List (View.Piece (Elt F) S8x64 .f32) //
      ∀ (xi1 : Vec F S8x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gap_kernel i arg1 harg1 arg2 harg2 arg3 harg3) K } := by
  refine ⟨[], ?_, fun xi1 E K => ?run⟩
  case run =>
    simp only [cc0__gap_kernel_eq_skeleton]; unfold cc0__gap_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- LAST POINT (no clearing; the scaled accumulator stored to the output): the plane block at `x0`, the output's buffer at
    anything, the accumulator's at what the point before left (`xs0`). -/
noncomputable def kernelRun0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) :
    Σ' (L1 : List (View.Piece (Elt F) S8x64 .f32)), { LS0 : List (View.Piece (Elt F) S8x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gap_kernel i arg1 harg1 arg2 harg2 arg3 harg3) K } := by
  refine ⟨?_, ?_, fun E K => ?run⟩
  case run =>
    simp only [cc0__gap_kernel_eq_skeleton]; unfold cc0__gap_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The plane block's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

theorem scover0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) (y : S8x64.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x64.size (by sl_kernel_rfl) y

/-- The accumulator after the first point. -/
def sout0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) : Vec F S8x64 .f32 :=
  VS0.read (Elt F) (VS0.writes (Elt F) VS0.junk (kernelRun0_A c i arg1 harg1 arg2 harg2 arg3 harg3 hc0 hc1 x0).2.1)

theorem cover0_B_1 (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) (y : S8x64.Idx) :
    ∃ pc ∈ (kernelRun0_B c i arg1 harg1 arg2 harg2 arg3 harg3 hc0 hc1 x0 xs0).1, y ∈ pc.1.set :=
  View.cover_of_tiledL (kernelRun0_B c i arg1 harg1 arg2 harg2 arg3 harg3 hc0 hc1 x0 xs0).1 S8x64.size (by sl_kernel_rfl) y

/-- The output block after the last point. -/
def out0_B_1 (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) : Vec F S8x64 .f32 :=
  VO0_1.read (Elt F) (VO0_1.writes (Elt F) VO0_1.junk (kernelRun0_B c i arg1 harg1 arg2 harg2 arg3 harg3 hc0 hc1 x0 xs0).1)

theorem scover0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) (y : S8x64.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x64.size (by sl_kernel_rfl) y

/-- The accumulator after the last point. -/
def sout0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) : Vec F S8x64 .f32 :=
  VS0.read (Elt F) (VS0.writes (Elt F) VS0.junk (kernelRun0_B c i arg1 harg1 arg2 harg2 arg3 harg3 hc0 hc1 x0 xs0).2.1)

/-! ## The two points -/

theorem cA0 : condA (grid0.coords t0_0) := (hcondA t0_0).mpr (by show (0 : ℕ) % 2 = 0; rfl)
theorem cB0 : ¬condB (grid0.coords t0_0) := fun h => absurd ((hcondB t0_0).mp h) (by show ¬((0 : ℕ) % 2 = 1); decide)
theorem cA1 : ¬condA (grid0.coords t0_1) := fun h => absurd ((hcondA t0_1).mp h) (by show ¬((1 : ℕ) % 2 = 0); decide)
theorem cB1 : condB (grid0.coords t0_1) := (hcondB t0_1).mpr (by show (1 : ℕ) % 2 = 1; rfl)

section Region0
variable (V : (c : Dev nD) → (b : Ref sig .tc) → Buf (Elt F) ((c : Thread nD τ).loc b))

/-- The accumulator after point 0: cleared, then the first half-plane sums added. -/
def accA (c : Dev nD) : Vec F S8x64 .f32 :=
  sout0_A c (grid0.coords t0_0) (ms0_0 t0_0) (hs0_0 t0_0) (ms0_1 t0_0) (hs0_1 t0_0) scM0 (Memref.isWhole_whole _) cA0 cB0 (iblk0 V c 0 t0_0)
/-- The accumulator after point 1: the second half-plane sums added. -/
def accB (c : Dev nD) : Vec F S8x64 .f32 :=
  sout0_B c (grid0.coords t0_1) (ms0_0 t0_1) (hs0_0 t0_1) (ms0_1 t0_1) (hs0_1 t0_1) scM0 (Memref.isWhole_whole _) cA1 cB1 (iblk0 V c 0 t0_1) (accA V c)
/-- The output block after point 1: the accumulator scaled. -/
def gapB (c : Dev nD) : Vec F S8x64 .f32 :=
  out0_B_1 c (grid0.coords t0_1) (ms0_0 t0_1) (hs0_0 t0_1) (ms0_1 t0_1) (hs0_1 t0_1) scM0 (Memref.isWhole_whole _) cA1 cB1 (iblk0 V c 0 t0_1) (accA V c)

/-- The output block after the body at position `n` (at point 0 nothing is stored: a placeholder nothing consults). -/
def outAfter (c : Dev nD) : ℕ → Vec F S8x64 .f32
  | 0 => VO0_1.read (Elt F) VO0_1.junk
  | _ + 1 => gapB V c

/-- The invariant before position `n`: the class's before the first point; afterwards the accumulator at what the
    point before left, the other region's buffers at anything, the generator register at some state. -/
def PhiS (c : Dev nD) : ℕ → sProp 𝕄
  | 0 => Pipeline.ΦA spec0 c
  | 1 => iprop(iprop(owns (c : Thread nD τ) scM0 fullShare (accA V c) ∗ rest8 c) ∗ (∃ r, prngReg c r))
  | _ + 2 => iprop(iprop(owns (c : Thread nD τ) scM0 fullShare (accB V c) ∗ rest8 c) ∗ (∃ r, prngReg c r))

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAfter V c t.val
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outAfter V c t.val := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at either point: the case's run applies; the invariant hands it the accumulator at what the point before
    left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rcases fin_N0 t with rfl | rfl
  · rw [show (dat0 V c).leavesExact 0 t0_0 = owns (c : Thread nD τ) (ms0_0 t0_0) fullShare ((dat0 V c).after 0 t0_0) from by
      unfold Dat.leavesExact; rw [liveAt0_0 t0_0], after0_0]
    rw [Dat.leavesExact_idle (dat0 V c) 1 t0_0 (idleAt0_1_A t0_0 cA0 cB0) (noFlush0_1_A t0_0 cA0 cB0)]
    rw [show (dat0 V c).Φ t0_0.castSucc = Pipeline.ΦA spec0 c from rfl, PhiA0_eq,
      show (dat0 V c).Φ t0_0.succ = iprop(iprop(owns (c : Thread nD τ) scM0 fullShare (accA V c) ∗ rest8 c) ∗ (∃ r, prngReg c r)) from rfl]
    unfold accA sout0_A
    iintro ⟨⟨⟨HS0, HR⟩, Hg⟩, Ho, ⟨%d0, H0⟩, ⟨%d1, H1⟩⟩
    iapply ((kernelRun0_A c (grid0.coords t0_0) _ _ _ _ _ _ cA0 cB0 (iblk0 V c 0 t0_0)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _)
        iexact HR
      iexact Hg
    isplitl [Ho]; · iexact Ho
    isplitl [H0]; · iexact H0
    iexists _; iexact H1
  · rw [show (dat0 V c).leavesExact 0 t0_1 = owns (c : Thread nD τ) (ms0_0 t0_1) fullShare ((dat0 V c).after 0 t0_1) from by
      unfold Dat.leavesExact; rw [liveAt0_0 t0_1], after0_0]
    rw [show (dat0 V c).leavesExact 1 t0_1 = owns (c : Thread nD τ) (ms0_1 t0_1) fullShare ((dat0 V c).after 1 t0_1) from by
      unfold Dat.leavesExact; rw [liveAt0_1_B t0_1 cA1 cB1], after0_1]
    rw [show (dat0 V c).Φ t0_1.castSucc = iprop(iprop(owns (c : Thread nD τ) scM0 fullShare (accA V c) ∗ rest8 c) ∗ (∃ r, prngReg c r)) from rfl,
      show (dat0 V c).Φ t0_1.succ = iprop(iprop(owns (c : Thread nD τ) scM0 fullShare (accB V c) ∗ rest8 c) ∗ (∃ r, prngReg c r)) from rfl,
      show outAfter V c t0_1.val = gapB V c from rfl]
    unfold accB gapB sout0_B out0_B_1
    iintro ⟨⟨⟨HS0, HR⟩, Hg⟩, Ho, ⟨%d0, H0⟩, ⟨%d1, H1⟩⟩
    iapply ((kernelRun0_B c (grid0.coords t0_1) _ _ _ _ _ _ cA1 cB1 (iblk0 V c 0 t0_1) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_B_1 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = iprop(iprop(owns (c : Thread nD τ) scM0 fullShare (accB V c) ∗ rest8 c) ∗ (∃ r, prngReg c r)) from rfl, PhiA0_eq]
  iintro ⟨⟨HS0, HR⟩, Hg⟩
  isplitl [HS0 HR]
  · isplitl [HS0]
    · iexists _; iexact HS0
    iexact HR
  iexact Hg

end Region0

end Cert.Kernel.Fr

end
-- ==== Proof.BFrame1.lean ====
/-
  The filtering region of the kernel program as printed (the word-level instance), read at the contents `V` the region is entered with.
  Grid point `t` (one image of the batch) stages the padded image block `xp[t]` (64 x 130 x 130) and the
  per-channel tap weights `f[t]` (64 x 9); the body forms
      low[c,h,w]  = sum over the nine taps (ky,kx) of xp[t][c, h+ky, w+kx] * f[t][c, 3*ky+kx]
      high[c,h,w] = xp[t][c, h+1, w+1] - low[c,h,w]
  and stores each whole into its output block, which the point writes back. This module states what each output
  block holds after the body as a function of the two input blocks, proves the body's triple, and gives the
  region's proof data and body obligation.
-/
import proofs.«141267_j22771916603489_2_alg».proof.Proof.Gen.Kernel.Launch
import proofs.«141267_j22771916603489_2_alg».proof.Proof.Gen.Kernel.Skeleton
import proofs.«141267_j22771916603489_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The padded image's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The tap weights' staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the nine shifted 128 x 128 windows of the padded block, the nine weight columns -/
abbrev rx00 : Rect S1x64x130x130 := Rect.unit (s := S1x64x130x130) ![0, 0, 0, 0] S1x64x128x128.size inb_S1x64x130x130_S1x64x128x128_0_0_0_0
abbrev rx01 : Rect S1x64x130x130 := Rect.unit (s := S1x64x130x130) ![0, 0, 0, 1] S1x64x128x128.size inb_S1x64x130x130_S1x64x128x128_0_0_0_1
abbrev rx02 : Rect S1x64x130x130 := Rect.unit (s := S1x64x130x130) ![0, 0, 0, 2] S1x64x128x128.size inb_S1x64x130x130_S1x64x128x128_0_0_0_2
abbrev rx10 : Rect S1x64x130x130 := Rect.unit (s := S1x64x130x130) ![0, 0, 1, 0] S1x64x128x128.size inb_S1x64x130x130_S1x64x128x128_0_0_1_0
abbrev rx11 : Rect S1x64x130x130 := Rect.unit (s := S1x64x130x130) ![0, 0, 1, 1] S1x64x128x128.size inb_S1x64x130x130_S1x64x128x128_0_0_1_1
abbrev rx12 : Rect S1x64x130x130 := Rect.unit (s := S1x64x130x130) ![0, 0, 1, 2] S1x64x128x128.size inb_S1x64x130x130_S1x64x128x128_0_0_1_2
abbrev rx20 : Rect S1x64x130x130 := Rect.unit (s := S1x64x130x130) ![0, 0, 2, 0] S1x64x128x128.size inb_S1x64x130x130_S1x64x128x128_0_0_2_0
abbrev rx21 : Rect S1x64x130x130 := Rect.unit (s := S1x64x130x130) ![0, 0, 2, 1] S1x64x128x128.size inb_S1x64x130x130_S1x64x128x128_0_0_2_1
abbrev rx22 : Rect S1x64x130x130 := Rect.unit (s := S1x64x130x130) ![0, 0, 2, 2] S1x64x128x128.size inb_S1x64x130x130_S1x64x128x128_0_0_2_2
abbrev rf0 : Rect S1x64x9 := Rect.unit (s := S1x64x9) ![0, 0, 0] S1x64x1.size inb_S1x64x9_S1x64x1_0_0_0
abbrev rf1 : Rect S1x64x9 := Rect.unit (s := S1x64x9) ![0, 0, 1] S1x64x1.size inb_S1x64x9_S1x64x1_0_0_1
abbrev rf2 : Rect S1x64x9 := Rect.unit (s := S1x64x9) ![0, 0, 2] S1x64x1.size inb_S1x64x9_S1x64x1_0_0_2
abbrev rf3 : Rect S1x64x9 := Rect.unit (s := S1x64x9) ![0, 0, 3] S1x64x1.size inb_S1x64x9_S1x64x1_0_0_3
abbrev rf4 : Rect S1x64x9 := Rect.unit (s := S1x64x9) ![0, 0, 4] S1x64x1.size inb_S1x64x9_S1x64x1_0_0_4
abbrev rf5 : Rect S1x64x9 := Rect.unit (s := S1x64x9) ![0, 0, 5] S1x64x1.size inb_S1x64x9_S1x64x1_0_0_5
abbrev rf6 : Rect S1x64x9 := Rect.unit (s := S1x64x9) ![0, 0, 6] S1x64x1.size inb_S1x64x9_S1x64x1_0_0_6
abbrev rf7 : Rect S1x64x9 := Rect.unit (s := S1x64x9) ![0, 0, 7] S1x64x1.size inb_S1x64x9_S1x64x1_0_0_7
abbrev rf8 : Rect S1x64x9 := Rect.unit (s := S1x64x9) ![0, 0, 8] S1x64x1.size inb_S1x64x9_S1x64x1_0_0_8
abbrev ro : Rect S1x64x128x128 := Rect.unit (s := S1x64x128x128) ![0, 0, 0, 0] S1x64x128x128.size inb_S1x64x128x128_S1x64x128x128_0_0_0_0

/-! ## What the body leaves in each output block -/

/-- The running sum after the first three taps (row ky = 0). -/
def acc3 (x0 : Vec F S1x64x130x130 .f32) (x1 : Vec F S1x64x9 .f32) : FVec F S64x128x128 .f32 :=
  k1_pay5 (View.ld x0 rx00) (View.ld x1 rf0) (View.ld x0 rx01) (View.ld x1 rf1) (View.ld x0 rx02) (View.ld x1 rf2)
/-- The running sum after seven taps. -/
def acc7 (x0 : Vec F S1x64x130x130 .f32) (x1 : Vec F S1x64x9 .f32) : FVec F S64x128x128 .f32 :=
  k1_pay7 (acc3 x0 x1) (k1_pay6 (View.ld x0 rx10)) (View.ld x1 rf3) (View.ld x0 rx11) (View.ld x1 rf4) (View.ld x0 rx12) (View.ld x1 rf5) (View.ld x0 rx20) (View.ld x1 rf6)
/-- The low-pass block: all nine taps, as the one whole store leaves it. -/
def out1_2 (x0 : Vec F S1x64x130x130 .f32) (x1 : Vec F S1x64x9 .f32) : Vec F S1x64x128x128 .f32 :=
  View.canon [⟨ro, k1_pay2 (acc7 x0 x1) (k1_pay8 (View.ld x0 rx21)) (View.ld x1 rf7) (View.ld x0 rx22) (View.ld x1 rf8)⟩]
/-- The high-pass block: the centre window minus the low-pass block. -/
def out1_3 (x0 : Vec F S1x64x130x130 .f32) (x1 : Vec F S1x64x9 .f32) : Vec F S1x64x128x128 .f32 :=
  View.canon [⟨ro, k1_pay3 (k1_pay4 (View.ld x0 rx11)) (acc7 x0 x1) (k1_pay8 (View.ld x0 rx21)) (View.ld x1 rf7) (View.ld x0 rx22) (View.ld x1 rf8)⟩]

/-- One whole store covers the block. -/
theorem cover1 (p0 : Vec F S1x64x128x128 .f32) (y : S1x64x128x128.Idx) :
    ∃ pc ∈ ([⟨ro, p0⟩] : List (View.Piece (Elt F) S1x64x128x128 .f32)), y ∈ pc.1.set :=
  View.cover_of_tiled [⟨ro, p0⟩] S1x64x128x128.size (by rfl) y

set_option maxHeartbeats 4000000 in
/-- The body on whole staging buffers, the inputs' at contents `x0`, `x1` and the outputs' at anything, runs to the
    continuation with the inputs' unchanged and the outputs' at `out1_2`, `out1_3` of the inputs. -/
theorem sound_kernel1 (c : Dev nD) (E : Set ℕ) (i : grid1.Coords) (arg1 : Memref sig .tc .vmem S1x64x130x130 .f32) (harg1 : arg1.IsWhole) (arg2 : Memref sig .tc .vmem S1x64x9 .f32) (harg2 : arg2.IsWhole)
    (arg3 : Memref sig .tc .vmem S1x64x128x128 .f32) (harg3 : arg3.IsWhole) (arg4 : Memref sig .tc .vmem S1x64x128x128 .f32) (harg4 : arg4.IsWhole)
    (x0 : Vec F S1x64x130x130 .f32) (x1 : Vec F S1x64x9 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__apply_filter_kernel i arg1 harg1 arg2 harg2 arg3 harg3 arg4 harg4) K := by
  simp only [cc1__apply_filter_kernel_eq_skeleton]; unfold cc1__apply_filter_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

end Region1

section Region1
variable (V : (c : Dev nD) → (b : Ref sig .tc) → Buf (Elt F) ((c : Thread nD τ).loc b))

/-- The region's proof data on core `c`: the arrays as the region finds them; after the body each input's buffer at its
    block, the outputs' at the low-pass and high-pass blocks of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.BRun.lean ====
/-
  The printed kernel program's run (the word-level instance), as @main's four segments in order — the pooling region, the host stretch that turns the
  pooled means into the per-channel tap weights, the host stretch that reflect-pads the image, the filtering region —
  composed by the several-regions launch theorem. Every boundary's buffer contents are named (`W0 … W5`): a host
  stretch's are the operations' fold over the contents before it, a region's are its arrays at what the pipeline's
  write-backs leave and every other buffer as entered. The conclusion `run_all` says every weakly fair execution
  terminates with every unscoped buffer at `W5`; the frame and the value claims read it at the buffers they name.
-/
import proofs.«141267_j22771916603489_2_alg».proof.Proof.BFrame0
import proofs.«141267_j22771916603489_2_alg».proof.Proof.BFrame1
import proofs.«141267_j22771916603489_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-! ## The buffer contents at each segment boundary -/

/-- At launch. -/
abbrev W0 : Dev nD → Valuation τ sig (Elt F) := fun c b => m (c, b)
/-- The same read at the TensorCore's references (what the pooling region's proof data take). -/
abbrev V0 : (c : Dev nD) → (b : Ref sig .tc) → Buf (Elt F) ((c : Thread nD τ).loc b) := fun c b => W0 m c b
/-- After the pooling region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the host stretch from the pooled means to the tap weights. -/
abbrev W2 : Dev nD → Valuation τ sig (Elt F) := fun c => StableHlo.after hostOps1 (W1 m c)
/-- After the reflect-padding stretch (the filtering region's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- After the filtering region. -/
def W5 (c : Dev nD) : Valuation τ sig (Elt F) :=
  Pipeline.withArrays spec1 c (W3 m c) fun w => (dat1 (V3 m) c).arrAt w cfg1.N
theorem W5_arr (c : Dev nD) (w : Fin cfg1.W) :
    W5 m c (Proc.devRef .tc (Pipeline.arrRef spec1 w)) = (dat1 (V3 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W3 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V3 m) c).arrAt w cfg1.N = V5 m c (Pipeline.arrRef spec1 w) :=
  (W5_arr m c w).symm
theorem hrest1 (c : Dev nD) : ∀ b, b ∉ Finset.univ.image (Pipeline.arrRef spec1) → V5 m c b = V3 m c b :=
  fun b hb => W5_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. Its arrays are split out of
    the unscoped buffers and put back at the exit contents; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W5`. Its arrays are split out of
    the unscoped buffers and put back at the exit contents; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]
theorem main_run (c : Dev nD) : main (F := F) c = Pipeline.Seg.run (segs m) := (main_chain c).trans (by chain_rfl)

set_option backward.isDefEq.respectTransparency.types false in
/-- THE RUN. At the compiled mesh, from any memory with zero counters and any generator registers, every weakly fair
    execution of @main terminates, nothing faulting, and every final memory has every unscoped buffer at `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ∉ hostOps1_1_W) : W3 m c (Proc.devRef .tc r) = W2 m c (Proc.devRef .tc r) :=
  StableHlo.after_of_writes_sub hostOps1_1 _ hostOps1_1_writes h

/-- The image: no host operation writes it, the pooling region stages it as an input, the filtering region bypasses it. -/
theorem W5_main_arg0 (c : Dev nD) : W5 m c (Proc.devRef .tc main_arg0) = m ((c : Thread nD τ).loc main_arg0) :=
  (W5_of_ne m c main_arg0 (by decide)).trans <| (W3_of m c main_arg0 (by decide)).trans <| (W2_of m c main_arg0 (by decide)).trans <|
    (W1_arr m c 0).trans (((dat0 (V0 m) c).arrAt_in 0 rfl _).trans (A_eq0 (V0 m) c 0))
theorem W5_main_arg1 (c : Dev nD) : W5 m c (Proc.devRef .tc main_arg1) = m ((c : Thread nD τ).loc main_arg1) :=
  (W5_of_ne m c main_arg1 (by decide)).trans <| (W3_of m c main_arg1 (by decide)).trans <| (W2_of m c main_arg1 (by decide)).trans <|
    (W1_of_ne m c main_arg1 (by decide)).trans rfl
theorem W5_main_arg2 (c : Dev nD) : W5 m c (Proc.devRef .tc main_arg2) = m ((c : Thread nD τ).loc main_arg2) :=
  (W5_of_ne m c main_arg2 (by decide)).trans <| (W3_of m c main_arg2 (by decide)).trans <| (W2_of m c main_arg2 (by decide)).trans <|
    (W1_of_ne m c main_arg2 (by decide)).trans rfl
theorem W5_main_arg3 (c : Dev nD) : W5 m c (Proc.devRef .tc main_arg3) = m ((c : Thread nD τ).loc main_arg3) :=
  (W5_of_ne m c main_arg3 (by decide)).trans <| (W3_of m c main_arg3 (by decide)).trans <| (W2_of m c main_arg3 (by decide)).trans <|
    (W1_of_ne m c main_arg3 (by decide)).trans rfl
theorem W5_main_arg4 (c : Dev nD) : W5 m c (Proc.devRef .tc main_arg4) = m ((c : Thread nD τ).loc main_arg4) :=
  (W5_of_ne m c main_arg4 (by decide)).trans <| (W3_of m c main_arg4 (by decide)).trans <| (W2_of m c main_arg4 (by decide)).trans <|
    (W1_of_ne m c main_arg4 (by decide)).trans rfl

/-- THE FRAME, at any float instance: every weakly fair execution terminates and the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Fr

end
-- ==== Proof.KFrame0.lean ====
/-
  The pooling region of the kernel program, read at the contents `V` the region is entered with.
  The grid has two points; point `t` stages rows 64 t … 64 t + 63 of every image plane. The body keeps an
  8 x 64 accumulator in a scratch buffer across the two points: at point 0 it clears it, at each point it adds the
  plane-block's sum (over the lane axis, then over the 64 rows), and at point 1 it scales the accumulator by 2^-14
  into the output block, which is written back only there. This module runs the body once per case, states what
  the accumulator and the output block hold after each point, and gives the region's proof data and body obligation;
  the invariant carries the accumulator's contents from one point to the next.
-/
import proofs.«141267_j22771916603489_2_alg».proof.Proof.Gen.KernelIdeal.Launch
import proofs.«141267_j22771916603489_2_alg».proof.Proof.Gen.KernelIdeal.Skeleton
import proofs.«141267_j22771916603489_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The body's two conditions, decided over the grid -/

/-- "This is the first point": the accumulator is cleared. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val % 2 = 0 :=
  (by decide +kernel : ∀ t : Fin grid0.N, condA (grid0.coords t) ↔ t.val % 2 = 0)
/-- "This is the last point": the scaled accumulator is stored to the output block. -/
abbrev condB (i : grid0.Coords) : Prop := k0_cond2 i = 1#1
theorem hcondB : ∀ t : Fin cfg0.N, condB (grid0.coords t) ↔ t.val % 2 = 1 :=
  (by decide +kernel : ∀ t : Fin grid0.N, condB (grid0.coords t) ↔ t.val % 2 = 1)

theorem liveAt0_0 : ∀ t : Fin cfg0.N, cfg0.idle 0 (grid0.coords t) = false := by decide +kernel
theorem idleAt0_1_A : ∀ t : Fin cfg0.N, condA (grid0.coords t) → ¬condB (grid0.coords t) → cfg0.idle 1 (grid0.coords t) = true := by decide +kernel
theorem noFlush0_1_A : ∀ t : Fin cfg0.N, condA (grid0.coords t) → ¬condB (grid0.coords t) → (cfg0.win 1).flush t = false := by decide +kernel
theorem liveAt0_1_B : ∀ t : Fin cfg0.N, ¬condA (grid0.coords t) → condB (grid0.coords t) → cfg0.idle 1 (grid0.coords t) = false := by decide +kernel

/-! ## The memrefs the body is called with -/

abbrev VO0_1 : View sig .tc .vmem S8x64 .f32 := (Memref.whole cc0_stg1_0 : Memref sig .tc .vmem S8x64 .f32).view
abbrev ms0_0 (t : Fin cfg0.N) : Memref sig .tc .vmem S8x64x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64 .f32 := win0_1.stage (cfg0.slots t 1)
abbrev hs0_1 (t : Fin cfg0.N) : (ms0_1 t).IsWhole := hstage0_1 ((cfg0.slots t 1).cast nbuf0_1)
/-- The accumulator's buffer. -/
abbrev scM0 : Memref sig .tc .vmem S8x64 .f32 := Memref.whole cc0_scratch0
abbrev VS0 : View sig .tc .vmem S8x64 .f32 := scM0.view

/-- The scoped buffers of the other region, which this region's body never touches: each whole at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator's buffer singled out. -/
theorem PhiA0_eq (c : Dev nD) :
    (Pipeline.ΦA spec0 c : sProp 𝕄)
      = iprop(iprop((∃ d, owns (c : Thread nD τ) scM0 fullShare d) ∗ rest8 c) ∗ (∃ r, prngReg c r)) := by
  unfold Pipeline.ΦA rest8; rw [scopedRest0_eq]; simp only [scM0, owns_whole]; try rfl

/-! ## The body, once per case -/

set_option maxHeartbeats 4000000 in
/-- FIRST POINT (the accumulator cleared, nothing stored to the output): on whole memrefs, the plane block at `x0`, the
    output's buffer at `xi1` handed back untouched, the accumulator's at anything, the body runs to the continuation with
    the accumulator's buffer at its pieces written. -/
noncomputable def kernelRun0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) :
    Σ' (L1 : List (View.Piece (Elt F) S8x64 .f32)), { LS0 : List (View.Piece (Elt F) S8x64 .f32) //
      ∀ (xi1 : Vec F S8x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gap_kernel i arg1 harg1 arg2 harg2 arg3 harg3) K } := by
  refine ⟨[], ?_, fun xi1 E K => ?run⟩
  case run =>
    simp only [cc0__gap_kernel_eq_skeleton]; unfold cc0__gap_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- LAST POINT (no clearing; the scaled accumulator stored to the output): the plane block at `x0`, the output's buffer at
    anything, the accumulator's at what the point before left (`xs0`). -/
noncomputable def kernelRun0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) :
    Σ' (L1 : List (View.Piece (Elt F) S8x64 .f32)), { LS0 : List (View.Piece (Elt F) S8x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gap_kernel i arg1 harg1 arg2 harg2 arg3 harg3) K } := by
  refine ⟨?_, ?_, fun E K => ?run⟩
  case run =>
    simp only [cc0__gap_kernel_eq_skeleton]; unfold cc0__gap_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The plane block's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

theorem scover0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) (y : S8x64.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x64.size (by sl_kernel_rfl) y

/-- The accumulator after the first point. -/
def sout0_A (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) : Vec F S8x64 .f32 :=
  VS0.read (Elt F) (VS0.writes (Elt F) VS0.junk (kernelRun0_A c i arg1 harg1 arg2 harg2 arg3 harg3 hc0 hc1 x0).2.1)

theorem cover0_B_1 (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) (y : S8x64.Idx) :
    ∃ pc ∈ (kernelRun0_B c i arg1 harg1 arg2 harg2 arg3 harg3 hc0 hc1 x0 xs0).1, y ∈ pc.1.set :=
  View.cover_of_tiledL (kernelRun0_B c i arg1 harg1 arg2 harg2 arg3 harg3 hc0 hc1 x0 xs0).1 S8x64.size (by sl_kernel_rfl) y

/-- The output block after the last point. -/
def out0_B_1 (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) : Vec F S8x64 .f32 :=
  VO0_1.read (Elt F) (VO0_1.writes (Elt F) VO0_1.junk (kernelRun0_B c i arg1 harg1 arg2 harg2 arg3 harg3 hc0 hc1 x0 xs0).1)

theorem scover0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) (y : S8x64.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x64.size (by sl_kernel_rfl) y

/-- The accumulator after the last point. -/
def sout0_B (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) : Vec F S8x64 .f32 :=
  VS0.read (Elt F) (VS0.writes (Elt F) VS0.junk (kernelRun0_B c i arg1 harg1 arg2 harg2 arg3 harg3 hc0 hc1 x0 xs0).2.1)

/-! ## The two points -/

theorem cA0 : condA (grid0.coords t0_0) := (hcondA t0_0).mpr (by show (0 : ℕ) % 2 = 0; rfl)
theorem cB0 : ¬condB (grid0.coords t0_0) := fun h => absurd ((hcondB t0_0).mp h) (by show ¬((0 : ℕ) % 2 = 1); decide)
theorem cA1 : ¬condA (grid0.coords t0_1) := fun h => absurd ((hcondA t0_1).mp h) (by show ¬((1 : ℕ) % 2 = 0); decide)
theorem cB1 : condB (grid0.coords t0_1) := (hcondB t0_1).mpr (by show (1 : ℕ) % 2 = 1; rfl)

section Region0
variable (V : (c : Dev nD) → (b : Ref sig .tc) → Buf (Elt F) ((c : Thread nD τ).loc b))

/-- The accumulator after point 0: cleared, then the first half-plane sums added. -/
def accA (c : Dev nD) : Vec F S8x64 .f32 :=
  sout0_A c (grid0.coords t0_0) (ms0_0 t0_0) (hs0_0 t0_0) (ms0_1 t0_0) (hs0_1 t0_0) scM0 (Memref.isWhole_whole _) cA0 cB0 (iblk0 V c 0 t0_0)
/-- The accumulator after point 1: the second half-plane sums added. -/
def accB (c : Dev nD) : Vec F S8x64 .f32 :=
  sout0_B c (grid0.coords t0_1) (ms0_0 t0_1) (hs0_0 t0_1) (ms0_1 t0_1) (hs0_1 t0_1) scM0 (Memref.isWhole_whole _) cA1 cB1 (iblk0 V c 0 t0_1) (accA V c)
/-- The output block after point 1: the accumulator scaled. -/
def gapB (c : Dev nD) : Vec F S8x64 .f32 :=
  out0_B_1 c (grid0.coords t0_1) (ms0_0 t0_1) (hs0_0 t0_1) (ms0_1 t0_1) (hs0_1 t0_1) scM0 (Memref.isWhole_whole _) cA1 cB1 (iblk0 V c 0 t0_1) (accA V c)

/-- The output block after the body at position `n` (at point 0 nothing is stored: a placeholder nothing consults). -/
def outAfter (c : Dev nD) : ℕ → Vec F S8x64 .f32
  | 0 => VO0_1.read (Elt F) VO0_1.junk
  | _ + 1 => gapB V c

/-- The invariant before position `n`: the class's before the first point; afterwards the accumulator at what the
    point before left, the other region's buffers at anything, the generator register at some state. -/
def PhiS (c : Dev nD) : ℕ → sProp 𝕄
  | 0 => Pipeline.ΦA spec0 c
  | 1 => iprop(iprop(owns (c : Thread nD τ) scM0 fullShare (accA V c) ∗ rest8 c) ∗ (∃ r, prngReg c r))
  | _ + 2 => iprop(iprop(owns (c : Thread nD τ) scM0 fullShare (accB V c) ∗ rest8 c) ∗ (∃ r, prngReg c r))

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAfter V c t.val
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outAfter V c t.val := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at either point: the case's run applies; the invariant hands it the accumulator at what the point before
    left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rcases fin_N0 t with rfl | rfl
  · rw [show (dat0 V c).leavesExact 0 t0_0 = owns (c : Thread nD τ) (ms0_0 t0_0) fullShare ((dat0 V c).after 0 t0_0) from by
      unfold Dat.leavesExact; rw [liveAt0_0 t0_0], after0_0]
    rw [Dat.leavesExact_idle (dat0 V c) 1 t0_0 (idleAt0_1_A t0_0 cA0 cB0) (noFlush0_1_A t0_0 cA0 cB0)]
    rw [show (dat0 V c).Φ t0_0.castSucc = Pipeline.ΦA spec0 c from rfl, PhiA0_eq,
      show (dat0 V c).Φ t0_0.succ = iprop(iprop(owns (c : Thread nD τ) scM0 fullShare (accA V c) ∗ rest8 c) ∗ (∃ r, prngReg c r)) from rfl]
    unfold accA sout0_A
    iintro ⟨⟨⟨HS0, HR⟩, Hg⟩, Ho, ⟨%d0, H0⟩, ⟨%d1, H1⟩⟩
    iapply ((kernelRun0_A c (grid0.coords t0_0) _ _ _ _ _ _ cA0 cB0 (iblk0 V c 0 t0_0)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _)
        iexact HR
      iexact Hg
    isplitl [Ho]; · iexact Ho
    isplitl [H0]; · iexact H0
    iexists _; iexact H1
  · rw [show (dat0 V c).leavesExact 0 t0_1 = owns (c : Thread nD τ) (ms0_0 t0_1) fullShare ((dat0 V c).after 0 t0_1) from by
      unfold Dat.leavesExact; rw [liveAt0_0 t0_1], after0_0]
    rw [show (dat0 V c).leavesExact 1 t0_1 = owns (c : Thread nD τ) (ms0_1 t0_1) fullShare ((dat0 V c).after 1 t0_1) from by
      unfold Dat.leavesExact; rw [liveAt0_1_B t0_1 cA1 cB1], after0_1]
    rw [show (dat0 V c).Φ t0_1.castSucc = iprop(iprop(owns (c : Thread nD τ) scM0 fullShare (accA V c) ∗ rest8 c) ∗ (∃ r, prngReg c r)) from rfl,
      show (dat0 V c).Φ t0_1.succ = iprop(iprop(owns (c : Thread nD τ) scM0 fullShare (accB V c) ∗ rest8 c) ∗ (∃ r, prngReg c r)) from rfl,
      show outAfter V c t0_1.val = gapB V c from rfl]
    unfold accB gapB sout0_B out0_B_1
    iintro ⟨⟨⟨HS0, HR⟩, Hg⟩, Ho, ⟨%d0, H0⟩, ⟨%d1, H1⟩⟩
    iapply ((kernelRun0_B c (grid0.coords t0_1) _ _ _ _ _ _ cA1 cB1 (iblk0 V c 0 t0_1) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_B_1 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = iprop(iprop(owns (c : Thread nD τ) scM0 fullShare (accB V c) ∗ rest8 c) ∗ (∃ r, prngReg c r)) from rfl, PhiA0_eq]
  iintro ⟨⟨HS0, HR⟩, Hg⟩
  isplitl [HS0 HR]
  · isplitl [HS0]
    · iexists _; iexact HS0
    iexact HR
  iexact Hg

end Region0

end Cert.KernelIdeal.Fr

end
-- ==== Proof.KFrame1.lean ====
/-
  The filtering region of the kernel program, read at the contents `V` the region is entered with.
  Grid point `t` (one image of the batch) stages the padded image block `xp[t]` (64 x 130 x 130) and the
  per-channel tap weights `f[t]` (64 x 9); the body forms
      low[c,h,w]  = sum over the nine taps (ky,kx) of xp[t][c, h+ky, w+kx] * f[t][c, 3*ky+kx]
      high[c,h,w] = xp[t][c, h+1, w+1] - low[c,h,w]
  and stores each whole into its output block, which the point writes back. This module states what each output
  block holds after the body as a function of the two input blocks, proves the body's triple, and gives the
  region's proof data and body obligation.
-/
import proofs.«141267_j22771916603489_2_alg».proof.Proof.Gen.KernelIdeal.Launch
import proofs.«141267_j22771916603489_2_alg».proof.Proof.Gen.KernelIdeal.Skeleton
import proofs.«141267_j22771916603489_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The padded image's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The tap weights' staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the nine shifted 128 x 128 windows of the padded block, the nine weight columns -/
abbrev rx00 : Rect S1x64x130x130 := Rect.unit (s := S1x64x130x130) ![0, 0, 0, 0] S1x64x128x128.size inb_S1x64x130x130_S1x64x128x128_0_0_0_0
abbrev rx01 : Rect S1x64x130x130 := Rect.unit (s := S1x64x130x130) ![0, 0, 0, 1] S1x64x128x128.size inb_S1x64x130x130_S1x64x128x128_0_0_0_1
abbrev rx02 : Rect S1x64x130x130 := Rect.unit (s := S1x64x130x130) ![0, 0, 0, 2] S1x64x128x128.size inb_S1x64x130x130_S1x64x128x128_0_0_0_2
abbrev rx10 : Rect S1x64x130x130 := Rect.unit (s := S1x64x130x130) ![0, 0, 1, 0] S1x64x128x128.size inb_S1x64x130x130_S1x64x128x128_0_0_1_0
abbrev rx11 : Rect S1x64x130x130 := Rect.unit (s := S1x64x130x130) ![0, 0, 1, 1] S1x64x128x128.size inb_S1x64x130x130_S1x64x128x128_0_0_1_1
abbrev rx12 : Rect S1x64x130x130 := Rect.unit (s := S1x64x130x130) ![0, 0, 1, 2] S1x64x128x128.size inb_S1x64x130x130_S1x64x128x128_0_0_1_2
abbrev rx20 : Rect S1x64x130x130 := Rect.unit (s := S1x64x130x130) ![0, 0, 2, 0] S1x64x128x128.size inb_S1x64x130x130_S1x64x128x128_0_0_2_0
abbrev rx21 : Rect S1x64x130x130 := Rect.unit (s := S1x64x130x130) ![0, 0, 2, 1] S1x64x128x128.size inb_S1x64x130x130_S1x64x128x128_0_0_2_1
abbrev rx22 : Rect S1x64x130x130 := Rect.unit (s := S1x64x130x130) ![0, 0, 2, 2] S1x64x128x128.size inb_S1x64x130x130_S1x64x128x128_0_0_2_2
abbrev rf0 : Rect S1x64x9 := Rect.unit (s := S1x64x9) ![0, 0, 0] S1x64x1.size inb_S1x64x9_S1x64x1_0_0_0
abbrev rf1 : Rect S1x64x9 := Rect.unit (s := S1x64x9) ![0, 0, 1] S1x64x1.size inb_S1x64x9_S1x64x1_0_0_1
abbrev rf2 : Rect S1x64x9 := Rect.unit (s := S1x64x9) ![0, 0, 2] S1x64x1.size inb_S1x64x9_S1x64x1_0_0_2
abbrev rf3 : Rect S1x64x9 := Rect.unit (s := S1x64x9) ![0, 0, 3] S1x64x1.size inb_S1x64x9_S1x64x1_0_0_3
abbrev rf4 : Rect S1x64x9 := Rect.unit (s := S1x64x9) ![0, 0, 4] S1x64x1.size inb_S1x64x9_S1x64x1_0_0_4
abbrev rf5 : Rect S1x64x9 := Rect.unit (s := S1x64x9) ![0, 0, 5] S1x64x1.size inb_S1x64x9_S1x64x1_0_0_5
abbrev rf6 : Rect S1x64x9 := Rect.unit (s := S1x64x9) ![0, 0, 6] S1x64x1.size inb_S1x64x9_S1x64x1_0_0_6
abbrev rf7 : Rect S1x64x9 := Rect.unit (s := S1x64x9) ![0, 0, 7] S1x64x1.size inb_S1x64x9_S1x64x1_0_0_7
abbrev rf8 : Rect S1x64x9 := Rect.unit (s := S1x64x9) ![0, 0, 8] S1x64x1.size inb_S1x64x9_S1x64x1_0_0_8
abbrev ro : Rect S1x64x128x128 := Rect.unit (s := S1x64x128x128) ![0, 0, 0, 0] S1x64x128x128.size inb_S1x64x128x128_S1x64x128x128_0_0_0_0

/-! ## What the body leaves in each output block -/

/-- The running sum after the first three taps (row ky = 0). -/
def acc3 (x0 : Vec F S1x64x130x130 .f32) (x1 : Vec F S1x64x9 .f32) : FVec F S64x128x128 .f32 :=
  k1_pay5 (View.ld x0 rx00) (View.ld x1 rf0) (View.ld x0 rx01) (View.ld x1 rf1) (View.ld x0 rx02) (View.ld x1 rf2)
/-- The running sum after seven taps. -/
def acc7 (x0 : Vec F S1x64x130x130 .f32) (x1 : Vec F S1x64x9 .f32) : FVec F S64x128x128 .f32 :=
  k1_pay7 (acc3 x0 x1) (k1_pay6 (View.ld x0 rx10)) (View.ld x1 rf3) (View.ld x0 rx11) (View.ld x1 rf4) (View.ld x0 rx12) (View.ld x1 rf5) (View.ld x0 rx20) (View.ld x1 rf6)
/-- The low-pass block: all nine taps, as the one whole store leaves it. -/
def out1_2 (x0 : Vec F S1x64x130x130 .f32) (x1 : Vec F S1x64x9 .f32) : Vec F S1x64x128x128 .f32 :=
  View.canon [⟨ro, k1_pay2 (acc7 x0 x1) (k1_pay8 (View.ld x0 rx21)) (View.ld x1 rf7) (View.ld x0 rx22) (View.ld x1 rf8)⟩]
/-- The high-pass block: the centre window minus the low-pass block. -/
def out1_3 (x0 : Vec F S1x64x130x130 .f32) (x1 : Vec F S1x64x9 .f32) : Vec F S1x64x128x128 .f32 :=
  View.canon [⟨ro, k1_pay3 (k1_pay4 (View.ld x0 rx11)) (acc7 x0 x1) (k1_pay8 (View.ld x0 rx21)) (View.ld x1 rf7) (View.ld x0 rx22) (View.ld x1 rf8)⟩]

/-- One whole store covers the block. -/
theorem cover1 (p0 : Vec F S1x64x128x128 .f32) (y : S1x64x128x128.Idx) :
    ∃ pc ∈ ([⟨ro, p0⟩] : List (View.Piece (Elt F) S1x64x128x128 .f32)), y ∈ pc.1.set :=
  View.cover_of_tiled [⟨ro, p0⟩] S1x64x128x128.size (by rfl) y

set_option maxHeartbeats 4000000 in
/-- The body on whole staging buffers, the inputs' at contents `x0`, `x1` and the outputs' at anything, runs to the
    continuation with the inputs' unchanged and the outputs' at `out1_2`, `out1_3` of the inputs. -/
theorem sound_kernel1 (c : Dev nD) (E : Set ℕ) (i : grid1.Coords) (arg1 : Memref sig .tc .vmem S1x64x130x130 .f32) (harg1 : arg1.IsWhole) (arg2 : Memref sig .tc .vmem S1x64x9 .f32) (harg2 : arg2.IsWhole)
    (arg3 : Memref sig .tc .vmem S1x64x128x128 .f32) (harg3 : arg3.IsWhole) (arg4 : Memref sig .tc .vmem S1x64x128x128 .f32) (harg4 : arg4.IsWhole)
    (x0 : Vec F S1x64x130x130 .f32) (x1 : Vec F S1x64x9 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__apply_filter_kernel i arg1 harg1 arg2 harg2 arg3 harg3 arg4 harg4) K := by
  simp only [cc1__apply_filter_kernel_eq_skeleton]; unfold cc1__apply_filter_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

end Region1

section Region1
variable (V : (c : Dev nD) → (b : Ref sig .tc) → Buf (Elt F) ((c : Thread nD τ).loc b))

/-- The region's proof data on core `c`: the arrays as the region finds them; after the body each input's buffer at its
    block, the outputs' at the low-pass and high-pass blocks of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KRun.lean ====
/-
  The kernel program's run, as @main's four segments in order — the pooling region, the host stretch that turns the
  pooled means into the per-channel tap weights, the host stretch that reflect-pads the image, the filtering region —
  composed by the several-regions launch theorem. Every boundary's buffer contents are named (`W0 … W5`): a host
  stretch's are the operations' fold over the contents before it, a region's are its arrays at what the pipeline's
  write-backs leave and every other buffer as entered. The conclusion `run_all` says every weakly fair execution
  terminates with every unscoped buffer at `W5`; the frame and the value claims read it at the buffers they name.
-/
import proofs.«141267_j22771916603489_2_alg».proof.Proof.KFrame0
import proofs.«141267_j22771916603489_2_alg».proof.Proof.KFrame1
import proofs.«141267_j22771916603489_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-! ## The buffer contents at each segment boundary -/

/-- At launch. -/
abbrev W0 : Dev nD → Valuation τ sig (Elt F) := fun c b => m (c, b)
/-- The same read at the TensorCore's references (what the pooling region's proof data take). -/
abbrev V0 : (c : Dev nD) → (b : Ref sig .tc) → Buf (Elt F) ((c : Thread nD τ).loc b) := fun c b => W0 m c b
/-- After the pooling region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the host stretch from the pooled means to the tap weights. -/
abbrev W2 : Dev nD → Valuation τ sig (Elt F) := fun c => StableHlo.after hostOps1 (W1 m c)
/-- After the reflect-padding stretch (the filtering region's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- After the filtering region. -/
def W5 (c : Dev nD) : Valuation τ sig (Elt F) :=
  Pipeline.withArrays spec1 c (W3 m c) fun w => (dat1 (V3 m) c).arrAt w cfg1.N
theorem W5_arr (c : Dev nD) (w : Fin cfg1.W) :
    W5 m c (Proc.devRef .tc (Pipeline.arrRef spec1 w)) = (dat1 (V3 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W3 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V3 m) c).arrAt w cfg1.N = V5 m c (Pipeline.arrRef spec1 w) :=
  (W5_arr m c w).symm
theorem hrest1 (c : Dev nD) : ∀ b, b ∉ Finset.univ.image (Pipeline.arrRef spec1) → V5 m c b = V3 m c b :=
  fun b hb => W5_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. Its arrays are split out of
    the unscoped buffers and put back at the exit contents; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W5`. Its arrays are split out of
    the unscoped buffers and put back at the exit contents; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]
theorem main_run (c : Dev nD) : main (F := F) c = Pipeline.Seg.run (segs m) := (main_chain c).trans (by chain_rfl)

set_option backward.isDefEq.respectTransparency.types false in
/-- THE RUN. At the compiled mesh, from any memory with zero counters and any generator registers, every weakly fair
    execution of @main terminates, nothing faulting, and every final memory has every unscoped buffer at `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ∉ hostOps1_1_W) : W3 m c (Proc.devRef .tc r) = W2 m c (Proc.devRef .tc r) :=
  StableHlo.after_of_writes_sub hostOps1_1 _ hostOps1_1_writes h

/-- The image: no host operation writes it, the pooling region stages it as an input, the filtering region bypasses it. -/
theorem W5_main_arg0 (c : Dev nD) : W5 m c (Proc.devRef .tc main_arg0) = m ((c : Thread nD τ).loc main_arg0) :=
  (W5_of_ne m c main_arg0 (by decide)).trans <| (W3_of m c main_arg0 (by decide)).trans <| (W2_of m c main_arg0 (by decide)).trans <|
    (W1_arr m c 0).trans (((dat0 (V0 m) c).arrAt_in 0 rfl _).trans (A_eq0 (V0 m) c 0))
theorem W5_main_arg1 (c : Dev nD) : W5 m c (Proc.devRef .tc main_arg1) = m ((c : Thread nD τ).loc main_arg1) :=
  (W5_of_ne m c main_arg1 (by decide)).trans <| (W3_of m c main_arg1 (by decide)).trans <| (W2_of m c main_arg1 (by decide)).trans <|
    (W1_of_ne m c main_arg1 (by decide)).trans rfl
theorem W5_main_arg2 (c : Dev nD) : W5 m c (Proc.devRef .tc main_arg2) = m ((c : Thread nD τ).loc main_arg2) :=
  (W5_of_ne m c main_arg2 (by decide)).trans <| (W3_of m c main_arg2 (by decide)).trans <| (W2_of m c main_arg2 (by decide)).trans <|
    (W1_of_ne m c main_arg2 (by decide)).trans rfl
theorem W5_main_arg3 (c : Dev nD) : W5 m c (Proc.devRef .tc main_arg3) = m ((c : Thread nD τ).loc main_arg3) :=
  (W5_of_ne m c main_arg3 (by decide)).trans <| (W3_of m c main_arg3 (by decide)).trans <| (W2_of m c main_arg3 (by decide)).trans <|
    (W1_of_ne m c main_arg3 (by decide)).trans rfl
theorem W5_main_arg4 (c : Dev nD) : W5 m c (Proc.devRef .tc main_arg4) = m ((c : Thread nD τ).loc main_arg4) :=
  (W5_of_ne m c main_arg4 (by decide)).trans <| (W3_of m c main_arg4 (by decide)).trans <| (W2_of m c main_arg4 (by decide)).trans <|
    (W1_of_ne m c main_arg4 (by decide)).trans rfl

/-- THE FRAME, at any float instance: every weakly fair execution terminates and the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Fr

end
-- ==== Proof.SpecGap.lean ====
/-
  The pooled mean of a plane, two ways. The reference divides the sum over a whole 128 x 128 plane by
  16384; the kernel adds the sums of the plane's two halves (rows 0-63 and rows 64-127, each summed
  along a row first and then over the rows) into a zero accumulator and multiplies by 2^-14. Over the
  extended reals the two agree for every input: addition is commutative and associative, so a sum may be
  regrouped freely, and dividing by the real 16384 is multiplying by its reciprocal.
-/
import proofs.«141267_j22771916603489_2_alg».proof.Proof.Gen.ReferenceIdeal
import Idealize.ShloMosaic.PureOps.Ideal.Laws
import Idealize.ShloMosaic.Lib.ValueIdx
import Idealize.ShloMosaic.Lib.IdealHost

noncomputable section

namespace Cert.ReferenceIdeal.RefValue

open Idealize.ShloMosaic Idealize.SL.Sem
open Cert.ReferenceIdeal Cert.ReferenceIdeal.Facts₀

/-- The shape of one half-plane block: 8 samples, 64 channels, 64 rows, 128 lanes. -/
abbrev S8x64x64x128 : Shape := ⟨4, ![8, 64, 64, 128]⟩
/-- The shape of a half-plane block summed along its rows' lanes: 8 samples, 64 channels, 64 rows. -/
abbrev S8x64x64 : Shape := ⟨3, ![8, 64, 64]⟩

/-- The reference's pooled mean: the sum of `x` over each 128 x 128 plane, from the initial value zero,
    divided by 16384 (the word 0x46800000), per sample and channel. -/
def gapRef (x : FVec Ideal S8x64x128x128 .f32) : FVec Ideal S8x64 .f32 :=
  Host.divf (F := Ideal)
    (Host.reduceAdd (F := Ideal) x (constant (F := Ideal) S_ .f32 0x00000000#32) reducesTo_S8x64x128x128_S8x64_d2_3 h_S_)
    (broadcastInDim S8x64 ![] bcast_S_S8x64 (constant (F := Ideal) S_ .f32 0x46800000#32))

/-- The sum of a half-plane block per sample and channel, as the kernel takes it: along the lanes of each
    row first, then over the 64 rows. -/
def rowsum (hr1 : S8x64x64x128.Reduces [3] S8x64x64) (hr2 : S8x64x64.Reduces [2] S8x64)
    (b : FVec Ideal S8x64x64x128 .f32) : FVec Ideal S8x64 .f32 :=
  multiReduction (F := Ideal) .add [2] S8x64
    (multiReduction (F := Ideal) .add [3] S8x64x64 b 0x00000000#32 hr1 (.inl rfl) rfl)
    0x00000000#32 hr2 (.inl rfl) rfl

open Idealize.ShloMosaic.ValueIdx

/-- The word 0x46800000 denotes the real 16384 = 2^14. -/
theorem ofBits_16384 : Ideal.ofBits .f32 0x46800000#32 = ((16384 : ℝ) : EReal) := by
  simp [Ideal.ofBits, Ideal.ieee, -EReal.coe_mul]; norm_num

/-- The word 0x38800000 denotes the real 1/16384 = 2^-14. -/
theorem ofBits_inv16384 : Ideal.ofBits .f32 0x38800000#32 = ((1 / 16384 : ℝ) : EReal) := by
  simp [Ideal.ofBits, Ideal.ieee, -EReal.coe_mul]; norm_num

/-- A half-plane block's sum per sample and channel, taken along the lanes and then over the rows, is the
    double sum over the block's 64 rows and 128 lanes. -/
theorem rowsum_apply (hr1 : S8x64x64x128.Reduces [3] S8x64x64) (hr2 : S8x64x64.Reduces [2] S8x64)
    (b : FVec Ideal S8x64x64x128 .f32) (n : Fin 8) (c : Fin 64) :
    rowsum hr1 hr2 b (ix2 n c) = ∑ h : Fin 64, ∑ w : Fin 128, b (ix4 n c h w) := by
  unfold rowsum
  refine (Ideal.multiReduction_add_single _ 0x00000000#32 hr2 (.inl rfl) rfl (ix2 n c)).trans ?_
  show ∑ h : Fin 64, _ = _
  refine Finset.sum_congr rfl fun h _ => ?_
  refine (Ideal.multiReduction_add_single b 0x00000000#32 hr1 (.inl rfl) rfl _).trans ?_
  show ∑ w : Fin 128, _ = _
  refine Finset.sum_congr rfl fun w _ => congrArg b ?_
  funext a
  match a with
  | ⟨0, _⟩ => rfl
  | ⟨1, _⟩ => rfl
  | ⟨2, _⟩ => rfl
  | ⟨3, _⟩ => rfl

/-- The indices of a 128 x 128 plane: those of the whole array that drop to sample `n`, channel `c` are
    exactly the `(n, c, h, w)`, so a sum over them is the double sum over the plane's rows and lanes. -/
theorem sum_plane (x : FVec Ideal S8x64x128x128 .f32) (hR : S8x64x128x128.ReducesTo [2, 3] S8x64)
    (n : Fin 8) (c : Fin 64) [DecidablePred fun i => hR.drop i = ix2 n c] :
    ∑ i ∈ Finset.univ.filter (fun i => hR.drop i = ix2 n c), x i
      = ∑ h : Fin 128, ∑ w : Fin 128, x (ix4 n c h w) := by
  rw [← Fintype.sum_prod_type' (f := fun (h : Fin 128) (w : Fin 128) => x (ix4 n c h w))]
  refine Finset.sum_nbij' (fun i => ((i 2 : Fin 128), (i 3 : Fin 128))) (fun p => ix4 n c p.1 p.2)
    (fun _ _ => Finset.mem_univ _) ?_ ?_ (fun _ _ => rfl) ?_
  · intro p _
    refine Finset.mem_filter.2 ⟨Finset.mem_univ _, ?_⟩
    funext a
    match a with
    | ⟨0, _⟩ => exact Fin.ext (hR.drop_apply_val_of_eq _ 0 0)
    | ⟨1, _⟩ => exact Fin.ext (hR.drop_apply_val_of_eq _ 1 1)
  · intro i hi
    have hj := (Finset.mem_filter.1 hi).2
    have h0 : (i 0).val = n.val := by
      rw [← hR.drop_apply_val_of_eq i 0 0, hj]
    have h1 : (i 1).val = c.val := by
      rw [← hR.drop_apply_val_of_eq i 1 1, hj]
    funext a
    match a with
    | ⟨0, _⟩ => exact Fin.ext h0.symm
    | ⟨1, _⟩ => exact Fin.ext h1.symm
    | ⟨2, _⟩ => rfl
    | ⟨3, _⟩ => rfl
  · intro i hi
    have hj := (Finset.mem_filter.1 hi).2
    have h0 : (i 0).val = n.val := by
      rw [← hR.drop_apply_val_of_eq i 0 0, hj]
    have h1 : (i 1).val = c.val := by
      rw [← hR.drop_apply_val_of_eq i 1 1, hj]
    refine congrArg x ?_
    funext a
    match a with
    | ⟨0, _⟩ => exact Fin.ext h0
    | ⟨1, _⟩ => exact Fin.ext h1
    | ⟨2, _⟩ => rfl
    | ⟨3, _⟩ => rfl

/-- A sum over the 128 rows of a plane is the sum over rows 0-63 plus the sum over rows 64-127. -/
theorem sum_halves (f : Fin 128 → EReal) :
    ∑ h : Fin 128, f h = ∑ h : Fin 64, f ⟨h.val, by omega⟩ + ∑ h : Fin 64, f ⟨64 + h.val, by omega⟩ :=
  Fin.sum_univ_add (a := 64) (b := 64) f

/-- The two ways of pooling agree at sample `n`, channel `c`, for every extended real input: zero plus the
    two half-plane sums, times 2^-14, is zero plus the whole-plane sum, divided by 16384. -/
theorem gap_bridge_apply (hr1 : S8x64x64x128.Reduces [3] S8x64x64) (hr2 : S8x64x64.Reduces [2] S8x64)
    (x : FVec Ideal S8x64x128x128 .f32) (b0 b1 : FVec Ideal S8x64x64x128 .f32)
    (h0 : ∀ (n : Fin 8) (c : Fin 64) (h : Fin 64) (w : Fin 128),
      b0 (ValueIdx.ix4 n c h w) = x (ValueIdx.ix4 n c ⟨h.val, by omega⟩ w))
    (h1 : ∀ (n : Fin 8) (c : Fin 64) (h : Fin 64) (w : Fin 128),
      b1 (ValueIdx.ix4 n c h w) = x (ValueIdx.ix4 n c ⟨64 + h.val, by omega⟩ w))
    (n : Fin 8) (c : Fin 64) :
    mulf (addf (addf (broadcast S8x64 (Scalar.ofBits (F := Ideal) .f32 0x00000000#32)) (rowsum hr1 hr2 b0))
        (rowsum hr1 hr2 b1)) (broadcast S8x64 (Scalar.ofBits (F := Ideal) .f32 0x38800000#32)) (ix2 n c)
      = gapRef x (ix2 n c) := by
  have hL : mulf (addf (addf (broadcast S8x64 (Scalar.ofBits (F := Ideal) .f32 0x00000000#32)) (rowsum hr1 hr2 b0))
        (rowsum hr1 hr2 b1)) (broadcast S8x64 (Scalar.ofBits (F := Ideal) .f32 0x38800000#32)) (ix2 n c)
      = ((Ideal.ofBits .f32 0x00000000#32 + rowsum hr1 hr2 b0 (ix2 n c)) + rowsum hr1 hr2 b1 (ix2 n c))
          * Ideal.ofBits .f32 0x38800000#32 := rfl
  have hRd : gapRef x (ix2 n c)
      = Ideal.div (Ideal.hostReduceAdd (reducesTo_S8x64x128x128_S8x64_d2_3 : S8x64x128x128.ReducesTo [2, 3] S8x64) x
            (Ideal.ofBits .f32 0x00000000#32) (ix2 n c))
          (Ideal.ofBits .f32 0x46800000#32) := rfl
  unfold Ideal.hostReduceAdd at hRd
  rw [hL, hRd, sum_plane, rowsum_apply, rowsum_apply, Ideal.ofBits_zero_f32, ofBits_inv16384, ofBits_16384,
    Ideal.div_coe (by norm_num : (16384 : ℝ) ≠ 0), zero_add, zero_add, sum_halves]
  congr 2
  · exact Finset.sum_congr rfl fun h _ => Finset.sum_congr rfl fun w _ => h0 n c h w
  · exact Finset.sum_congr rfl fun h _ => Finset.sum_congr rfl fun w _ => h1 n c h w

/-- The two ways of pooling agree at every extended real input: the kernel's zero accumulator plus the two
    half-plane sums, times 2^-14, is the reference's whole-plane sum divided by 16384. -/
theorem gap_bridge (hr1 : S8x64x64x128.Reduces [3] S8x64x64) (hr2 : S8x64x64.Reduces [2] S8x64)
    (x : FVec Ideal S8x64x128x128 .f32) (b0 b1 : FVec Ideal S8x64x64x128 .f32)
    (h0 : ∀ (n : Fin 8) (c : Fin 64) (h : Fin 64) (w : Fin 128),
      b0 (ValueIdx.ix4 n c h w) = x (ValueIdx.ix4 n c ⟨h.val, by omega⟩ w))
    (h1 : ∀ (n : Fin 8) (c : Fin 64) (h : Fin 64) (w : Fin 128),
      b1 (ValueIdx.ix4 n c h w) = x (ValueIdx.ix4 n c ⟨64 + h.val, by omega⟩ w)) :
    mulf (addf (addf (broadcast S8x64 (Scalar.ofBits (F := Ideal) .f32 0x00000000#32)) (rowsum hr1 hr2 b0))
        (rowsum hr1 hr2 b1)) (broadcast S8x64 (Scalar.ofBits (F := Ideal) .f32 0x38800000#32))
      = gapRef x := by
  funext j
  rw [eq_ix2 j]
  exact gap_bridge_apply hr1 hr2 x b0 b1 h0 h1 (j 0) (j 1)

end Cert.ReferenceIdeal.RefValue

end
-- ==== Proof.KPay0.lean ====
/-
  What the pooling region's body leaves, as arithmetic. The body's run keeps the stores of each case as a list of
  pieces; read back, the accumulator after the first grid point is the zero splat plus the first half-plane's sums,
  after the second point that plus the second half-plane's sums, and the output block is the accumulator times
  2^-14. At the extended reals this is the reference's mean over the whole plane.
-/
import proofs.«141267_j22771916603489_2_alg».proof.Proof.KFrame0
import proofs.«141267_j22771916603489_2_alg».proof.Proof.SpecGap
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The zero offsets of a rank-2 whole-buffer rectangle. -/
theorem hz2 : (![0, 0] : Fin 2 → Nat) = fun _ => 0 := funext fun a => by fin_cases a <;> rfl
/-- The zero offsets of a rank-4 whole-buffer rectangle. -/
theorem hz4 : (![0, 0, 0, 0] : Fin 4 → Nat) = fun _ => 0 := funext fun a => by fin_cases a <;> rfl

/-- After the first point the accumulator holds the zero splat plus the block's sums: the clearing store is read
    back by the adding store, which is the last piece. -/
theorem sout0_A_eq (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : condA i) (hc1 : ¬condB i)
    (x0 : Vec F S8x64x64x128 .f32) :
    sout0_A c i arg1 harg1 arg2 harg2 arg3 harg3 hc0 hc1 x0 = k0_pay2 x0 (k0_pay1 (F := F)) := by
  unfold sout0_A
  rw [View.read_writes_eq_canon _ _ _ (scover0_A c i arg1 harg1 arg2 harg2 arg3 harg3 hc0 hc1 x0)]
  unfold kernelRun0_A
  dsimp only
  sl_unfold_words
  rw [View.canon_cons_unit_zero hz2, View.readCov_unit_zero _ hz2]
  simp only [View.readAt_eq_ld, harg1.read_unread, View.ld_unit_zero (S := S8x64x64x128) hz4]

/-- After the last point the accumulator holds what the point before left plus the block's sums. -/
theorem sout0_B_eq (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) :
    sout0_B c i arg1 harg1 arg2 harg2 arg3 harg3 hc0 hc1 x0 xs0 = k0_pay2 x0 xs0 := by
  unfold sout0_B
  rw [View.read_writes_eq_canon _ _ _ (scover0_B c i arg1 harg1 arg2 harg2 arg3 harg3 hc0 hc1 x0 xs0)]
  unfold kernelRun0_B
  dsimp only
  sl_unfold_words
  rw [View.canon_unit_zero hz2]
  simp only [View.readAt_eq_ld, harg1.read_unread, harg3.read_unread, View.ld_unit_zero (S := S8x64x64x128) hz4,
    View.ld_unit_zero (S := S8x64) hz2]

/-- After the last point the output block holds the accumulator's new contents times 2^-14. -/
theorem out0_B_1_eq (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole) (hc0 : ¬condA i) (hc1 : condB i)
    (x0 : Vec F S8x64x64x128 .f32) (xs0 : Vec F S8x64 .f32) :
    out0_B_1 c i arg1 harg1 arg2 harg2 arg3 harg3 hc0 hc1 x0 xs0 = k0_pay3 (k0_pay2 x0 xs0) := by
  unfold out0_B_1
  rw [View.read_writes_eq_canon _ _ _ (cover0_B_1 c i arg1 harg1 arg2 harg2 arg3 harg3 hc0 hc1 x0 xs0)]
  unfold kernelRun0_B
  dsimp only
  sl_unfold_words
  rw [View.canon_unit_zero hz2, View.readCov_unit_zero _ hz2]
  simp only [View.readAt_eq_ld, harg1.read_unread, harg3.read_unread, View.ld_unit_zero (S := S8x64x64x128) hz4,
    View.ld_unit_zero (S := S8x64) hz2]

section Region0
variable (V : (c : Dev nD) → (b : Ref sig .tc) → Buf (Elt F) ((c : Thread nD τ).loc b))

/-- The output block after the second point: 2^-14 times (zero plus the first half-plane's sums plus the second's). -/
theorem gapB_eq (c : Dev nD) :
    gapB V c = k0_pay3 (k0_pay2 (iblk0 V c 0 t0_1) (k0_pay2 (iblk0 V c 0 t0_0) (k0_pay1 (F := F)))) := by
  unfold gapB accA
  rw [out0_B_1_eq, sout0_A_eq]

end Region0

/-! ## A plane block read at an index -/

section BlockAtIndex

open Idealize.ShloMosaic.ValueIdx

/-- The plane-block window's index map, decided over the grid: point `t` stages block `t` along the row axis and
    block 0 along the others. -/
theorem idx_facts0 : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)

variable (V : (c : Dev nD) → (b : Ref sig .tc) → Buf (Elt F) ((c : Thread nD τ).loc b))

/-- The plane block of point `t` at `(n, ch, h, w)` is the array at row `64 t + h` of the same plane and lane: a
    block's coordinate is its index times the block size plus the coordinate inside. -/
theorem iblk0_apply (c : Dev nD) (t : Fin cfg0.N) (n : Fin 8) (ch : Fin 64) (h : Fin 64) (w : Fin 128)
    (hb : 64 * t.val + h.val < 128) :
    iblk0 V c 0 t (ix4 n ch h w) = V c main_arg0 (ix4 n ch ⟨64 * t.val + h.val, hb⟩ w) := by
  obtain ⟨e0, e1, e2, e3⟩ := idx_facts0 t
  show V c main_arg0 (((cfg0.win 0).blk t).view.emb (ix4 n ch h w)) = V c main_arg0 (ix4 n ch ⟨64 * t.val + h.val, hb⟩ w)
  refine congrArg (V c main_arg0) ?_
  funext a; apply Fin.ext
  match a with
  | ⟨0, _⟩ => show win0_0.index t (0 : Fin 4) * 8 + 1 * n.val = n.val; omega
  | ⟨1, _⟩ => show win0_0.index t (1 : Fin 4) * 64 + 1 * ch.val = ch.val; omega
  | ⟨2, _⟩ => show win0_0.index t (2 : Fin 4) * 64 + 1 * h.val = 64 * t.val + h.val; omega
  | ⟨3, _⟩ => show win0_0.index t (3 : Fin 4) * 128 + 1 * w.val = w.val; omega

end BlockAtIndex

/-! ## At the extended reals: the output block is the reference's mean -/

section AtIdealGap

open Idealize.ShloMosaic.ValueIdx
open Cert.ReferenceIdeal.RefValue (gapRef gap_bridge rowsum)

/-- The payloads composed, with the identity shape casts dropped: the zero splat plus the two blocks' sums (each
    along the lanes, then over the rows), times the splat of 2^-14. -/
theorem pays_eq (b0 b1 : Vec Ideal S8x64x64x128 .f32) :
    k0_pay3 (k0_pay2 b1 (k0_pay2 b0 (k0_pay1 (F := Ideal))))
      = mulf (addf (addf (broadcast S8x64 (Scalar.ofBits (F := Ideal) .f32 0x00000000#32))
            (rowsum reduces_S8x64x64x128_S8x64x64 reduces_S8x64x64_S8x64 b0))
          (rowsum reduces_S8x64x64x128_S8x64x64 reduces_S8x64x64_S8x64 b1))
          (broadcast S8x64 (Scalar.ofBits (F := Ideal) .f32 0x38800000#32)) := by
  unfold k0_pay3 k0_pay2 k0_pay1 rowsum
  dsimp only
  simp only [shapeCast_self]

/-- THE OUTPUT BLOCK after the second point is the reference's mean of the array the region is entered with: the
    two plane blocks are rows 0-63 and rows 64-127 of each plane. -/
theorem gapB_ideal (V : (c : Dev nD) → (b : Ref sig .tc) → Buf (Elt Ideal) ((c : Thread nD τ).loc b)) (c : Dev nD) :
    gapB (F := Ideal) V c = gapRef (V c main_arg0) := by
  rw [gapB_eq, pays_eq]
  refine gap_bridge _ _ (V c main_arg0) (iblk0 V c 0 t0_0) (iblk0 V c 0 t0_1) (fun n ch h w => ?_) (fun n ch h w => ?_)
  · refine (iblk0_apply V c t0_0 n ch h w (by show 64 * 0 + h.val < 128; omega)).trans ?_
    refine congrArg (V c main_arg0) ?_
    funext a
    match a with
    | ⟨0, _⟩ => rfl
    | ⟨1, _⟩ => rfl
    | ⟨2, _⟩ => exact Fin.ext (by show 64 * 0 + h.val = h.val; omega)
    | ⟨3, _⟩ => rfl
  · refine (iblk0_apply V c t0_1 n ch h w (by show 64 * 1 + h.val < 128; omega)).trans ?_
    refine congrArg (V c main_arg0) ?_
    funext a
    match a with
    | ⟨0, _⟩ => rfl
    | ⟨1, _⟩ => rfl
    | ⟨2, _⟩ => exact Fin.ext (by show 64 * 1 + h.val = 64 + h.val; omega)
    | ⟨3, _⟩ => rfl

end AtIdealGap

end Cert.KernelIdeal.Fr

end
-- ==== Proof.SpecPad.lean ====
import proofs.«141267_j22771916603489_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

/-!
# The reference's reflect padding and its nine-tap weighted sum, as functions of values

`padOf x` is the value of a reflect padding by one element on the two last axes of an array
`x : 8 × 64 × 128 × 128`, written as the sixteen slice / reverse / concatenate operations the
reference program performs (a row above, a row below, a column left, a column right).
`lowOf xp f` is the value of the sum, started from zero, over the nine taps `(ky, kx)` of the
window `xp[:, :, ky:ky+128, kx:kx+128]` times the weight `f[:, :, 3*ky+kx]` broadcast over the
two last axes. The theorems read both at an index given by coordinates.
-/

noncomputable section

namespace Cert.ReferenceIdeal.RefValue

open Idealize.ShloMosaic Idealize.SL.Sem
open Idealize.ShloMosaic.ValueIdx
open Cert.ReferenceIdeal Cert.ReferenceIdeal.Facts₀

/-! ## The reflect padding -/

/-- The array with the reflected row above: row `0` is the reverse (of a single row, hence the row
    itself) of the source's row `1`, rows `1 … 128` are the source. `129` rows. -/
def padTop (x : FVec Ideal S8x64x128x128 .f32) : FVec Ideal S8x64x129x128 .f32 :=
  concatenate S8x64x129x128 2
    [⟨S8x64x1x128, Host.reverse [2]
        (extractStridedSlice S8x64x1x128 ![0, 0, 1, 0] x slices_S8x64x128x128_S8x64x1x128_0_0_1_0)⟩,
     ⟨S8x64x128x128, x⟩]
    concatenates_S8x64x1x128_S8x64x128x128_S8x64x129x128_d2

/-- The array with both reflected rows: below `padTop x` comes the reverse (of a single row) of its row `127`,
    which is the source's row `126`. `130` rows. -/
def padRows (x : FVec Ideal S8x64x128x128 .f32) : FVec Ideal S8x64x130x128 .f32 :=
  concatenate S8x64x130x128 2
    [⟨S8x64x129x128, padTop x⟩,
     ⟨S8x64x1x128, Host.reverse [2]
        (extractStridedSlice S8x64x1x128 ![0, 0, 127, 0] (padTop x) slices_S8x64x129x128_S8x64x1x128_0_0_127_0)⟩]
    concatenates_S8x64x129x128_S8x64x1x128_S8x64x130x128_d2

/-- The row-padded array with the reflected column on the left: column `0` is the reverse (of a single
    column) of column `1` of `padRows x`, columns `1 … 128` are `padRows x`. `129` columns. -/
def padLeft (x : FVec Ideal S8x64x128x128 .f32) : FVec Ideal S8x64x130x129 .f32 :=
  concatenate S8x64x130x129 3
    [⟨S8x64x130x1, Host.reverse [3]
        (extractStridedSlice S8x64x130x1 ![0, 0, 0, 1] (padRows x) slices_S8x64x130x128_S8x64x130x1_0_0_0_1)⟩,
     ⟨S8x64x130x128, padRows x⟩]
    concatenates_S8x64x130x1_S8x64x130x128_S8x64x130x129_d3

/-- The reflect padding by one on the two last axes: right of `padLeft x` comes the reverse (of a single
    column) of its column `127`. `130 × 130` on the two last axes. -/
def padOf (x : FVec Ideal S8x64x128x128 .f32) : FVec Ideal S8x64x130x130 .f32 :=
  concatenate S8x64x130x130 3
    [⟨S8x64x130x129, padLeft x⟩,
     ⟨S8x64x130x1, Host.reverse [3]
        (extractStridedSlice S8x64x130x1 ![0, 0, 0, 127] (padLeft x) slices_S8x64x130x129_S8x64x130x1_0_0_0_127)⟩]
    concatenates_S8x64x130x129_S8x64x130x1_S8x64x130x130_d3

/-! ## The nine-tap weighted sum -/

/-- The weight plane of one tap: the slice `f[:, :, j:j+1]` (`off = (0, 0, j)`) with its unit axis dropped,
    then broadcast over the two last axes: at `(n, c, h, w)` it is `f (n, c, j)`. -/
def wgt (f : FVec Ideal S8x64x9 .f32) (off : Fin S8x64x9.rank → Nat) (hf : S8x64x9.Slices off S8x64x1) :
    FVec Ideal S8x64x128x128 .f32 :=
  broadcastInDim S8x64x128x128 ![0, 1, 2, 3] bcast_S8x64x1x1_S8x64x128x128_0_1_2_3
    (broadcastInDim S8x64x1x1 ![0, 1] bcast_S8x64_S8x64x1x1_0_1
      (shapeCast S8x64 (extractStridedSlice S8x64x1 off f hf) shapeCasts_S8x64x1_S8x64))

/-- One step of the sum: the accumulator plus the window of `xp` at offset `offx = (0, 0, ky, kx)` times the
    weight plane of the tap at `offf = (0, 0, j)`. -/
def tapStep (acc : FVec Ideal S8x64x128x128 .f32) (xp : FVec Ideal S8x64x130x130 .f32) (f : FVec Ideal S8x64x9 .f32)
    (offx : Fin S8x64x130x130.rank → Nat) (hx : S8x64x130x130.Slices offx S8x64x128x128)
    (offf : Fin S8x64x9.rank → Nat) (hf : S8x64x9.Slices offf S8x64x1) : FVec Ideal S8x64x128x128 .f32 :=
  addf acc (mulf (extractStridedSlice S8x64x128x128 offx xp hx) (wgt f offf hf))

/-- The sum's start: zero everywhere. -/
def low0 : FVec Ideal S8x64x128x128 .f32 :=
  broadcastInDim S8x64x128x128 ![] bcast_S_S8x64x128x128 (constant (F := Ideal) S_ .f32 0x00000000#32)

/-- The sum after tap `(0, 0)`. -/
def low1 (xp : FVec Ideal S8x64x130x130 .f32) (f : FVec Ideal S8x64x9 .f32) : FVec Ideal S8x64x128x128 .f32 :=
  tapStep low0 xp f ![0, 0, 0, 0] slices_S8x64x130x130_S8x64x128x128_0_0_0_0 ![0, 0, 0] slices_S8x64x9_S8x64x1_0_0_0
/-- The sum after tap `(0, 1)`. -/
def low2 (xp : FVec Ideal S8x64x130x130 .f32) (f : FVec Ideal S8x64x9 .f32) : FVec Ideal S8x64x128x128 .f32 :=
  tapStep (low1 xp f) xp f ![0, 0, 0, 1] slices_S8x64x130x130_S8x64x128x128_0_0_0_1 ![0, 0, 1] slices_S8x64x9_S8x64x1_0_0_1
/-- The sum after tap `(0, 2)`. -/
def low3 (xp : FVec Ideal S8x64x130x130 .f32) (f : FVec Ideal S8x64x9 .f32) : FVec Ideal S8x64x128x128 .f32 :=
  tapStep (low2 xp f) xp f ![0, 0, 0, 2] slices_S8x64x130x130_S8x64x128x128_0_0_0_2 ![0, 0, 2] slices_S8x64x9_S8x64x1_0_0_2
/-- The sum after tap `(1, 0)`. -/
def low4 (xp : FVec Ideal S8x64x130x130 .f32) (f : FVec Ideal S8x64x9 .f32) : FVec Ideal S8x64x128x128 .f32 :=
  tapStep (low3 xp f) xp f ![0, 0, 1, 0] slices_S8x64x130x130_S8x64x128x128_0_0_1_0 ![0, 0, 3] slices_S8x64x9_S8x64x1_0_0_3
/-- The sum after tap `(1, 1)`. -/
def low5 (xp : FVec Ideal S8x64x130x130 .f32) (f : FVec Ideal S8x64x9 .f32) : FVec Ideal S8x64x128x128 .f32 :=
  tapStep (low4 xp f) xp f ![0, 0, 1, 1] slices_S8x64x130x130_S8x64x128x128_0_0_1_1 ![0, 0, 4] slices_S8x64x9_S8x64x1_0_0_4
/-- The sum after tap `(1, 2)`. -/
def low6 (xp : FVec Ideal S8x64x130x130 .f32) (f : FVec Ideal S8x64x9 .f32) : FVec Ideal S8x64x128x128 .f32 :=
  tapStep (low5 xp f) xp f ![0, 0, 1, 2] slices_S8x64x130x130_S8x64x128x128_0_0_1_2 ![0, 0, 5] slices_S8x64x9_S8x64x1_0_0_5
/-- The sum after tap `(2, 0)`. -/
def low7 (xp : FVec Ideal S8x64x130x130 .f32) (f : FVec Ideal S8x64x9 .f32) : FVec Ideal S8x64x128x128 .f32 :=
  tapStep (low6 xp f) xp f ![0, 0, 2, 0] slices_S8x64x130x130_S8x64x128x128_0_0_2_0 ![0, 0, 6] slices_S8x64x9_S8x64x1_0_0_6
/-- The sum after tap `(2, 1)`. -/
def low8 (xp : FVec Ideal S8x64x130x130 .f32) (f : FVec Ideal S8x64x9 .f32) : FVec Ideal S8x64x128x128 .f32 :=
  tapStep (low7 xp f) xp f ![0, 0, 2, 1] slices_S8x64x130x130_S8x64x128x128_0_0_2_1 ![0, 0, 7] slices_S8x64x9_S8x64x1_0_0_7
/-- The weighted sum over all nine taps, the last being `(2, 2)`. -/
def lowOf (xp : FVec Ideal S8x64x130x130 .f32) (f : FVec Ideal S8x64x9 .f32) : FVec Ideal S8x64x128x128 .f32 :=
  tapStep (low8 xp f) xp f ![0, 0, 2, 2] slices_S8x64x130x130_S8x64x128x128_0_0_2_2 ![0, 0, 8] slices_S8x64x9_S8x64x1_0_0_8

/-- The nine-term sum `0 + a₀₀ g₀ + a₀₁ g₁ + … + a₂₂ g₈`, associated to the left as the program adds it. -/
def tapsum (a : Fin 3 → Fin 3 → EReal) (g : Fin 9 → EReal) : EReal :=
  ((((((((0 + a 0 0 * g 0) + a 0 1 * g 1) + a 0 2 * g 2) + a 1 0 * g 3) + a 1 1 * g 4) + a 1 2 * g 5)
    + a 2 0 * g 6) + a 2 1 * g 7) + a 2 2 * g 8

/-! ## Reading the padding at the centre -/

/-- The padded array at `(n, c, h + 1, w + 1)` is the source at `(n, c, h, w)`: column `w + 1` lies in the
    left `129` columns and past the first, row `h + 1` in the upper `129` rows and past the first. -/
theorem padOf_center (x : FVec Ideal S8x64x128x128 .f32) (n : Fin 8) (c : Fin 64) (h w : Fin 128) :
    padOf x (ix4 n c ⟨h.val + 1, by omega⟩ ⟨w.val + 1, by omega⟩) = x (ix4 n c h w) := by
  unfold padOf
  refine (concatenate_pair_apply_left (t := S8x64x130x130) (s₁ := S8x64x130x129) (s₂ := S8x64x130x1) _ _ _ _
    (ix4 n c (⟨h.val + 1, by omega⟩ : Fin 130) (⟨w.val + 1, by omega⟩ : Fin 130)) rfl
    (ix4 n c (⟨h.val + 1, by omega⟩ : Fin 130) (⟨w.val + 1, by omega⟩ : Fin 129)) (fun b => by
      match b with
      | ⟨0, _⟩ => rfl
      | ⟨1, _⟩ => rfl
      | ⟨2, _⟩ => rfl
      | ⟨3, _⟩ => rfl)).trans ?_
  unfold padLeft
  refine (concatenate_pair_apply_right (t := S8x64x130x129) (s₁ := S8x64x130x1) (s₂ := S8x64x130x128) _ _ _ _
    (ix4 n c (⟨h.val + 1, by omega⟩ : Fin 130) (⟨w.val + 1, by omega⟩ : Fin 129)) rfl rfl
    (ix4 n c (⟨h.val + 1, by omega⟩ : Fin 130) w) (fun b hb => by
      match b with
      | ⟨0, _⟩ => rfl
      | ⟨1, _⟩ => rfl
      | ⟨2, _⟩ => rfl
      | ⟨3, _⟩ => exact absurd rfl hb) rfl).trans ?_
  unfold padRows
  refine (concatenate_pair_apply_left (t := S8x64x130x128) (s₁ := S8x64x129x128) (s₂ := S8x64x1x128) _ _ _ _
    (ix4 n c (⟨h.val + 1, by omega⟩ : Fin 130) w) rfl
    (ix4 n c (⟨h.val + 1, by omega⟩ : Fin 129) w) (fun b => by
      match b with
      | ⟨0, _⟩ => rfl
      | ⟨1, _⟩ => rfl
      | ⟨2, _⟩ => rfl
      | ⟨3, _⟩ => rfl)).trans ?_
  unfold padTop
  exact concatenate_pair_apply_right (t := S8x64x129x128) (s₁ := S8x64x1x128) (s₂ := S8x64x128x128) _ _ _ _
    (ix4 n c (⟨h.val + 1, by omega⟩ : Fin 129) w) rfl rfl (ix4 n c h w) (fun b hb => by
      match b with
      | ⟨0, _⟩ => rfl
      | ⟨1, _⟩ => rfl
      | ⟨2, _⟩ => exact absurd rfl hb
      | ⟨3, _⟩ => rfl) rfl

/-! ## Reading the weighted sum at an index -/

/-- The start of the sum is zero at every index: the float word `0x00000000` is the real `0`. -/
theorem low0_apply (i : S8x64x128x128.Idx) : low0 i = 0 := by
  show Ideal.ofBits .f32 0x00000000#32 = 0
  exact Ideal.ofBits_zero_f32

/-- The window of `xp` at offset `(0, 0, ky, kx)` read at `(n, c, h, w)` is `xp (n, c, h + ky, w + kx)`. -/
theorem window_apply (xp : FVec Ideal S8x64x130x130 .f32) (ky kx : Fin 3)
    (hx : S8x64x130x130.Slices ![0, 0, ky.val, kx.val] S8x64x128x128) (n : Fin 8) (c : Fin 64) (h w : Fin 128) :
    extractStridedSlice S8x64x128x128 ![0, 0, ky.val, kx.val] xp hx (ix4 n c h w)
      = xp (ix4 n c ⟨h.val + ky.val, by omega⟩ ⟨w.val + kx.val, by omega⟩) :=
  extractStridedSlice_apply _ _ _ _ _ (fun a => by
    match a with
    | ⟨0, _⟩ => exact (Nat.zero_add _).symm
    | ⟨1, _⟩ => exact (Nat.zero_add _).symm
    | ⟨2, _⟩ => exact Nat.add_comm _ _
    | ⟨3, _⟩ => exact Nat.add_comm _ _)

/-- The weight plane of tap `j` read at `(n, c, h, w)` is `f (n, c, j)`: the two broadcasts read the unit axes at
    `0`, the cast of `8 × 64 × 1` to `8 × 64` keeps the row-major position, the slice shifts the last coordinate by `j`. -/
theorem wgt_apply (f : FVec Ideal S8x64x9 .f32) (j : Fin 9) (hf : S8x64x9.Slices ![0, 0, j.val] S8x64x1)
    (n : Fin 8) (c : Fin 64) (h w : Fin 128) :
    wgt f ![0, 0, j.val] hf (ix4 n c h w) = f (ix3 n c j) := by
  unfold wgt
  refine (broadcastInDim_apply (s := S8x64x1x1) (t := S8x64x128x128) _ _ _ (ix4 n c h w) (ix4 n c (0 : Fin 1) (0 : Fin 1)) (fun a => by
    match a with
    | ⟨0, _⟩ => rfl
    | ⟨1, _⟩ => rfl
    | ⟨2, _⟩ => rfl
    | ⟨3, _⟩ => rfl)).trans ?_
  refine (broadcastInDim_apply (s := S8x64) (t := S8x64x1x1) _ _ _ (ix4 n c (0 : Fin 1) (0 : Fin 1)) (ix2 n c) (fun a => by
    match a with
    | ⟨0, _⟩ => rfl
    | ⟨1, _⟩ => rfl)).trans ?_
  refine (shapeCast_apply (s := S8x64x1) (t := S8x64) _ _ (ix2 n c) (ix3 n c (0 : Fin 1)) (by
    rw [Shape.rowMajor_val_three, Shape.rowMajor_val_two]
    show (n.val * 64 + c.val) * 1 + 0 = n.val * 64 + c.val
    omega)).trans ?_
  exact extractStridedSlice_apply (s := S8x64x9) (t := S8x64x1) _ _ _ (ix3 n c (0 : Fin 1)) (ix3 n c j) (fun a => by
    match a with
    | ⟨0, _⟩ => exact (Nat.zero_add _).symm
    | ⟨1, _⟩ => exact (Nat.zero_add _).symm
    | ⟨2, _⟩ => rfl)

/-- One step of the sum read at `(n, c, h, w)`: the accumulator there plus `xp (n, c, h + ky, w + kx) * f (n, c, j)`. -/
theorem tapStep_apply (acc : FVec Ideal S8x64x128x128 .f32) (xp : FVec Ideal S8x64x130x130 .f32)
    (f : FVec Ideal S8x64x9 .f32) (ky kx : Fin 3) (j : Fin 9)
    (hx : S8x64x130x130.Slices ![0, 0, ky.val, kx.val] S8x64x128x128) (hf : S8x64x9.Slices ![0, 0, j.val] S8x64x1)
    (n : Fin 8) (c : Fin 64) (h w : Fin 128) :
    tapStep acc xp f ![0, 0, ky.val, kx.val] hx ![0, 0, j.val] hf (ix4 n c h w)
      = acc (ix4 n c h w)
        + xp (ix4 n c ⟨h.val + ky.val, by omega⟩ ⟨w.val + kx.val, by omega⟩) * f (ix3 n c j) := by
  show acc (ix4 n c h w)
      + extractStridedSlice S8x64x128x128 ![0, 0, ky.val, kx.val] xp hx (ix4 n c h w) * wgt f ![0, 0, j.val] hf (ix4 n c h w) = _
  rw [window_apply, wgt_apply]

/-- The nine-tap sum read at `(n, c, h, w)`: `Σ xp (n, c, h + ky, w + kx) * f (n, c, 3 ky + kx)` over the taps in
    row-major order, from zero, associated to the left. -/
theorem lowOf_apply (xp : FVec Ideal S8x64x130x130 .f32) (f : FVec Ideal S8x64x9 .f32)
    (n : Fin 8) (c : Fin 64) (h w : Fin 128) :
    lowOf xp f (ix4 n c h w)
      = tapsum (fun ky kx => xp (ix4 n c ⟨h.val + ky.val, by omega⟩ ⟨w.val + kx.val, by omega⟩))
          (fun j => f (ix3 n c j)) := by
  have e1 := (tapStep_apply low0 xp f 0 0 0 slices_S8x64x130x130_S8x64x128x128_0_0_0_0 slices_S8x64x9_S8x64x1_0_0_0 n c h w).trans
    (congrArg (· + _) (low0_apply _))
  have e2 := (tapStep_apply (low1 xp f) xp f 0 1 1 slices_S8x64x130x130_S8x64x128x128_0_0_0_1 slices_S8x64x9_S8x64x1_0_0_1 n c h w).trans
    (congrArg (· + _) e1)
  have e3 := (tapStep_apply (low2 xp f) xp f 0 2 2 slices_S8x64x130x130_S8x64x128x128_0_0_0_2 slices_S8x64x9_S8x64x1_0_0_2 n c h w).trans
    (congrArg (· + _) e2)
  have e4 := (tapStep_apply (low3 xp f) xp f 1 0 3 slices_S8x64x130x130_S8x64x128x128_0_0_1_0 slices_S8x64x9_S8x64x1_0_0_3 n c h w).trans
    (congrArg (· + _) e3)
  have e5 := (tapStep_apply (low4 xp f) xp f 1 1 4 slices_S8x64x130x130_S8x64x128x128_0_0_1_1 slices_S8x64x9_S8x64x1_0_0_4 n c h w).trans
    (congrArg (· + _) e4)
  have e6 := (tapStep_apply (low5 xp f) xp f 1 2 5 slices_S8x64x130x130_S8x64x128x128_0_0_1_2 slices_S8x64x9_S8x64x1_0_0_5 n c h w).trans
    (congrArg (· + _) e5)
  have e7 := (tapStep_apply (low6 xp f) xp f 2 0 6 slices_S8x64x130x130_S8x64x128x128_0_0_2_0 slices_S8x64x9_S8x64x1_0_0_6 n c h w).trans
    (congrArg (· + _) e6)
  have e8 := (tapStep_apply (low7 xp f) xp f 2 1 7 slices_S8x64x130x130_S8x64x128x128_0_0_2_1 slices_S8x64x9_S8x64x1_0_0_7 n c h w).trans
    (congrArg (· + _) e7)
  have e9 := (tapStep_apply (low8 xp f) xp f 2 2 8 slices_S8x64x130x130_S8x64x128x128_0_0_2_2 slices_S8x64x9_S8x64x1_0_0_8 n c h w).trans
    (congrArg (· + _) e8)
  exact e9

end Cert.ReferenceIdeal.RefValue
-- ==== Proof.KPay1.lean ====
/-
  The filtering body's two output blocks read at an index, at the ideal instance (floats are extended reals).
  For a padded image block `x0` (1 x 64 x 130 x 130) and a tap-weight block `x1` (1 x 64 x 9):
      low  (c,h,w) = ((…((0 + x0[c,h,w] f[c,0]) + x0[c,h,w+1] f[c,1]) + …) + x0[c,h+2,w+2] f[c,8])
      high (c,h,w) = x0[c,h+1,w+1] - low (c,h,w)
  the taps in row-major order of (ky,kx), each term the shifted 128 x 128 window times the weight column repeated
  over the plane. A load through a shifted window reads the block at the shifted index; a weight column cast to a
  vector, to 64 x 1 x 1, and repeated over 128 x 128 reads the column's entry of the channel.
-/
import proofs.«141267_j22771916603489_2_alg».proof.Proof.KFrame1
import proofs.«141267_j22771916603489_2_alg».proof.Proof.SpecPad
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Fr

open Idealize.ShloMosaic Idealize.ShloMosaic.ValueIdx Cert.KernelIdeal Cert.KernelIdeal.Gen
open Cert.ReferenceIdeal.RefValue (tapsum)

/-! ## Loads through the shifted windows and the weight columns -/

theorem ld_x00 (x0 : Vec Ideal S1x64x130x130 .f32) (u : Fin 1) (c : Fin 64) (h w : Fin 128) :
    View.ld x0 rx00 (ix4 u c h w) = x0 (ix4 u c ⟨h.val + 0, by omega⟩ ⟨w.val + 0, by omega⟩) := by
  show x0 (rx00.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 0 + 1 * h.val = h.val + 0; omega
  | ⟨3, _⟩ => show 0 + 1 * w.val = w.val + 0; omega

theorem ld_x01 (x0 : Vec Ideal S1x64x130x130 .f32) (u : Fin 1) (c : Fin 64) (h w : Fin 128) :
    View.ld x0 rx01 (ix4 u c h w) = x0 (ix4 u c ⟨h.val + 0, by omega⟩ ⟨w.val + 1, by omega⟩) := by
  show x0 (rx01.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 0 + 1 * h.val = h.val + 0; omega
  | ⟨3, _⟩ => show 1 + 1 * w.val = w.val + 1; omega

theorem ld_x02 (x0 : Vec Ideal S1x64x130x130 .f32) (u : Fin 1) (c : Fin 64) (h w : Fin 128) :
    View.ld x0 rx02 (ix4 u c h w) = x0 (ix4 u c ⟨h.val + 0, by omega⟩ ⟨w.val + 2, by omega⟩) := by
  show x0 (rx02.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 0 + 1 * h.val = h.val + 0; omega
  | ⟨3, _⟩ => show 2 + 1 * w.val = w.val + 2; omega

theorem ld_x10 (x0 : Vec Ideal S1x64x130x130 .f32) (u : Fin 1) (c : Fin 64) (h w : Fin 128) :
    View.ld x0 rx10 (ix4 u c h w) = x0 (ix4 u c ⟨h.val + 1, by omega⟩ ⟨w.val + 0, by omega⟩) := by
  show x0 (rx10.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 1 + 1 * h.val = h.val + 1; omega
  | ⟨3, _⟩ => show 0 + 1 * w.val = w.val + 0; omega

theorem ld_x11 (x0 : Vec Ideal S1x64x130x130 .f32) (u : Fin 1) (c : Fin 64) (h w : Fin 128) :
    View.ld x0 rx11 (ix4 u c h w) = x0 (ix4 u c ⟨h.val + 1, by omega⟩ ⟨w.val + 1, by omega⟩) := by
  show x0 (rx11.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 1 + 1 * h.val = h.val + 1; omega
  | ⟨3, _⟩ => show 1 + 1 * w.val = w.val + 1; omega

theorem ld_x12 (x0 : Vec Ideal S1x64x130x130 .f32) (u : Fin 1) (c : Fin 64) (h w : Fin 128) :
    View.ld x0 rx12 (ix4 u c h w) = x0 (ix4 u c ⟨h.val + 1, by omega⟩ ⟨w.val + 2, by omega⟩) := by
  show x0 (rx12.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 1 + 1 * h.val = h.val + 1; omega
  | ⟨3, _⟩ => show 2 + 1 * w.val = w.val + 2; omega

theorem ld_x20 (x0 : Vec Ideal S1x64x130x130 .f32) (u : Fin 1) (c : Fin 64) (h w : Fin 128) :
    View.ld x0 rx20 (ix4 u c h w) = x0 (ix4 u c ⟨h.val + 2, by omega⟩ ⟨w.val + 0, by omega⟩) := by
  show x0 (rx20.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 2 + 1 * h.val = h.val + 2; omega
  | ⟨3, _⟩ => show 0 + 1 * w.val = w.val + 0; omega

theorem ld_x21 (x0 : Vec Ideal S1x64x130x130 .f32) (u : Fin 1) (c : Fin 64) (h w : Fin 128) :
    View.ld x0 rx21 (ix4 u c h w) = x0 (ix4 u c ⟨h.val + 2, by omega⟩ ⟨w.val + 1, by omega⟩) := by
  show x0 (rx21.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 2 + 1 * h.val = h.val + 2; omega
  | ⟨3, _⟩ => show 1 + 1 * w.val = w.val + 1; omega

theorem ld_x22 (x0 : Vec Ideal S1x64x130x130 .f32) (u : Fin 1) (c : Fin 64) (h w : Fin 128) :
    View.ld x0 rx22 (ix4 u c h w) = x0 (ix4 u c ⟨h.val + 2, by omega⟩ ⟨w.val + 2, by omega⟩) := by
  show x0 (rx22.emb (ix4 u c h w)) = _
  refine congrArg x0 (funext fun d => Fin.ext ?_)
  match d with
  | ⟨0, _⟩ => show 0 + 1 * u.val = u.val; omega
  | ⟨1, _⟩ => show 0 + 1 * c.val = c.val; omega
  | ⟨2, _⟩ => show 2 + 1 * h.val = h.val + 2; omega
  | ⟨3, _⟩ => show 2 + 1 * w.val = w.val + 2; omega

theorem ld_f0 (x1 : Vec Ideal S1x64x9 .f32) (u : Fin 1) (c : Fin 64) (z : Fin 1) :
    View.ld x1 rf0 (ix3 u c z) = x1 (ix3 u c (0 : Fin 9)) := by
  show x1 (rf0.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 0 + 1 * z.val = 0; omega

theorem ld_f1 (x1 : Vec Ideal S1x64x9 .f32) (u : Fin 1) (c : Fin 64) (z : Fin 1) :
    View.ld x1 rf1 (ix3 u c z) = x1 (ix3 u c (1 : Fin 9)) := by
  show x1 (rf1.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 1 + 1 * z.val = 1; omega

theorem ld_f2 (x1 : Vec Ideal S1x64x9 .f32) (u : Fin 1) (c : Fin 64) (z : Fin 1) :
    View.ld x1 rf2 (ix3 u c z) = x1 (ix3 u c (2 : Fin 9)) := by
  show x1 (rf2.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 2 + 1 * z.val = 2; omega

theorem ld_f3 (x1 : Vec Ideal S1x64x9 .f32) (u : Fin 1) (c : Fin 64) (z : Fin 1) :
    View.ld x1 rf3 (ix3 u c z) = x1 (ix3 u c (3 : Fin 9)) := by
  show x1 (rf3.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 3 + 1 * z.val = 3; omega

theorem ld_f4 (x1 : Vec Ideal S1x64x9 .f32) (u : Fin 1) (c : Fin 64) (z : Fin 1) :
    View.ld x1 rf4 (ix3 u c z) = x1 (ix3 u c (4 : Fin 9)) := by
  show x1 (rf4.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 4 + 1 * z.val = 4; omega

theorem ld_f5 (x1 : Vec Ideal S1x64x9 .f32) (u : Fin 1) (c : Fin 64) (z : Fin 1) :
    View.ld x1 rf5 (ix3 u c z) = x1 (ix3 u c (5 : Fin 9)) := by
  show x1 (rf5.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 5 + 1 * z.val = 5; omega

theorem ld_f6 (x1 : Vec Ideal S1x64x9 .f32) (u : Fin 1) (c : Fin 64) (z : Fin 1) :
    View.ld x1 rf6 (ix3 u c z) = x1 (ix3 u c (6 : Fin 9)) := by
  show x1 (rf6.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 6 + 1 * z.val = 6; omega

theorem ld_f7 (x1 : Vec Ideal S1x64x9 .f32) (u : Fin 1) (c : Fin 64) (z : Fin 1) :
    View.ld x1 rf7 (ix3 u c z) = x1 (ix3 u c (7 : Fin 9)) := by
  show x1 (rf7.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 7 + 1 * z.val = 7; omega

theorem ld_f8 (x1 : Vec Ideal S1x64x9 .f32) (u : Fin 1) (c : Fin 64) (z : Fin 1) :
    View.ld x1 rf8 (ix3 u c z) = x1 (ix3 u c (8 : Fin 9)) := by
  show x1 (rf8.emb (ix3 u c z)) = _
  refine congrArg x1 (funext fun d => Fin.ext ?_)
  match d with
  | ⟨0, _⟩ => show 0 + 1 * u.val = u.val; omega
  | ⟨1, _⟩ => show 0 + 1 * c.val = c.val; omega
  | ⟨2, _⟩ => show 8 + 1 * z.val = 8; omega

/-! ## One tap -/

/-- A weight column `[1,64,1]` cast to `[64]`, to `[64,1,1]` and repeated over the plane reads, at `(c,h,w)`, the column's
    entry of channel `c`. -/
theorem wcol_apply (fw : Vec Ideal S1x64x1 .f32) (h1 : S1x64x1.ShapeCasts S64) (h2 : S64.ShapeCasts S64x1x1) (h3 : S64x1x1.Broadcasts S64x128x128)
    (c : Fin 64) (h w : Fin 128) :
    broadcastTo S64x128x128 (shapeCast S64x1x1 (shapeCast S64 fw h1) h2) h3 (ix3 c h w) = fw (ix3 (0 : Fin 1) c (0 : Fin 1)) := by
  rw [broadcastTo_apply _ h3 (ix3 c h w) (ix3 c (0 : Fin 1) (0 : Fin 1)) (fun a => by
    match a with
    | ⟨0, _⟩ => rfl
    | ⟨1, _⟩ => rfl
    | ⟨2, _⟩ => rfl)]
  rw [shapeCast_apply _ h2 (ix3 c (0 : Fin 1) (0 : Fin 1)) (ix1 c) (by
    rw [Shape.rowMajor_val_three, Shape.rowMajor_val_one]; show c.val = (c.val * 1 + 0) * 1 + 0; omega)]
  rw [shapeCast_apply _ h1 (ix1 c) (ix3 (0 : Fin 1) c (0 : Fin 1)) (by
    rw [Shape.rowMajor_val_three, Shape.rowMajor_val_one]; show (0 * 64 + c.val) * 1 + 0 = c.val; omega)]

/-- One tap added to the running sum, read at `(c,h,w)`. -/
theorem tap_apply (acc : FVec Ideal S64x128x128 .f32) (xw : FVec Ideal S64x128x128 .f32) (fw : Vec Ideal S1x64x1 .f32)
    (h1 : S1x64x1.ShapeCasts S64) (h2 : S64.ShapeCasts S64x1x1) (h3 : S64x1x1.Broadcasts S64x128x128) (c : Fin 64) (h w : Fin 128) :
    addf acc (mulf xw (broadcastTo S64x128x128 (shapeCast S64x1x1 (shapeCast S64 fw h1) h2) h3)) (ix3 c h w)
      = acc (ix3 c h w) + xw (ix3 c h w) * fw (ix3 (0 : Fin 1) c (0 : Fin 1)) := by
  rw [addf_apply, mulf_apply, wcol_apply]

/-- A window block `[1,64,128,128]` with its unit axis cast away reads the block at the same coordinates. -/
theorem win_apply (xw : Vec Ideal S1x64x128x128 .f32) (h0 : S1x64x128x128.ShapeCasts S64x128x128) (c : Fin 64) (h w : Fin 128) :
    shapeCast S64x128x128 xw h0 (ix3 c h w) = xw (ix4 (0 : Fin 1) c h w) :=
  shapeCast_1abc_abc_apply xw h0 c h w

/-! ## The running sums -/

theorem acc3_apply (x0 : Vec Ideal S1x64x130x130 .f32) (x1 : Vec Ideal S1x64x9 .f32) (c : Fin 64) (h w : Fin 128) :
    acc3 x0 x1 (ix3 c h w) = ((((0 : EReal) + x0 (ix4 (0 : Fin 1) c ⟨h.val + 0, by omega⟩ ⟨w.val + 0, by omega⟩) * x1 (ix3 (0 : Fin 1) c (0 : Fin 9)))
      + x0 (ix4 (0 : Fin 1) c ⟨h.val + 0, by omega⟩ ⟨w.val + 1, by omega⟩) * x1 (ix3 (0 : Fin 1) c (1 : Fin 9)))
      + x0 (ix4 (0 : Fin 1) c ⟨h.val + 0, by omega⟩ ⟨w.val + 2, by omega⟩) * x1 (ix3 (0 : Fin 1) c (2 : Fin 9))) := by
  unfold acc3 k1_pay5
  try dsimp only
  rw [tap_apply, tap_apply, tap_apply, win_apply, win_apply, win_apply, ld_x00, ld_x01, ld_x02, ld_f0, ld_f1, ld_f2, broadcast_apply]
  have hz : (FloatOps.ofBits FTy.f32 0#32 : Ideal .f32) = (0 : EReal) := Ideal.ofBits_zero_f32
  rw [hz]

theorem acc7_apply (x0 : Vec Ideal S1x64x130x130 .f32) (x1 : Vec Ideal S1x64x9 .f32) (c : Fin 64) (h w : Fin 128) :
    acc7 x0 x1 (ix3 c h w) = ((((acc3 x0 x1 (ix3 c h w)
      + x0 (ix4 (0 : Fin 1) c ⟨h.val + 1, by omega⟩ ⟨w.val + 0, by omega⟩) * x1 (ix3 (0 : Fin 1) c (3 : Fin 9)))
      + x0 (ix4 (0 : Fin 1) c ⟨h.val + 1, by omega⟩ ⟨w.val + 1, by omega⟩) * x1 (ix3 (0 : Fin 1) c (4 : Fin 9)))
      + x0 (ix4 (0 : Fin 1) c ⟨h.val + 1, by omega⟩ ⟨w.val + 2, by omega⟩) * x1 (ix3 (0 : Fin 1) c (5 : Fin 9)))
      + x0 (ix4 (0 : Fin 1) c ⟨h.val + 2, by omega⟩ ⟨w.val + 0, by omega⟩) * x1 (ix3 (0 : Fin 1) c (6 : Fin 9))) := by
  unfold acc7 k1_pay7 k1_pay6
  try dsimp only
  rw [tap_apply, tap_apply, tap_apply, tap_apply, win_apply, win_apply, win_apply, win_apply, ld_x10, ld_x11, ld_x12, ld_x20, ld_f3, ld_f4, ld_f5, ld_f6]

/-- The low-pass value at `(c,h,w)`: all nine taps. -/
theorem low_apply (x0 : Vec Ideal S1x64x130x130 .f32) (x1 : Vec Ideal S1x64x9 .f32) (c : Fin 64) (h w : Fin 128) :
    k1_pay1 (acc7 x0 x1) (k1_pay8 (View.ld x0 rx21)) (View.ld x1 rf7) (View.ld x0 rx22) (View.ld x1 rf8) (ix3 c h w)
      = tapsum (fun ky kx => x0 (ix4 (0 : Fin 1) c ⟨h.val + ky.val, by omega⟩ ⟨w.val + kx.val, by omega⟩)) (fun j => x1 (ix3 (0 : Fin 1) c j)) := by
  unfold k1_pay1 k1_pay8
  try dsimp only
  rw [tap_apply, tap_apply, win_apply, win_apply, ld_x21, ld_x22, ld_f7, ld_f8, acc7_apply, acc3_apply]
  rfl

theorem hzero4 : (![0, 0, 0, 0] : Fin 4 → Nat) = fun _ => 0 := funext fun a => by fin_cases a <;> rfl

/-- The low-pass block read at `(u,c,h,w)`. -/
theorem out1_2_apply (x0 : Vec Ideal S1x64x130x130 .f32) (x1 : Vec Ideal S1x64x9 .f32) (u : Fin 1) (c : Fin 64) (h w : Fin 128) :
    out1_2 x0 x1 (ix4 u c h w)
      = tapsum (fun ky kx => x0 (ix4 (0 : Fin 1) c ⟨h.val + ky.val, by omega⟩ ⟨w.val + kx.val, by omega⟩)) (fun j => x1 (ix3 (0 : Fin 1) c j)) := by
  unfold out1_2
  rw [View.canon_unit_zero hzero4]
  unfold k1_pay2
  try dsimp only
  rw [shapeCast_abc_1abc_apply, low_apply]

/-- The high-pass block read at `(u,c,h,w)`: the centre window minus the low-pass value. -/
theorem out1_3_apply (x0 : Vec Ideal S1x64x130x130 .f32) (x1 : Vec Ideal S1x64x9 .f32) (u : Fin 1) (c : Fin 64) (h w : Fin 128) :
    out1_3 x0 x1 (ix4 u c h w)
      = x0 (ix4 (0 : Fin 1) c ⟨h.val + 1, by omega⟩ ⟨w.val + 1, by omega⟩)
        - tapsum (fun ky kx => x0 (ix4 (0 : Fin 1) c ⟨h.val + ky.val, by omega⟩ ⟨w.val + kx.val, by omega⟩)) (fun j => x1 (ix3 (0 : Fin 1) c j)) := by
  unfold out1_3
  rw [View.canon_unit_zero hzero4]
  unfold k1_pay3 k1_pay4
  try dsimp only
  rw [shapeCast_abc_1abc_apply, subf_apply, low_apply, win_apply, ld_x11]

end Cert.KernelIdeal.Fr

end
-- ==== Proof.KFinal.lean ====
/-
  From blocks to arrays. The pooling region writes its one output block, the whole 8 x 64 array, back only at its
  last grid point, so that array ends holding the scaled accumulator. The filtering region's grid point `t` stages
  image `t` of the padded array and of the tap weights and writes back image `t` of the low-pass and high-pass
  arrays; the eight images tile the arrays, so each ends holding one function of the padded array and the weights:
  the nine-tap weighted sum, and the padded array's centre minus that sum.
-/
import proofs.«141267_j22771916603489_2_alg».proof.Proof.KFrame0
import proofs.«141267_j22771916603489_2_alg».proof.Proof.KFrame1
import proofs.«141267_j22771916603489_2_alg».proof.Proof.KPay0
import proofs.«141267_j22771916603489_2_alg».proof.Proof.KPay1
import proofs.«141267_j22771916603489_2_alg».proof.Proof.SpecPad
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.KernelIdeal Cert.KernelIdeal.Gen

/-! ## The pooling region's output array -/

section Region0
variable (V : (c : Dev nD) → (b : Ref sig .tc) → Buf (Elt F) ((c : Thread nD τ).loc b))

/-- The pooled output's window stays at block (0, 0) at every point. -/
theorem idx_facts0_1 : ∀ t : Fin cfg0.N, win0_1.index t (0 : Fin 2) = 0 ∧ win0_1.index t (1 : Fin 2) = 0 :=
  (by decide +kernel : ∀ t : Fin grid0.N, _)

/-- An index of the pooled array is in point `t`'s block iff each coordinate is in the block's range on its axis. -/
theorem mem_blk0_1 (t : Fin cfg0.N) (i : S8x64.Idx) :
    i ∈ ((cfg0.win 1).blk t).view.set ↔ ∀ a : Fin 2, win0_1.index t a * S8x64.size a ≤ (i a).val ∧ (i a).val < win0_1.index t a * S8x64.size a + S8x64.size a := by
  show i ∈ ((View.whole main_v0).slice (win0_1.rect t)).set ↔ _
  rw [View.set_slice_whole, Rect.mem_set_unit]
  exact Iff.rfl

/-- THE POOLED ARRAY after the region: only the last point writes back, and its block is the whole array, which the
    body left at the scaled accumulator. -/
theorem final0 (c : Dev nD) : (dat0 V c).arrAt 1 cfg0.N = gapB V c := by
  refine (dat0 V c).arrAt_eq_of_cover 1 (gapB V c) (fun t hf => ?_) (fun i => ?_)
  · have ht := (flush0_1 t).mp hf
    rcases fin_N0 t with rfl | rfl
    · exact absurd ht (by show ¬ ((0 : ℕ) % 2 = 1); decide)
    · show (cfg0.win 1).cut (grid0.coords t0_1) ((dat0 V c).after 1 t0_1) = _
      rw [after0_1]
      show (cfg0.win 1).cut (grid0.coords t0_1) (gapB V c) = _
      obtain ⟨e0, e1⟩ := idx_facts0_1 t0_1
      funext j
      show gapB V c _ = gapB V c (((cfg0.win 1).blk t0_1).view.emb j)
      refine congrArg (gapB V c) ?_
      funext a; apply Fin.ext
      match a with
      | ⟨0, _⟩ => show (j 0).val = win0_1.index t0_1 (0 : Fin 2) * 8 + 1 * (j 0).val; omega
      | ⟨1, _⟩ => show (j 1).val = win0_1.index t0_1 (1 : Fin 2) * 64 + 1 * (j 1).val; omega
  · refine ⟨t0_1, (flush0_1 t0_1).mpr (by show (1 : ℕ) % 2 = 1; rfl), ?_⟩
    rw [mem_blk0_1]
    obtain ⟨e0, e1⟩ := idx_facts0_1 t0_1
    intro a
    match a with
    | ⟨0, _⟩ =>
      show win0_1.index t0_1 (0 : Fin 2) * 8 ≤ (i 0).val ∧ (i 0).val < win0_1.index t0_1 (0 : Fin 2) * 8 + 8
      have h8 : (i 0).val < 8 := (i 0).isLt
      omega
    | ⟨1, _⟩ =>
      show win0_1.index t0_1 (1 : Fin 2) * 64 ≤ (i 1).val ∧ (i 1).val < win0_1.index t0_1 (1 : Fin 2) * 64 + 64
      have h64 : (i 1).val < 64 := (i 1).isLt
      omega

end Region0

/-! ## The filtering region's blocks read at an index -/

section Region1Blocks
variable (V : (c : Dev nD) → (b : Ref sig .tc) → Buf (Elt F) ((c : Thread nD τ).loc b))

/-- The filtering region's index maps, decided over the grid: every window's block at point `t` is image `t`. -/
theorem idx_facts1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 3) = t.val ∧ win1_1.index t (1 : Fin 3) = 0 ∧ win1_1.index t (2 : Fin 3) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

/-- The padded image block of point `t` at `(0, ch, h, w)` is the padded array at image `t`. -/
theorem iblk1_0_apply (c : Dev nD) (t : Fin cfg1.N) (ch : Fin 64) (h w : Fin 130) (ht : t.val < 8) :
    iblk1 V c 0 t (ix4 (0 : Fin 1) ch h w) = V c main_v50 (ix4 ⟨t.val, ht⟩ ch h w) := by
  obtain ⟨⟨e0, e1, e2, e3⟩, -, -, -⟩ := idx_facts1 t
  show V c main_v50 (((cfg1.win 0).blk t).view.emb (ix4 (0 : Fin 1) ch h w)) = V c main_v50 (ix4 ⟨t.val, ht⟩ ch h w)
  refine congrArg (V c main_v50) ?_
  funext a; apply Fin.ext
  match a with
  | ⟨0, _⟩ => show win1_0.index t (0 : Fin 4) * 1 + 1 * 0 = t.val; omega
  | ⟨1, _⟩ => show win1_0.index t (1 : Fin 4) * 64 + 1 * ch.val = ch.val; omega
  | ⟨2, _⟩ => show win1_0.index t (2 : Fin 4) * 130 + 1 * h.val = h.val; omega
  | ⟨3, _⟩ => show win1_0.index t (3 : Fin 4) * 130 + 1 * w.val = w.val; omega

/-- The tap-weight block of point `t` at `(0, ch, j)` is the weights array at image `t`. -/
theorem iblk1_1_apply (c : Dev nD) (t : Fin cfg1.N) (ch : Fin 64) (j : Fin 9) (ht : t.val < 8) :
    iblk1 V c 1 t (ix3 (0 : Fin 1) ch j) = V c main_v49 (ix3 ⟨t.val, ht⟩ ch j) := by
  obtain ⟨-, ⟨e0, e1, e2⟩, -, -⟩ := idx_facts1 t
  show V c main_v49 (((cfg1.win 1).blk t).view.emb (ix3 (0 : Fin 1) ch j)) = V c main_v49 (ix3 ⟨t.val, ht⟩ ch j)
  refine congrArg (V c main_v49) ?_
  funext a; apply Fin.ext
  match a with
  | ⟨0, _⟩ => show win1_1.index t (0 : Fin 3) * 1 + 1 * 0 = t.val; omega
  | ⟨1, _⟩ => show win1_1.index t (1 : Fin 3) * 64 + 1 * ch.val = ch.val; omega
  | ⟨2, _⟩ => show win1_1.index t (2 : Fin 3) * 9 + 1 * j.val = j.val; omega

end Region1Blocks

/-! ## At the extended reals: the low-pass and high-pass arrays -/

section Region1Ideal

open Cert.ReferenceIdeal.RefValue (lowOf lowOf_apply padOf padOf_center tapsum)

/-- The high-pass value: the padded array's centre (row and column shifted by one) minus the nine-tap weighted sum. -/
def highOf (xp : FVec Ideal S8x64x130x130 .f32) (f : FVec Ideal S8x64x9 .f32) : FVec Ideal S8x64x128x128 .f32 :=
  fun i => xp (ix4 (i 0) (i 1)
      (⟨(i 2).val + 1, by have h : (i 2).val < 128 := (i 2).isLt; omega⟩ : Fin 130)
      (⟨(i 3).val + 1, by have h : (i 3).val < 128 := (i 3).isLt; omega⟩ : Fin 130))
    - lowOf xp f i

/-- The high-pass value at `(n, c, h, w)`. -/
theorem highOf_apply (xp : FVec Ideal S8x64x130x130 .f32) (f : FVec Ideal S8x64x9 .f32)
    (n : Fin 8) (c : Fin 64) (h w : Fin 128) :
    highOf xp f (ix4 n c h w)
      = xp (ix4 n c ⟨h.val + 1, by omega⟩ ⟨w.val + 1, by omega⟩) - lowOf xp f (ix4 n c h w) := rfl

/-- An index of a full-size output array is in point `t`'s block of window 2 iff each coordinate is in the block's
    range on its axis. -/
theorem mem_blk1_2 (t : Fin cfg1.N) (i : S8x64x128x128.Idx) :
    i ∈ ((cfg1.win 2).blk t).view.set ↔ ∀ a : Fin 4, win1_2.index t a * S1x64x128x128.size a ≤ (i a).val ∧ (i a).val < win1_2.index t a * S1x64x128x128.size a + S1x64x128x128.size a := by
  show i ∈ ((View.whole main_v51_0).slice (win1_2.rect t)).set ↔ _
  rw [View.set_slice_whole, Rect.mem_set_unit]
  exact Iff.rfl

/-- The same for window 3. -/
theorem mem_blk1_3 (t : Fin cfg1.N) (i : S8x64x128x128.Idx) :
    i ∈ ((cfg1.win 3).blk t).view.set ↔ ∀ a : Fin 4, win1_3.index t a * S1x64x128x128.size a ≤ (i a).val ∧ (i a).val < win1_3.index t a * S1x64x128x128.size a + S1x64x128x128.size a := by
  show i ∈ ((View.whole main_v51_1).slice (win1_3.rect t)).set ↔ _
  rw [View.set_slice_whole, Rect.mem_set_unit]
  exact Iff.rfl

variable (V : (c : Dev nD) → (b : Ref sig .tc) → Buf (Elt Ideal) ((c : Thread nD τ).loc b))

/-- The low-pass block of point `t` at `(u, ch, h, w)` is the nine-tap sum of the arrays at image `t`. -/
theorem low_blk_apply (c : Dev nD) (t : Fin cfg1.N) (ht : t.val < 8) (u : Fin 1) (ch : Fin 64) (h w : Fin 128) :
    out1_2 (iblk1 V c 0 t) (iblk1 V c 1 t) (ix4 u ch h w)
      = lowOf (V c main_v50) (V c main_v49) (ix4 ⟨t.val, ht⟩ ch h w) := by
  rw [out1_2_apply, lowOf_apply]
  simp only [iblk1_0_apply V c t _ _ _ ht, iblk1_1_apply V c t _ _ ht]

/-- The high-pass block of point `t` at `(u, ch, h, w)` is the high-pass value of the arrays at image `t`. -/
theorem high_blk_apply (c : Dev nD) (t : Fin cfg1.N) (ht : t.val < 8) (u : Fin 1) (ch : Fin 64) (h w : Fin 128) :
    out1_3 (iblk1 V c 0 t) (iblk1 V c 1 t) (ix4 u ch h w)
      = highOf (V c main_v50) (V c main_v49) (ix4 ⟨t.val, ht⟩ ch h w) := by
  rw [out1_3_apply, highOf_apply, lowOf_apply]
  simp only [iblk1_0_apply V c t _ _ _ ht, iblk1_1_apply V c t _ _ ht]

end Region1Ideal

section Region1Arrays

open Cert.ReferenceIdeal.RefValue (lowOf lowOf_apply padOf padOf_center tapsum)

variable (V : (c : Dev nD) → (b : Ref sig .tc) → Buf (Elt Ideal) ((c : Thread nD τ).loc b))

/-- THE LOW-PASS ARRAY after the region: point `t` writes back image `t`, the eight images tile the array, and each holds the nine-tap weighted sum of the padded array and the weights. -/
theorem final1_2 (c : Dev nD) : (dat1 V c).arrAt 2 cfg1.N = lowOf (V c main_v50) (V c main_v49) := by
  refine (dat1 V c).arrAt_eq_of_cover 2 (lowOf (V c main_v50) (V c main_v49)) (fun t _ => ?_) (fun i => ?_)
  · have ht : t.val < 8 := lt_of_lt_of_eq t.isLt N_1
    obtain ⟨-, -, ⟨e0, e1, e2, e3⟩, -⟩ := idx_facts1 t
    show (cfg1.win 2).cut (grid1.coords t) ((dat1 V c).after 2 t) = _
    rw [after1_2]
    funext j
    obtain ⟨u, ch, h, w, rfl⟩ : ∃ (u : Fin 1) (ch : Fin 64) (h w : Fin 128), j = ix4 u ch h w :=
      ⟨j 0, j 1, j 2, j 3, eq_ix4 j⟩
    have hu : u.val = 0 := by have := u.isLt; omega
    have he : ((cfg1.win 2).blk t).view.emb (ix4 u ch h w) = ix4 (⟨t.val, ht⟩ : Fin 8) ch h w := by
      funext a; apply Fin.ext
      match a with
      | ⟨0, _⟩ => show win1_2.index t (0 : Fin 4) * 1 + 1 * u.val = t.val; omega
      | ⟨1, _⟩ => show win1_2.index t (1 : Fin 4) * 64 + 1 * ch.val = ch.val; omega
      | ⟨2, _⟩ => show win1_2.index t (2 : Fin 4) * 128 + 1 * h.val = h.val; omega
      | ⟨3, _⟩ => show win1_2.index t (3 : Fin 4) * 128 + 1 * w.val = w.val; omega
    show out1_2 (iblk1 V c 0 t) (iblk1 V c 1 t) (ix4 u ch h w)
      = lowOf (V c main_v50) (V c main_v49) (((cfg1.win 2).blk t).view.emb (ix4 u ch h w))
    rw [he]
    exact low_blk_apply V c t ht u ch h w
  · have h8 : (i 0).val < 8 := (i 0).isLt
    obtain ⟨t, hti⟩ : ∃ t : Fin cfg1.N, t.val = (i 0).val := ⟨⟨(i 0).val, lt_of_lt_of_eq h8 N_1.symm⟩, rfl⟩
    refine ⟨t, flush1_2 t, ?_⟩
    rw [mem_blk1_2]
    obtain ⟨-, -, ⟨e0, e1, e2, e3⟩, -⟩ := idx_facts1 t
    intro a
    match a with
    | ⟨0, _⟩ =>
      show win1_2.index t (0 : Fin 4) * 1 ≤ (i 0).val ∧ (i 0).val < win1_2.index t (0 : Fin 4) * 1 + 1
      omega
    | ⟨1, _⟩ =>
      show win1_2.index t (1 : Fin 4) * 64 ≤ (i 1).val ∧ (i 1).val < win1_2.index t (1 : Fin 4) * 64 + 64
      have h64 : (i 1).val < 64 := (i 1).isLt
      omega
    | ⟨2, _⟩ =>
      show win1_2.index t (2 : Fin 4) * 128 ≤ (i 2).val ∧ (i 2).val < win1_2.index t (2 : Fin 4) * 128 + 128
      have h128 : (i 2).val < 128 := (i 2).isLt
      omega
    | ⟨3, _⟩ =>
      show win1_2.index t (3 : Fin 4) * 128 ≤ (i 3).val ∧ (i 3).val < win1_2.index t (3 : Fin 4) * 128 + 128
      have h128 : (i 3).val < 128 := (i 3).isLt
      omega

/-- THE HIGH-PASS ARRAY after the region: likewise, each image holding the padded array's centre minus the weighted sum. -/
theorem final1_3 (c : Dev nD) : (dat1 V c).arrAt 3 cfg1.N = highOf (V c main_v50) (V c main_v49) := by
  refine (dat1 V c).arrAt_eq_of_cover 3 (highOf (V c main_v50) (V c main_v49)) (fun t _ => ?_) (fun i => ?_)
  · have ht : t.val < 8 := lt_of_lt_of_eq t.isLt N_1
    obtain ⟨-, -, -, ⟨e0, e1, e2, e3⟩⟩ := idx_facts1 t
    show (cfg1.win 3).cut (grid1.coords t) ((dat1 V c).after 3 t) = _
    rw [after1_3]
    funext j
    obtain ⟨u, ch, h, w, rfl⟩ : ∃ (u : Fin 1) (ch : Fin 64) (h w : Fin 128), j = ix4 u ch h w :=
      ⟨j 0, j 1, j 2, j 3, eq_ix4 j⟩
    have hu : u.val = 0 := by have := u.isLt; omega
    have he : ((cfg1.win 3).blk t).view.emb (ix4 u ch h w) = ix4 (⟨t.val, ht⟩ : Fin 8) ch h w := by
      funext a; apply Fin.ext
      match a with
      | ⟨0, _⟩ => show win1_3.index t (0 : Fin 4) * 1 + 1 * u.val = t.val; omega
      | ⟨1, _⟩ => show win1_3.index t (1 : Fin 4) * 64 + 1 * ch.val = ch.val; omega
      | ⟨2, _⟩ => show win1_3.index t (2 : Fin 4) * 128 + 1 * h.val = h.val; omega
      | ⟨3, _⟩ => show win1_3.index t (3 : Fin 4) * 128 + 1 * w.val = w.val; omega
    show out1_3 (iblk1 V c 0 t) (iblk1 V c 1 t) (ix4 u ch h w)
      = highOf (V c main_v50) (V c main_v49) (((cfg1.win 3).blk t).view.emb (ix4 u ch h w))
    rw [he]
    exact high_blk_apply V c t ht u ch h w
  · have h8 : (i 0).val < 8 := (i 0).isLt
    obtain ⟨t, hti⟩ : ∃ t : Fin cfg1.N, t.val = (i 0).val := ⟨⟨(i 0).val, lt_of_lt_of_eq h8 N_1.symm⟩, rfl⟩
    refine ⟨t, flush1_3 t, ?_⟩
    rw [mem_blk1_3]
    obtain ⟨-, -, -, ⟨e0, e1, e2, e3⟩⟩ := idx_facts1 t
    intro a
    match a with
    | ⟨0, _⟩ =>
      show win1_3.index t (0 : Fin 4) * 1 ≤ (i 0).val ∧ (i 0).val < win1_3.index t (0 : Fin 4) * 1 + 1
      omega
    | ⟨1, _⟩ =>
      show win1_3.index t (1 : Fin 4) * 64 ≤ (i 1).val ∧ (i 1).val < win1_3.index t (1 : Fin 4) * 64 + 64
      have h64 : (i 1).val < 64 := (i 1).isLt
      omega
    | ⟨2, _⟩ =>
      show win1_3.index t (2 : Fin 4) * 128 ≤ (i 2).val ∧ (i 2).val < win1_3.index t (2 : Fin 4) * 128 + 128
      have h128 : (i 2).val < 128 := (i 2).isLt
      omega
    | ⟨3, _⟩ =>
      show win1_3.index t (3 : Fin 4) * 128 ≤ (i 3).val ∧ (i 3).val < win1_3.index t (3 : Fin 4) * 128 + 128
      have h128 : (i 3).val < 128 := (i 3).isLt
      omega

/-- The high-pass value of a reflect-padded array at `(n, c, h, w)`: the padding's centre is the array itself. -/
theorem highOf_pad_apply (x : FVec Ideal S8x64x128x128 .f32) (f : FVec Ideal S8x64x9 .f32)
    (n : Fin 8) (c : Fin 64) (h w : Fin 128) :
    highOf (padOf x) f (ix4 n c h w) = x (ix4 n c h w) - lowOf (padOf x) f (ix4 n c h w) := by
  rw [highOf_apply, padOf_center]

/-- The high-pass value of a reflect-padded array is the array minus the weighted sum of its padding. -/
theorem highOf_pad (x : FVec Ideal S8x64x128x128 .f32) (f : FVec Ideal S8x64x9 .f32) :
    highOf (padOf x) f = subf x (lowOf (padOf x) f) := by
  funext i
  rw [eq_ix4 i]
  exact highOf_pad_apply x f (i 0) (i 1) (i 2) (i 3)

end Region1Arrays

end Cert.KernelIdeal.Fr

end
-- ==== Proof.SpecFch.lean ====
/-
  The filter head of the reference, as one function of values. From the pooled means `gap` (one per sample and
  channel) and the four parameter arrays it computes, per sample, the 72 logits `gap · wcᵀ`, gates them by the
  logistic function of their image under `wgᵀ`, normalises the 72 gated logits to mean zero and variance one
  (the variance taken about the mean, the square root of it plus 1e-5 in the denominator), scales by `gam` and
  shifts by `bet`, reads the 72 values as 8 groups of 9 taps, takes the softmax over the 9 taps of each group
  (the maximum subtracted first), and repeats each group's 9 weights over the 8 channels of the group:
  the result has one weight per sample, channel and tap. The chain is cut into five stages, each a
  definition whose lines are the reference's operations in their order, applied to the lines before them.
-/
import proofs.«141267_j22771916603489_2_alg».proof.Proof.Gen.ReferenceIdeal
import Idealize.ShloMosaic.PureOps.Ideal

noncomputable section

namespace Cert.ReferenceIdeal.RefValue

open Idealize.ShloMosaic Idealize.SL.Sem
open Cert.ReferenceIdeal Cert.ReferenceIdeal.Facts₀

/-- The gated logits: `l = gap · wcᵀ` (8 × 72) times the logistic function `1 / (1 + exp (-(l · wgᵀ)))` of
    their image under `wgᵀ`, element by element. Each line is one operation of the reference, in its order. -/
def fchGate (gap : FVec Ideal S8x64 .f32) (wc : FVec Ideal S72x64 .f32) (wg : FVec Ideal S72x72 .f32) : FVec Ideal S8x72 .f32 :=
  let v3 : FVec Ideal S64x72 .f32 := transpose S64x72 [1, 0] wc transposes_S72x64_S64x72_1_0
  let v4 : FVec Ideal S8x72 .f32 := Host.dotGeneral dot_S8x64_S64x72_S8x72_1_0_0_1_n_n none gap v3
  let v5 : FVec Ideal S72x72 .f32 := transpose S72x72 [1, 0] wg transposes_S72x72_S72x72_1_0
  let v6 : FVec Ideal S8x72 .f32 := Host.dotGeneral dot_S8x72_S72x72_S8x72_1_0_0_1_n_n none v4 v5
  let v7 : FVec Ideal S8x72 .f32 := Host.negf v6
  let v8 : FVec Ideal S8x72 .f32 := Host.exp v7
  let cst_1 : FVec Ideal S_ .f32 := constant (F := Ideal) S_ .f32 0x3F800000#32
  let v9 : FVec Ideal S8x72 .f32 := (broadcastInDim S8x72 ![] bcast_S_S8x72) cst_1
  let v10 : FVec Ideal S8x72 .f32 := addf v9 v8
  let cst_2 : FVec Ideal S_ .f32 := constant (F := Ideal) S_ .f32 0x3F800000#32
  let v11 : FVec Ideal S8x72 .f32 := (broadcastInDim S8x72 ![] bcast_S_S8x72) cst_2
  let v12 : FVec Ideal S8x72 .f32 := Host.divf v11 v10
  let v13 : FVec Ideal S8x72 .f32 := mulf v4 v12
  v13

/-- The mean of the 72 gated logits of each sample: their sum from zero, divided by 72, as an 8 × 1 array. -/
def fchMean (s : FVec Ideal S8x72 .f32) : FVec Ideal S8x1 .f32 :=
  let cst_3 : FVec Ideal S_ .f32 := constant (F := Ideal) S_ .f32 0x00000000#32
  let v14 : FVec Ideal S8 .f32 := Host.reduceAdd s cst_3 reducesTo_S8x72_S8_d1 h_S_
  let v15 : FVec Ideal S8x1 .f32 := (broadcastInDim S8x1 ![0] bcast_S8_S8x1_0) v14
  let cst_4 : FVec Ideal S_ .f32 := constant (F := Ideal) S_ .f32 0x42900000#32
  let v16 : FVec Ideal S8x1 .f32 := (broadcastInDim S8x1 ![] bcast_S_S8x1) cst_4
  let v17 : FVec Ideal S8x1 .f32 := Host.divf v15 v16
  v17

/-- The variance of the 72 gated logits of each sample about their mean `μ`: the sum from zero of the squares
    of the differences, divided by 72, as an 8 × 1 array. -/
def fchVar (s : FVec Ideal S8x72 .f32) (μ : FVec Ideal S8x1 .f32) : FVec Ideal S8x1 .f32 :=
  let v18 : FVec Ideal S8x72 .f32 := (broadcastInDim S8x72 ![0, 1] bcast_S8x1_S8x72_0_1) μ
  let v19 : FVec Ideal S8x72 .f32 := subf s v18
  let v20 : FVec Ideal S8x72 .f32 := mulf v19 v19
  let cst_5 : FVec Ideal S_ .f32 := constant (F := Ideal) S_ .f32 0x00000000#32
  let v21 : FVec Ideal S8 .f32 := Host.reduceAdd v20 cst_5 reducesTo_S8x72_S8_d1 h_S_
  let v22 : FVec Ideal S8x1 .f32 := (broadcastInDim S8x1 ![0] bcast_S8_S8x1_0) v21
  let cst_6 : FVec Ideal S_ .f32 := constant (F := Ideal) S_ .f32 0x42900000#32
  let v23 : FVec Ideal S8x1 .f32 := (broadcastInDim S8x1 ![] bcast_S_S8x1) cst_6
  let v24 : FVec Ideal S8x1 .f32 := Host.divf v22 v23
  v24

/-- The normalised logits: `(s - μ) / sqrt (σ² + 1e-5)`, scaled by `gam` and shifted by `bet` along the 72
    logits (8 × 72). -/
def fchNorm (s : FVec Ideal S8x72 .f32) (μ : FVec Ideal S8x1 .f32) (σ2 : FVec Ideal S8x1 .f32) (gam : FVec Ideal S72 .f32) (bet : FVec Ideal S72 .f32) : FVec Ideal S8x72 .f32 :=
  let v25 : FVec Ideal S8x72 .f32 := (broadcastInDim S8x72 ![0, 1] bcast_S8x1_S8x72_0_1) μ
  let v26 : FVec Ideal S8x72 .f32 := subf s v25
  let cst_7 : FVec Ideal S_ .f32 := constant (F := Ideal) S_ .f32 0x3727C5AC#32
  let v27 : FVec Ideal S8x1 .f32 := (broadcastInDim S8x1 ![] bcast_S_S8x1) cst_7
  let v28 : FVec Ideal S8x1 .f32 := addf σ2 v27
  let v29 : FVec Ideal S8x1 .f32 := Host.sqrt v28
  let v30 : FVec Ideal S8x72 .f32 := (broadcastInDim S8x72 ![0, 1] bcast_S8x1_S8x72_0_1) v29
  let v31 : FVec Ideal S8x72 .f32 := Host.divf v26 v30
  let v32 : FVec Ideal S1x72 .f32 := (broadcastInDim S1x72 ![1] bcast_S72_S1x72_1) gam
  let v33 : FVec Ideal S8x72 .f32 := (broadcastInDim S8x72 ![0, 1] bcast_S1x72_S8x72_0_1) v32
  let v34 : FVec Ideal S8x72 .f32 := mulf v31 v33
  let v35 : FVec Ideal S1x72 .f32 := (broadcastInDim S1x72 ![1] bcast_S72_S1x72_1) bet
  let v36 : FVec Ideal S8x72 .f32 := (broadcastInDim S8x72 ![0, 1] bcast_S1x72_S8x72_0_1) v35
  let v37 : FVec Ideal S8x72 .f32 := addf v34 v36
  v37

/-- The softmax over the 9 taps of each of the 8 groups: the 8 × 72 logits read as 8 × 8 × 9, the maximum over
    the taps (joined with -∞) subtracted, the exponentials divided by their sum from zero. -/
def fchSoft (n : FVec Ideal S8x72 .f32) : FVec Ideal S8x8x9 .f32 :=
  let v38 : FVec Ideal S8x8x9 .f32 := shapeCast S8x8x9 n shapeCasts_S8x72_S8x8x9
  let cst_8 : FVec Ideal S_ .f32 := constant (F := Ideal) S_ .f32 0xFF800000#32
  let v39 : FVec Ideal S8x8 .f32 := Host.reduce FloatOps.maximumf v38 cst_8 reducesTo_S8x8x9_S8x8_d2 h_S_
  let cst_9 : FVec Ideal S_ .f32 := constant (F := Ideal) S_ .f32 0xFF800000#32
  let v40 : FVec Ideal S8x8 .f32 := (broadcastInDim S8x8 ![] bcast_S_S8x8) cst_9
  let v41 : FVec Ideal S8x8 .f32 := maximumf v40 v39
  let v42 : FVec Ideal S8x8x1 .f32 := (broadcastInDim S8x8x1 ![0, 1] bcast_S8x8_S8x8x1_0_1) v41
  let v43 : FVec Ideal S8x8x9 .f32 := (broadcastInDim S8x8x9 ![0, 1, 2] bcast_S8x8x1_S8x8x9_0_1_2) v42
  let v44 : FVec Ideal S8x8x9 .f32 := subf v38 v43
  let v45 : FVec Ideal S8x8x9 .f32 := Host.exp v44
  let cst_10 : FVec Ideal S_ .f32 := constant (F := Ideal) S_ .f32 0x00000000#32
  let v46 : FVec Ideal S8x8 .f32 := Host.reduceAdd v45 cst_10 reducesTo_S8x8x9_S8x8_d2 h_S_
  let v47 : FVec Ideal S8x8x1 .f32 := (broadcastInDim S8x8x1 ![0, 1] bcast_S8x8_S8x8x1_0_1) v46
  let v48 : FVec Ideal S8x8x9 .f32 := (broadcastInDim S8x8x9 ![0, 1, 2] bcast_S8x8x1_S8x8x9_0_1_2) v47
  let v49 : FVec Ideal S8x8x9 .f32 := Host.divf v45 v48
  v49

/-- The per-channel tap weights as a function of the pooled means `gap` and the parameters: with
    `s = fchGate gap wc wg`, `μ = fchMean s`, `σ² = fchVar s μ` and `n = fchNorm s μ σ² gam bet`, the softmax
    `fchSoft n` (8 samples × 8 groups × 9 taps) repeated over the 8 channels of each group: the value at sample
    `b`, channel `8 g + r`, tap `j` is `fchSoft n (b, g, j)`. -/
def fchOf (gap : FVec Ideal S8x64 .f32) (wc : FVec Ideal S72x64 .f32) (wg : FVec Ideal S72x72 .f32)
    (gam bet : FVec Ideal S72 .f32) : FVec Ideal S8x64x9 .f32 :=
  shapeCast S8x64x9
    (broadcastInDim S8x8x8x9 ![0, 1, 3] bcast_S8x8x9_S8x8x8x9_0_1_3
      (fchSoft (fchNorm (fchGate gap wc wg) (fchMean (fchGate gap wc wg)) (fchVar (fchGate gap wc wg) (fchMean (fchGate gap wc wg))) gam bet)))
    shapeCasts_S8x8x8x9_S8x64x9

end Cert.ReferenceIdeal.RefValue

end
-- ==== Proof.KHost.lean ====
import proofs.«141267_j22771916603489_2_alg».proof.Proof.Gen.KernelIdeal.Launch
import proofs.«141267_j22771916603489_2_alg».proof.Proof.SpecPad
import proofs.«141267_j22771916603489_2_alg».proof.Proof.SpecFch
import Idealize.ShloMosaic.Lib.StableHlo.Run

/-!
# The kernel program's host operations compute the reference's padding and tap weights

Before its second launch the kernel program pads its input by reflection with the same sixteen
slice / reverse / concatenate operations as the reference, and computes the per-channel tap weights
from the pooled means with the same chain of operations as the reference. Read at the buffers they
write, the two stretches of host operations are therefore the functions `padOf` and `fchOf` of the
contents of the buffers they read.
-/

noncomputable section

namespace Cert.KernelIdeal.Fr

open Idealize.ShloMosaic Idealize.ShloMosaic.StableHlo Idealize.SL.Sem
open Cert.KernelIdeal Cert.KernelIdeal.Gen Cert.ReferenceIdeal.RefValue

/-- After the sixteen padding operations, the padded buffer holds the reflect padding of what the input
    buffer held: each operation's result is its function of its operands' contents (the transports between a
    buffer's type and its value's type being identities), and the composition is `padOf` term by term. -/
theorem pad_eq (W : Valuation τ sig (Elt Ideal)) :
    StableHlo.after (hostOps1_1 (F := Ideal)) W (Proc.devRef .tc main_v50) = padOf (W (Proc.devRef .tc main_arg0)) := by
  after_results
  dsimp only [TRef.toBuf, TRef.ofBuf, cast_eq]
  rfl

attribute [local irreducible] Host.reduce Host.reduceAdd in
set_option maxRecDepth 8192 in
set_option maxHeartbeats 1600000 in
/-- After the first stretch of host operations, the weight buffer holds the tap weights `fchOf` of what the
    pooled-means buffer and the four parameter buffers held: each operation's result is its function of its
    operands' contents, no operation writes a buffer the chain reads later, and the composition is `fchOf` term by
    term (the reductions, the contraction, the exponential and the square root are never opened). -/
theorem fch_eq (W : Valuation τ sig (Elt Ideal)) :
    StableHlo.after (hostOps1 (F := Ideal)) W (Proc.devRef .tc main_v49)
      = fchOf (W (Proc.devRef .tc main_v0)) (W (Proc.devRef .tc main_arg1)) (W (Proc.devRef .tc main_arg2))
          (W (Proc.devRef .tc main_arg3)) (W (Proc.devRef .tc main_arg4)) := by
  after_results_simp
  rfl

end Cert.KernelIdeal.Fr
-- ==== Proof.KValue.lean ====
/-
  The kernel program's results at the ideal instance, as functions of the five argument arrays.
  After the pooling region the means buffer holds the reference's mean of the image; the first host stretch turns it
  into the tap weights by the same operations as the reference; the second reflect-pads the image; the filtering
  region leaves, image by image, the nine-tap weighted sum of the padded image and the centre window minus it; and the
  centre of the reflect-padded image is the image. So the two results are `lowOf (padOf x) f` and `x - lowOf (padOf x) f`
  with `f` the tap weights of the mean of `x` — the reference's own terms.
-/
import proofs.«141267_j22771916603489_2_alg».proof.Proof.KRun
import proofs.«141267_j22771916603489_2_alg».proof.Proof.KPay0
import proofs.«141267_j22771916603489_2_alg».proof.Proof.KFinal
import proofs.«141267_j22771916603489_2_alg».proof.Proof.KHost
import proofs.«141267_j22771916603489_2_alg».proof.Proof.SpecGap
import proofs.«141267_j22771916603489_2_alg».proof.Proof.SpecPad
import proofs.«141267_j22771916603489_2_alg».proof.Proof.SpecFch

noncomputable section

namespace Cert.KernelIdeal.Fr

open Idealize.ShloMosaic Idealize.ShloMosaic.TcCoe Idealize.SL.Sem
open Cert.KernelIdeal Cert.KernelIdeal.Gen
open Cert.ReferenceIdeal.RefValue (gapRef fchOf padOf lowOf)

variable (m : (ℓ : Loc nD τ sig) → Buf (Elt Ideal) ℓ)

/-- The tap weights as the kernel program computes them from its arguments on core `c`. -/
abbrev fK (c : Dev nD) : FVec Ideal Cert.ReferenceIdeal.S8x64x9 .f32 :=
  fchOf (gapRef (m ((c : Thread nD τ).loc main_arg0))) (m ((c : Thread nD τ).loc main_arg1)) (m ((c : Thread nD τ).loc main_arg2))
    (m ((c : Thread nD τ).loc main_arg3)) (m ((c : Thread nD τ).loc main_arg4))

/-! ## After the pooling region -/

theorem W1_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_arg1 (c : Dev nD) : W1 m c (Proc.devRef .tc main_arg1) = m ((c : Thread nD τ).loc main_arg1) :=
  (W1_of_ne m c main_arg1 (by decide)).trans rfl
theorem W1_arg2 (c : Dev nD) : W1 m c (Proc.devRef .tc main_arg2) = m ((c : Thread nD τ).loc main_arg2) :=
  (W1_of_ne m c main_arg2 (by decide)).trans rfl
theorem W1_arg3 (c : Dev nD) : W1 m c (Proc.devRef .tc main_arg3) = m ((c : Thread nD τ).loc main_arg3) :=
  (W1_of_ne m c main_arg3 (by decide)).trans rfl
theorem W1_arg4 (c : Dev nD) : W1 m c (Proc.devRef .tc main_arg4) = m ((c : Thread nD τ).loc main_arg4) :=
  (W1_of_ne m c main_arg4 (by decide)).trans rfl

/-- The means buffer holds the reference's mean of the image. -/
theorem W1_v0 (c : Dev nD) : W1 m c (Proc.devRef .tc main_v0) = gapRef (m ((c : Thread nD τ).loc main_arg0)) :=
  (W1_arr m c 1).trans ((final0 (V0 m) c).trans (gapB_ideal (V0 m) c))

/-! ## After the two host stretches -/

/-- The tap weights. -/
theorem W2_v49 (c : Dev nD) : W2 m c (Proc.devRef .tc main_v49) = fK m c := by
  show StableHlo.after (hostOps1 (F := Ideal)) (W1 m c) (Proc.devRef .tc main_v49) = _
  rw [fch_eq, W1_v0, W1_arg1, W1_arg2, W1_arg3, W1_arg4]

theorem W3_v49 (c : Dev nD) : W3 m c (Proc.devRef .tc main_v49) = fK m c :=
  (W3_of m c main_v49 (by decide)).trans (W2_v49 m c)

/-- The padded image. -/
theorem W3_v50 (c : Dev nD) : W3 m c (Proc.devRef .tc main_v50) = padOf (m ((c : Thread nD τ).loc main_arg0)) := by
  show StableHlo.after (hostOps1_1 (F := Ideal)) (W2 m c) (Proc.devRef .tc main_v50) = _
  rw [pad_eq, W2_of m c main_arg0 (by decide), W1_arg0]

/-! ## After the filtering region -/

/-- The low-pass result. -/
theorem W5_low (c : Dev nD) : W5 m c (Proc.devRef .tc main_v51_0)
    = lowOf (padOf (m ((c : Thread nD τ).loc main_arg0))) (fK m c) := by
  refine (W5_arr m c 2).trans ((final1_2 (V3 m) c).trans ?_)
  show lowOf (W3 m c (Proc.devRef .tc main_v50)) (W3 m c (Proc.devRef .tc main_v49)) = _
  rw [W3_v50, W3_v49]

/-- The high-pass result: the image minus the low-pass result. -/
theorem W5_high (c : Dev nD) : W5 m c (Proc.devRef .tc main_v51_1)
    = subf (m ((c : Thread nD τ).loc main_arg0)) (lowOf (padOf (m ((c : Thread nD τ).loc main_arg0))) (fK m c)) := by
  refine (W5_arr m c 3).trans ((final1_3 (V3 m) c).trans ?_)
  show highOf (W3 m c (Proc.devRef .tc main_v50)) (W3 m c (Proc.devRef .tc main_v49)) = _
  rw [W3_v50, W3_v49, highOf_pad]

/-- THE RUN WITH VALUES: every weakly fair execution of the idealized kernel program terminates with the two results at
    the reference's terms of the arguments, and the arguments unchanged. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v51_0) = lowOf (padOf (m ((c : Thread nD τ).loc main_arg0))) (fK m c)
      ∧ r.2.mem ((c.tc : Thread nD τ).loc main_v51_1) = subf (m ((c : Thread nD τ).loc main_arg0)) (lowOf (padOf (m ((c : Thread nD τ).loc main_arg0))) (fK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v51_0 (by decide))).trans (W5_low m c),
     (h c _ (mem_uc main_v51_1 (by decide))).trans (W5_high m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Fr

end
-- ==== Proof.RefRun.lean ====
/-
  The reference program read back as a function of its arguments. Its @main is a straight line of host
  operations, the reflect padding's sixteen (a call whose body itself calls the two one-axis reversals) listed in
  place at the call over the call's own buffers. Run from any memory with zero counters it terminates, and each
  buffer ends at the composition of the operations that lead to it, applied to the arguments' launch contents:
  the first result is the nine-tap weighted sum `lowOf` of the padded input `padOf x` under the tap weights
  `fchOf` of the pooled means `gapRef x`, the second result is `x` minus the first, and the five arguments
  are unchanged.
-/
import proofs.«141267_j22771916603489_2_alg».proof.Defs
import proofs.«141267_j22771916603489_2_alg».proof.Proof.Gen.ReferenceIdeal
import proofs.«141267_j22771916603489_2_alg».proof.Proof.Gen.Pre_finite_inputs
import proofs.«141267_j22771916603489_2_alg».proof.Proof.SpecFch
import proofs.«141267_j22771916603489_2_alg».proof.Proof.SpecGap
import proofs.«141267_j22771916603489_2_alg».proof.Proof.SpecPad
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

section Generic

variable {F : FTy → Type} [FloatOps F]

/-- @main's 147 operations in order: its own 131, and in place of the call of the reflect padding that
    function's twelve with the four one-axis reversals it calls, each over the call's buffers. -/
abbrev ops : List (HloOp τ sig (Elt F)) :=
    nullary main_cst (constant S_ .f32 0x00000000#32) ::
    binary main_arg0 main_cst main_v0 ((fun x v => Host.reduceAdd x v reducesTo_S8x64x128x128_S8x64_d2_3 h_S_) : (⟨S8x64x128x128, .f32⟩ : BufTy).Contents (Elt F) → (⟨S_, .f32⟩ : BufTy).Contents (Elt F) → (⟨S8x64, .f32⟩ : BufTy).Contents (Elt F)) ::
    nullary main_cst_0 (constant S_ .f32 0x46800000#32) ::
    unary main_cst_0 main_v1 (broadcastInDim S8x64 ![] bcast_S_S8x64 : (⟨S_, .f32⟩ : BufTy).Contents (Elt F) → (⟨S8x64, .f32⟩ : BufTy).Contents (Elt F)) ::
    binary main_v0 main_v1 main_v2 (Host.divf : (⟨S8x64, .f32⟩ : BufTy).Contents (Elt F) → (⟨S8x64, .f32⟩ : BufTy).Contents (Elt F) → (⟨S8x64, .f32⟩ : BufTy).Contents (Elt F)) ::
    unary main_arg1 main_v3 ((transpose S64x72 [1, 0] · transposes_S72x64_S64x72_1_0) : (⟨S72x64, .f32⟩ : BufTy).Contents (Elt F) → (⟨S64x72, .f32⟩ : BufTy).Contents (Elt F)) ::
    binary main_v2 main_v3 main_v4 ((fun l r => Host.dotGeneral dot_S8x64_S64x72_S8x72_1_0_0_1_n_n none l r) : (⟨S8x64, .f32⟩ : BufTy).Contents (Elt F) → (⟨S64x72, .f32⟩ : BufTy).Contents (Elt F) → (⟨S8x72, .f32⟩ : BufTy).Contents (Elt F)) ::
    unary main_arg2 main_v5 ((transpose S72x72 [1, 0] · transposes_S72x72_S72x72_1_0) : (⟨S72x72, .f32⟩ : BufTy).Contents (Elt F) → (⟨S72x72, .f32⟩ : BufTy).Contents (Elt F)) ::
    binary main_v4 main_v5 main_v6 ((fun l r => Host.dotGeneral dot_S8x72_S72x72_S8x72_1_0_0_1_n_n none l r) : (⟨S8x72, .f32⟩ : BufTy).Contents (Elt F) → (⟨S72x72, .f32⟩ : BufTy).Contents (Elt F) → (⟨S8x72, .f32⟩ : BufTy).Contents (Elt F)) ::
    unary main_v6 main_v7 (Host.negf : (⟨S8x72, .f32⟩ : BufTy).Contents (Elt F) → (⟨S8x72, .f32⟩ : BufTy).Contents (Elt F)) ::
    unary main_v7 main_v8 (Host.exp : (⟨S8x72, .f32⟩ : BufTy).Contents (Elt F) → (⟨S8x72, .f32⟩ : BufTy).Contents (Elt F)) ::
    nullary main_cst_1 (constant S_ .f32 0x3F800000#32) ::
    unary main_cst_1 main_v9 (broadcastInDim S8x72 ![] bcast_S_S8x72 : (⟨S_, .f32⟩ : BufTy).Contents (Elt F) → (⟨S8x72, .f32⟩ : BufTy).Contents (Elt F)) ::
    binary main_v9 main_v8 main_v10 (addf : (⟨S8x72, .f32⟩ : BufTy).Contents (Elt F) → (⟨S8x72, .f32⟩ : BufTy).Contents (Elt F) → (⟨S8x72, .f32⟩ : BufTy).Contents (Elt F)) ::
    nullary main_cst_2 (constant S_ .f32 0x3F800000#32) ::
    unary main_cst_2 main_v11 (broadcastInDim S8x72 ![] bcast_S_S8x72 : (⟨S_, .f32⟩ : BufTy).Contents (Elt F) → (⟨S8x72, .f32⟩ : BufTy).Contents (Elt F)) ::
    binary main_v11 main_v10 main_v12 (Host.divf : (⟨S8x72, .f32⟩ : BufTy).Contents (Elt F) → (⟨S8x72, .f32⟩ : BufTy).Contents (Elt F) → (⟨S8x72, .f32⟩ : BufTy).Contents (Elt F)) ::
    binary main_v4 main_v12 main_v13 (mulf : (⟨S8x72, .f32⟩ : BufTy).Contents (Elt F) → (⟨S8x72, .f32⟩ : BufTy).Contents (Elt F) → (⟨S8x72, .f32⟩ : BufTy).Contents (Elt F)) ::
    nullary main_cst_3 (constant S_ .f32 0x00000000#32) ::
    binary main_v13 main_cst_3 main_v14 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)) ::
    unary main_v14 main_v15 (broadcastInDim S8x1 ![0] bcast_S8_S8x1_0 : (⟨S8, .f32⟩ : BufTy).Contents (Elt F) → (⟨S8x1, .f32⟩ : BufTy).Contents (Elt F)) ::
    nullary main_cst_4 (constant S_ .f32 0x42900000#32) ::
    unary main_cst_4 main_v16 (broadcastInDim S8x1 ![] bcast_S_S8x1 : (⟨S_, .f32⟩ : BufTy).Contents (Elt F) → (⟨S8x1, .f32⟩ : BufTy).Contents (Elt F)) ::
    binary main_v15 main_v16 main_v17 (Host.divf : (⟨S8x1, .f32⟩ : BufTy).Contents (Elt F) → (⟨S8x1, .f32⟩ : BufTy).Contents (Elt F) → (⟨S8x1, .f32⟩ : BufTy).Contents (Elt F)) ::
    unary main_v17 main_v18 (broadcastInDim S8x72 ![0, 1] bcast_S8x1_S8x72_0_1 : (⟨S8x1, .f32⟩ : BufTy).Contents (Elt F) → (⟨S8x72, .f32⟩ : BufTy).Contents (Elt F)) ::
    binary main_v13 main_v18 main_v19 (subf : (⟨S8x72, .f32⟩ : BufTy).Contents (Elt F) → (⟨S8x72, .f32⟩ : BufTy).Contents (Elt F) → (⟨S8x72, .f32⟩ : BufTy).Contents (Elt F)) ::
    binary main_v19 main_v19 main_v20 (mulf : (⟨S8x72, .f32⟩ : BufTy).Contents (Elt F) → (⟨S8x72, .f32⟩ : BufTy).Contents (Elt F) → (⟨S8x72, .f32⟩ : BufTy).Contents (Elt F)) ::
    nullary main_cst_5 (constant S_ .f32 0x00000000#32) ::
    binary main_v20 main_cst_5 main_v21 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)) ::
    unary main_v21 main_v22 (broadcastInDim S8x1 ![0] bcast_S8_S8x1_0 : (⟨S8, .f32⟩ : BufTy).Contents (Elt F) → (⟨S8x1, .f32⟩ : BufTy).Contents (Elt F)) ::
    nullary main_cst_6 (constant S_ .f32 0x42900000#32) ::
    unary main_cst_6 main_v23 (broadcastInDim S8x1 ![] bcast_S_S8x1 : (⟨S_, .f32⟩ : BufTy).Contents (Elt F) → (⟨S8x1, .f32⟩ : BufTy).Contents (Elt F)) ::
    binary main_v22 main_v23 main_v24 (Host.divf : (⟨S8x1, .f32⟩ : BufTy).Contents (Elt F) → (⟨S8x1, .f32⟩ : BufTy).Contents (Elt F) → (⟨S8x1, .f32⟩ : BufTy).Contents (Elt F)) ::
    unary main_v17 main_v25 (broadcastInDim S8x72 ![0, 1] bcast_S8x1_S8x72_0_1 : (⟨S8x1, .f32⟩ : BufTy).Contents (Elt F) → (⟨S8x72, .f32⟩ : BufTy).Contents (Elt F)) ::
    binary main_v13 main_v25 main_v26 (subf : (⟨S8x72, .f32⟩ : BufTy).Contents (Elt F) → (⟨S8x72, .f32⟩ : BufTy).Contents (Elt F) → (⟨S8x72, .f32⟩ : BufTy).Contents (Elt F)) ::
    nullary main_cst_7 (constant S_ .f32 0x3727C5AC#32) ::
    unary main_cst_7 main_v27 (broadcastInDim S8x1 ![] bcast_S_S8x1 : (⟨S_, .f32⟩ : BufTy).Contents (Elt F) → (⟨S8x1, .f32⟩ : BufTy).Contents (Elt F)) ::
    binary main_v24 main_v27 main_v28 (addf : (⟨S8x1, .f32⟩ : BufTy).Contents (Elt F) → (⟨S8x1, .f32⟩ : BufTy).Contents (Elt F) → (⟨S8x1, .f32⟩ : BufTy).Contents (Elt F)) ::
    unary main_v28 main_v29 (Host.sqrt : (⟨S8x1, .f32⟩ : BufTy).Contents (Elt F) → (⟨S8x1, .f32⟩ : BufTy).Contents (Elt F)) ::
    unary main_v29 main_v30 (broadcastInDim S8x72 ![0, 1] bcast_S8x1_S8x72_0_1 : (⟨S8x1, .f32⟩ : BufTy).Contents (Elt F) → (⟨S8x72, .f32⟩ : BufTy).Contents (Elt F)) ::
    binary main_v26 main_v30 main_v31 (Host.divf : (⟨S8x72, .f32⟩ : BufTy).Contents (Elt F) → (⟨S8x72, .f32⟩ : BufTy).Contents (Elt F) → (⟨S8x72, .f32⟩ : BufTy).Contents (Elt F)) ::
    unary main_arg3 main_v32 (broadcastInDim S1x72 ![1] bcast_S72_S1x72_1 : (⟨S72, .f32⟩ : BufTy).Contents (Elt F) → (⟨S1x72, .f32⟩ : BufTy).Contents (Elt F)) ::
    unary main_v32 main_v33 (broadcastInDim S8x72 ![0, 1] bcast_S1x72_S8x72_0_1 : (⟨S1x72, .f32⟩ : BufTy).Contents (Elt F) → (⟨S8x72, .f32⟩ : BufTy).Contents (Elt F)) ::
    binary main_v31 main_v33 main_v34 (mulf : (⟨S8x72, .f32⟩ : BufTy).Contents (Elt F) → (⟨S8x72, .f32⟩ : BufTy).Contents (Elt F) → (⟨S8x72, .f32⟩ : BufTy).Contents (Elt F)) ::
    unary main_arg4 main_v35 (broadcastInDim S1x72 ![1] bcast_S72_S1x72_1 : (⟨S72, .f32⟩ : BufTy).Contents (Elt F) → (⟨S1x72, .f32⟩ : BufTy).Contents (Elt F)) ::
    unary main_v35 main_v36 (broadcastInDim S8x72 ![0, 1] bcast_S1x72_S8x72_0_1 : (⟨S1x72, .f32⟩ : BufTy).Contents (Elt F) → (⟨S8x72, .f32⟩ : BufTy).Contents (Elt F)) ::
    binary main_v34 main_v36 main_v37 (addf : (⟨S8x72, .f32⟩ : BufTy).Contents (Elt F) → (⟨S8x72, .f32⟩ : BufTy).Contents (Elt F) → (⟨S8x72, .f32⟩ : BufTy).Contents (Elt F)) ::
    reshape main_v37 main_v38 rfl shapeCasts_S8x72_S8x8x9 ::
    nullary main_cst_8 (constant S_ .f32 0xFF800000#32) ::
    binary main_v38 main_cst_8 main_v39 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)) ::
    nullary main_cst_9 (constant S_ .f32 0xFF800000#32) ::
    unary main_cst_9 main_v40 (broadcastInDim S8x8 ![] bcast_S_S8x8 : (⟨S_, .f32⟩ : BufTy).Contents (Elt F) → (⟨S8x8, .f32⟩ : BufTy).Contents (Elt F)) ::
    binary main_v40 main_v39 main_v41 (maximumf : (⟨S8x8, .f32⟩ : BufTy).Contents (Elt F) → (⟨S8x8, .f32⟩ : BufTy).Contents (Elt F) → (⟨S8x8, .f32⟩ : BufTy).Contents (Elt F)) ::
    unary main_v41 main_v42 (broadcastInDim S8x8x1 ![0, 1] bcast_S8x8_S8x8x1_0_1 : (⟨S8x8, .f32⟩ : BufTy).Contents (Elt F) → (⟨S8x8x1, .f32⟩ : BufTy).Contents (Elt F)) ::
    unary main_v42 main_v43 (broadcastInDim S8x8x9 ![0, 1, 2] bcast_S8x8x1_S8x8x9_0_1_2 : (⟨S8x8x1, .f32⟩ : BufTy).Contents (Elt F) → (⟨S8x8x9, .f32⟩ : BufTy).Contents (Elt F)) ::
    binary main_v38 main_v43 main_v44 (subf : (⟨S8x8x9, .f32⟩ : BufTy).Contents (Elt F) → (⟨S8x8x9, .f32⟩ : BufTy).Contents (Elt F) → (⟨S8x8x9, .f32⟩ : BufTy).Contents (Elt F)) ::
    unary main_v44 main_v45 (Host.exp : (⟨S8x8x9, .f32⟩ : BufTy).Contents (Elt F) → (⟨S8x8x9, .f32⟩ : BufTy).Contents (Elt F)) ::
    nullary main_cst_10 (constant S_ .f32 0x00000000#32) ::
    binary main_v45 main_cst_10 main_v46 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)) ::
    unary main_v46 main_v47 (broadcastInDim S8x8x1 ![0, 1] bcast_S8x8_S8x8x1_0_1 : (⟨S8x8, .f32⟩ : BufTy).Contents (Elt F) → (⟨S8x8x1, .f32⟩ : BufTy).Contents (Elt F)) ::
    unary main_v47 main_v48 (broadcastInDim S8x8x9 ![0, 1, 2] bcast_S8x8x1_S8x8x9_0_1_2 : (⟨S8x8x1, .f32⟩ : BufTy).Contents (Elt F) → (⟨S8x8x9, .f32⟩ : BufTy).Contents (Elt F)) ::
    binary main_v45 main_v48 main_v49 (Host.divf : (⟨S8x8x9, .f32⟩ : BufTy).Contents (Elt F) → (⟨S8x8x9, .f32⟩ : BufTy).Contents (Elt F) → (⟨S8x8x9, .f32⟩ : BufTy).Contents (Elt F)) ::
    unary main_v49 main_v50 (broadcastInDim S8x8x8x9 ![0, 1, 3] bcast_S8x8x9_S8x8x8x9_0_1_3 : (⟨S8x8x9, .f32⟩ : BufTy).Contents (Elt F) → (⟨S8x8x8x9, .f32⟩ : BufTy).Contents (Elt F)) ::
    reshape main_v50 main_v51 rfl shapeCasts_S8x8x8x9_S8x64x9 ::
    nullary main_c (constantI S_ 32 0#32) ::
    TRef.unary (.of main_arg0 : TRef sig ⟨S8x64x128x128, .f32⟩) main_call0.v0 (extractStridedSlice S8x64x1x128 ![0, 0, 0, 0] · slices_S8x64x128x128_S8x64x1x128_0_0_0_0) ::
    TRef.unary (.of main_arg0 : TRef sig ⟨S8x64x128x128, .f32⟩) main_call0.v1 (extractStridedSlice S8x64x1x128 ![0, 0, 1, 0] · slices_S8x64x128x128_S8x64x1x128_0_0_1_0) ::
    TRef.unary main_call0.v1 main_call0.call0.v0 (Host.reverse [2]) ::
    TRef.binary main_call0.call0.v0 (.of main_arg0 : TRef sig ⟨S8x64x128x128, .f32⟩) main_call0.v3 (fun a b => concatenate S8x64x129x128 2 [⟨S8x64x1x128, a⟩, ⟨S8x64x128x128, b⟩] concatenates_S8x64x1x128_S8x64x128x128_S8x64x129x128_d2) ::
    TRef.unary main_call0.v3 main_call0.v4 (extractStridedSlice S8x64x1x128 ![0, 0, 128, 0] · slices_S8x64x129x128_S8x64x1x128_0_0_128_0) ::
    TRef.unary main_call0.v3 main_call0.v5 (extractStridedSlice S8x64x1x128 ![0, 0, 127, 0] · slices_S8x64x129x128_S8x64x1x128_0_0_127_0) ::
    TRef.unary main_call0.v5 main_call0.call1.v0 (Host.reverse [2]) ::
    TRef.binary main_call0.v3 main_call0.call1.v0 main_call0.v7 (fun a b => concatenate S8x64x130x128 2 [⟨S8x64x129x128, a⟩, ⟨S8x64x1x128, b⟩] concatenates_S8x64x129x128_S8x64x1x128_S8x64x130x128_d2) ::
    TRef.unary main_call0.v7 main_call0.v8 (extractStridedSlice S8x64x130x1 ![0, 0, 0, 0] · slices_S8x64x130x128_S8x64x130x1_0_0_0_0) ::
    TRef.unary main_call0.v7 main_call0.v9 (extractStridedSlice S8x64x130x1 ![0, 0, 0, 1] · slices_S8x64x130x128_S8x64x130x1_0_0_0_1) ::
    TRef.unary main_call0.v9 main_call0.call2.v0 (Host.reverse [3]) ::
    TRef.binary main_call0.call2.v0 main_call0.v7 main_call0.v11 (fun a b => concatenate S8x64x130x129 3 [⟨S8x64x130x1, a⟩, ⟨S8x64x130x128, b⟩] concatenates_S8x64x130x1_S8x64x130x128_S8x64x130x129_d3) ::
    TRef.unary main_call0.v11 main_call0.v12 (extractStridedSlice S8x64x130x1 ![0, 0, 0, 128] · slices_S8x64x130x129_S8x64x130x1_0_0_0_128) ::
    TRef.unary main_call0.v11 main_call0.v13 (extractStridedSlice S8x64x130x1 ![0, 0, 0, 127] · slices_S8x64x130x129_S8x64x130x1_0_0_0_127) ::
    TRef.unary main_call0.v13 main_call0.call3.v0 (Host.reverse [3]) ::
    TRef.binary main_call0.v11 main_call0.call3.v0 main_call0.v15 (fun a b => concatenate S8x64x130x130 3 [⟨S8x64x130x129, a⟩, ⟨S8x64x130x1, b⟩] concatenates_S8x64x130x129_S8x64x130x1_S8x64x130x130_d3) ::
    nullary main_cst_11 (constant S_ .f32 0x00000000#32) ::
    unary main_cst_11 main_v53 (broadcastInDim S8x64x128x128 ![] bcast_S_S8x64x128x128 : (⟨S_, .f32⟩ : BufTy).Contents (Elt F) → (⟨S8x64x128x128, .f32⟩ : BufTy).Contents (Elt F)) ::
    unary main_v52 main_v54 ((extractStridedSlice S8x64x128x128 ![0, 0, 0, 0] · slices_S8x64x130x130_S8x64x128x128_0_0_0_0) : (⟨S8x64x130x130, .f32⟩ : BufTy).Contents (Elt F) → (⟨S8x64x128x128, .f32⟩ : BufTy).Contents (Elt F)) ::
    unary main_v51 main_v55 ((extractStridedSlice S8x64x1 ![0, 0, 0] · slices_S8x64x9_S8x64x1_0_0_0) : (⟨S8x64x9, .f32⟩ : BufTy).Contents (Elt F) → (⟨S8x64x1, .f32⟩ : BufTy).Contents (Elt F)) ::
    reshape main_v55 main_v56 rfl shapeCasts_S8x64x1_S8x64 ::
    unary main_v56 main_v57 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v57 main_v58 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v54 main_v58 main_v59 (mulf : (⟨S8x64x128x128, .f32⟩ : BufTy).Contents (Elt F) → (⟨S8x64x128x128, .f32⟩ : BufTy).Contents (Elt F) → (⟨S8x64x128x128, .f32⟩ : BufTy).Contents (Elt F)) ::
    binary main_v53 main_v59 main_v60 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v61 ((extractStridedSlice S8x64x128x128 ![0, 0, 0, 1] · slices_S8x64x130x130_S8x64x128x128_0_0_0_1) : (⟨S8x64x130x130, .f32⟩ : BufTy).Contents (Elt F) → (⟨S8x64x128x128, .f32⟩ : BufTy).Contents (Elt F)) ::
    unary main_v51 main_v62 ((extractStridedSlice S8x64x1 ![0, 0, 1] · slices_S8x64x9_S8x64x1_0_0_1) : (⟨S8x64x9, .f32⟩ : BufTy).Contents (Elt F) → (⟨S8x64x1, .f32⟩ : BufTy).Contents (Elt F)) ::
    reshape main_v62 main_v63 rfl shapeCasts_S8x64x1_S8x64 ::
    unary main_v63 main_v64 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v64 main_v65 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v61 main_v65 main_v66 (mulf : (⟨S8x64x128x128, .f32⟩ : BufTy).Contents (Elt F) → (⟨S8x64x128x128, .f32⟩ : BufTy).Contents (Elt F) → (⟨S8x64x128x128, .f32⟩ : BufTy).Contents (Elt F)) ::
    binary main_v60 main_v66 main_v67 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v68 ((extractStridedSlice S8x64x128x128 ![0, 0, 0, 2] · slices_S8x64x130x130_S8x64x128x128_0_0_0_2) : (⟨S8x64x130x130, .f32⟩ : BufTy).Contents (Elt F) → (⟨S8x64x128x128, .f32⟩ : BufTy).Contents (Elt F)) ::
    unary main_v51 main_v69 ((extractStridedSlice S8x64x1 ![0, 0, 2] · slices_S8x64x9_S8x64x1_0_0_2) : (⟨S8x64x9, .f32⟩ : BufTy).Contents (Elt F) → (⟨S8x64x1, .f32⟩ : BufTy).Contents (Elt F)) ::
    reshape main_v69 main_v70 rfl shapeCasts_S8x64x1_S8x64 ::
    unary main_v70 main_v71 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v71 main_v72 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v68 main_v72 main_v73 (mulf : (⟨S8x64x128x128, .f32⟩ : BufTy).Contents (Elt F) → (⟨S8x64x128x128, .f32⟩ : BufTy).Contents (Elt F) → (⟨S8x64x128x128, .f32⟩ : BufTy).Contents (Elt F)) ::
    binary main_v67 main_v73 main_v74 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v75 ((extractStridedSlice S8x64x128x128 ![0, 0, 1, 0] · slices_S8x64x130x130_S8x64x128x128_0_0_1_0) : (⟨S8x64x130x130, .f32⟩ : BufTy).Contents (Elt F) → (⟨S8x64x128x128, .f32⟩ : BufTy).Contents (Elt F)) ::
    unary main_v51 main_v76 ((extractStridedSlice S8x64x1 ![0, 0, 3] · slices_S8x64x9_S8x64x1_0_0_3) : (⟨S8x64x9, .f32⟩ : BufTy).Contents (Elt F) → (⟨S8x64x1, .f32⟩ : BufTy).Contents (Elt F)) ::
    reshape main_v76 main_v77 rfl shapeCasts_S8x64x1_S8x64 ::
    unary main_v77 main_v78 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v78 main_v79 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v75 main_v79 main_v80 (mulf : (⟨S8x64x128x128, .f32⟩ : BufTy).Contents (Elt F) → (⟨S8x64x128x128, .f32⟩ : BufTy).Contents (Elt F) → (⟨S8x64x128x128, .f32⟩ : BufTy).Contents (Elt F)) ::
    binary main_v74 main_v80 main_v81 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v82 ((extractStridedSlice S8x64x128x128 ![0, 0, 1, 1] · slices_S8x64x130x130_S8x64x128x128_0_0_1_1) : (⟨S8x64x130x130, .f32⟩ : BufTy).Contents (Elt F) → (⟨S8x64x128x128, .f32⟩ : BufTy).Contents (Elt F)) ::
    unary main_v51 main_v83 ((extractStridedSlice S8x64x1 ![0, 0, 4] · slices_S8x64x9_S8x64x1_0_0_4) : (⟨S8x64x9, .f32⟩ : BufTy).Contents (Elt F) → (⟨S8x64x1, .f32⟩ : BufTy).Contents (Elt F)) ::
    reshape main_v83 main_v84 rfl shapeCasts_S8x64x1_S8x64 ::
    unary main_v84 main_v85 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v85 main_v86 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v82 main_v86 main_v87 (mulf : (⟨S8x64x128x128, .f32⟩ : BufTy).Contents (Elt F) → (⟨S8x64x128x128, .f32⟩ : BufTy).Contents (Elt F) → (⟨S8x64x128x128, .f32⟩ : BufTy).Contents (Elt F)) ::
    binary main_v81 main_v87 main_v88 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v89 ((extractStridedSlice S8x64x128x128 ![0, 0, 1, 2] · slices_S8x64x130x130_S8x64x128x128_0_0_1_2) : (⟨S8x64x130x130, .f32⟩ : BufTy).Contents (Elt F) → (⟨S8x64x128x128, .f32⟩ : BufTy).Contents (Elt F)) ::
    unary main_v51 main_v90 ((extractStridedSlice S8x64x1 ![0, 0, 5] · slices_S8x64x9_S8x64x1_0_0_5) : (⟨S8x64x9, .f32⟩ : BufTy).Contents (Elt F) → (⟨S8x64x1, .f32⟩ : BufTy).Contents (Elt F)) ::
    reshape main_v90 main_v91 rfl shapeCasts_S8x64x1_S8x64 ::
    unary main_v91 main_v92 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v92 main_v93 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v89 main_v93 main_v94 (mulf : (⟨S8x64x128x128, .f32⟩ : BufTy).Contents (Elt F) → (⟨S8x64x128x128, .f32⟩ : BufTy).Contents (Elt F) → (⟨S8x64x128x128, .f32⟩ : BufTy).Contents (Elt F)) ::
    binary main_v88 main_v94 main_v95 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v96 ((extractStridedSlice S8x64x128x128 ![0, 0, 2, 0] · slices_S8x64x130x130_S8x64x128x128_0_0_2_0) : (⟨S8x64x130x130, .f32⟩ : BufTy).Contents (Elt F) → (⟨S8x64x128x128, .f32⟩ : BufTy).Contents (Elt F)) ::
    unary main_v51 main_v97 ((extractStridedSlice S8x64x1 ![0, 0, 6] · slices_S8x64x9_S8x64x1_0_0_6) : (⟨S8x64x9, .f32⟩ : BufTy).Contents (Elt F) → (⟨S8x64x1, .f32⟩ : BufTy).Contents (Elt F)) ::
    reshape main_v97 main_v98 rfl shapeCasts_S8x64x1_S8x64 ::
    unary main_v98 main_v99 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v99 main_v100 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v96 main_v100 main_v101 (mulf : (⟨S8x64x128x128, .f32⟩ : BufTy).Contents (Elt F) → (⟨S8x64x128x128, .f32⟩ : BufTy).Contents (Elt F) → (⟨S8x64x128x128, .f32⟩ : BufTy).Contents (Elt F)) ::
    binary main_v95 main_v101 main_v102 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v103 ((extractStridedSlice S8x64x128x128 ![0, 0, 2, 1] · slices_S8x64x130x130_S8x64x128x128_0_0_2_1) : (⟨S8x64x130x130, .f32⟩ : BufTy).Contents (Elt F) → (⟨S8x64x128x128, .f32⟩ : BufTy).Contents (Elt F)) ::
    unary main_v51 main_v104 ((extractStridedSlice S8x64x1 ![0, 0, 7] · slices_S8x64x9_S8x64x1_0_0_7) : (⟨S8x64x9, .f32⟩ : BufTy).Contents (Elt F) → (⟨S8x64x1, .f32⟩ : BufTy).Contents (Elt F)) ::
    reshape main_v104 main_v105 rfl shapeCasts_S8x64x1_S8x64 ::
    unary main_v105 main_v106 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v106 main_v107 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v103 main_v107 main_v108 (mulf : (⟨S8x64x128x128, .f32⟩ : BufTy).Contents (Elt F) → (⟨S8x64x128x128, .f32⟩ : BufTy).Contents (Elt F) → (⟨S8x64x128x128, .f32⟩ : BufTy).Contents (Elt F)) ::
    binary main_v102 main_v108 main_v109 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v110 ((extractStridedSlice S8x64x128x128 ![0, 0, 2, 2] · slices_S8x64x130x130_S8x64x128x128_0_0_2_2) : (⟨S8x64x130x130, .f32⟩ : BufTy).Contents (Elt F) → (⟨S8x64x128x128, .f32⟩ : BufTy).Contents (Elt F)) ::
    unary main_v51 main_v111 ((extractStridedSlice S8x64x1 ![0, 0, 8] · slices_S8x64x9_S8x64x1_0_0_8) : (⟨S8x64x9, .f32⟩ : BufTy).Contents (Elt F) → (⟨S8x64x1, .f32⟩ : BufTy).Contents (Elt F)) ::
    reshape main_v111 main_v112 rfl shapeCasts_S8x64x1_S8x64 ::
    unary main_v112 main_v113 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v113 main_v114 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v110 main_v114 main_v115 (mulf : (⟨S8x64x128x128, .f32⟩ : BufTy).Contents (Elt F) → (⟨S8x64x128x128, .f32⟩ : BufTy).Contents (Elt F) → (⟨S8x64x128x128, .f32⟩ : BufTy).Contents (Elt F)) ::
    binary main_v109 main_v115 main_v116 (addf : (⟨S8x64x128x128, .f32⟩ : BufTy).Contents (Elt F) → (⟨S8x64x128x128, .f32⟩ : BufTy).Contents (Elt F) → (⟨S8x64x128x128, .f32⟩ : BufTy).Contents (Elt F)) ::
    binary main_arg0 main_v116 main_v117 (subf : (⟨S8x64x128x128, .f32⟩ : BufTy).Contents (Elt F) → (⟨S8x64x128x128, .f32⟩ : BufTy).Contents (Elt F) → (⟨S8x64x128x128, .f32⟩ : BufTy).Contents (Elt F)) ::
    []

set_option maxRecDepth 8192 in
set_option maxHeartbeats 4000000 in
/-- @main is that straight line: its three windows, the padding function and the two reversals unfolded at
    their calls, both sides are one chain of operations once sequencing is reassociated. -/
theorem main_eq (c : Dev nD) : main (F := F) c = seq ops := by
  simp only [main, main_part0, main_part1, main_part2, fn_pad.body, fn_flip.body, fn_flip_0.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    binary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., reshape_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., reshape_bufs_sub .., nullary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., unary_bufs_sub .., binary_bufs_sub .., nullary_bufs_sub .., unary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..,
    binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub .., unary_bufs_sub .., unary_bufs_sub .., reshape_bufs_sub ..,
    unary_bufs_sub .., unary_bufs_sub .., binary_bufs_sub .., binary_bufs_sub .., unary_bufs_sub .., unary_bufs_sub ..,
    reshape_bufs_sub .., unary_bufs_sub .., unary_bufs_sub .., binary_bufs_sub .., binary_bufs_sub .., unary_bufs_sub ..,
    unary_bufs_sub .., reshape_bufs_sub .., unary_bufs_sub .., unary_bufs_sub .., binary_bufs_sub .., binary_bufs_sub ..,
    unary_bufs_sub .., unary_bufs_sub .., reshape_bufs_sub .., unary_bufs_sub .., unary_bufs_sub .., binary_bufs_sub ..,
    binary_bufs_sub .., unary_bufs_sub .., unary_bufs_sub .., reshape_bufs_sub .., unary_bufs_sub .., unary_bufs_sub ..,
    binary_bufs_sub .., binary_bufs_sub .., binary_bufs_sub ..⟩

set_option maxRecDepth 8192 in
set_option maxHeartbeats 4000000 in
/-- On every device, for any float values, from any memory with zero counters: every weakly fair execution of
    @main terminates, and every final state has each TensorCore buffer at the fold of the operations' results
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

/-- No operation writes argument 0's buffer: it keeps its contents. -/
theorem arg0_eq (V : Valuation τ sig (Elt F)) :
    after ops V (main_arg0 : DevRef τ sig) = V (main_arg0 : DevRef τ sig) := by
  after_results_simp

/-- No operation writes argument 1's buffer: it keeps its contents. -/
theorem arg1_eq (V : Valuation τ sig (Elt F)) :
    after ops V (main_arg1 : DevRef τ sig) = V (main_arg1 : DevRef τ sig) := by
  after_results_simp

/-- No operation writes argument 2's buffer: it keeps its contents. -/
theorem arg2_eq (V : Valuation τ sig (Elt F)) :
    after ops V (main_arg2 : DevRef τ sig) = V (main_arg2 : DevRef τ sig) := by
  after_results_simp

/-- No operation writes argument 3's buffer: it keeps its contents. -/
theorem arg3_eq (V : Valuation τ sig (Elt F)) :
    after ops V (main_arg3 : DevRef τ sig) = V (main_arg3 : DevRef τ sig) := by
  after_results_simp

/-- No operation writes argument 4's buffer: it keeps its contents. -/
theorem arg4_eq (V : Valuation τ sig (Elt F)) :
    after ops V (main_arg4 : DevRef τ sig) = V (main_arg4 : DevRef τ sig) := by
  after_results_simp

end Generic

/-- The reference runs, terminates, and leaves its five argument arrays as they were at launch: the
    fold of its operations at an argument's buffer is that buffer's launch contents. The precondition on the
    inputs is not needed. -/
theorem frame_ri : Cert.frame_ReferenceIdeal := fun m g _ =>
  (θ_run _ _ _).mono (fun _ h c => ⟨(h c main_arg0).trans (arg0_eq _), (h c main_arg1).trans (arg1_eq _),
      (h c main_arg2).trans (arg2_eq _), (h c main_arg3).trans (arg3_eq _), (h c main_arg4).trans (arg4_eq _)⟩)
    (run_all (F := Ideal) m g)

/-! ## The line in ten segments

The fold over the whole line at a result buffer, written out, repeats the filter head under each of the nine taps
and the padding under each window; read segment by segment, each segment over an arbitrary valuation, every piece
stays small. -/

/-- A one-row block stacked above a 128-row block along the rows: 129 rows. -/
def catTop {α : Type} (a : S8x64x1x128.Idx → α) (b : S8x64x128x128.Idx → α) : S8x64x129x128.Idx → α :=
  concatenate S8x64x129x128 2 [⟨S8x64x1x128, a⟩, ⟨S8x64x128x128, b⟩] concatenates_S8x64x1x128_S8x64x128x128_S8x64x129x128_d2
/-- A 129-row block with a one-row block stacked below it: 130 rows. -/
def catRows {α : Type} (a : S8x64x129x128.Idx → α) (b : S8x64x1x128.Idx → α) : S8x64x130x128.Idx → α :=
  concatenate S8x64x130x128 2 [⟨S8x64x129x128, a⟩, ⟨S8x64x1x128, b⟩] concatenates_S8x64x129x128_S8x64x1x128_S8x64x130x128_d2
/-- A one-column block placed left of a 128-column block: 129 columns. -/
def catLeft {α : Type} (a : S8x64x130x1.Idx → α) (b : S8x64x130x128.Idx → α) : S8x64x130x129.Idx → α :=
  concatenate S8x64x130x129 3 [⟨S8x64x130x1, a⟩, ⟨S8x64x130x128, b⟩] concatenates_S8x64x130x1_S8x64x130x128_S8x64x130x129_d3
/-- A 129-column block with a one-column block placed right of it: 130 columns. -/
def catRight {α : Type} (a : S8x64x130x129.Idx → α) (b : S8x64x130x1.Idx → α) : S8x64x130x130.Idx → α :=
  concatenate S8x64x130x130 3 [⟨S8x64x130x129, a⟩, ⟨S8x64x130x1, b⟩] concatenates_S8x64x130x129_S8x64x130x1_S8x64x130x130_d3

section Segments
variable {F : FTy → Type} [FloatOps F]

/-- The pooled mean's five operations. -/
def opsGap : List (HloOp τ sig (Elt F)) :=
    nullary main_cst (constant S_ .f32 0x00000000#32) ::
    binary main_arg0 main_cst main_v0 ((fun x v => Host.reduceAdd x v reducesTo_S8x64x128x128_S8x64_d2_3 h_S_) : (⟨S8x64x128x128, .f32⟩ : BufTy).Contents (Elt F) → (⟨S_, .f32⟩ : BufTy).Contents (Elt F) → (⟨S8x64, .f32⟩ : BufTy).Contents (Elt F)) ::
    nullary main_cst_0 (constant S_ .f32 0x46800000#32) ::
    unary main_cst_0 main_v1 (broadcastInDim S8x64 ![] bcast_S_S8x64 : (⟨S_, .f32⟩ : BufTy).Contents (Elt F) → (⟨S8x64, .f32⟩ : BufTy).Contents (Elt F)) ::
    binary main_v0 main_v1 main_v2 (Host.divf : (⟨S8x64, .f32⟩ : BufTy).Contents (Elt F) → (⟨S8x64, .f32⟩ : BufTy).Contents (Elt F) → (⟨S8x64, .f32⟩ : BufTy).Contents (Elt F)) ::
    []

/-- The gated logits' thirteen operations. -/
def opsGate : List (HloOp τ sig (Elt F)) :=
    unary main_arg1 main_v3 ((transpose S64x72 [1, 0] · transposes_S72x64_S64x72_1_0) : (⟨S72x64, .f32⟩ : BufTy).Contents (Elt F) → (⟨S64x72, .f32⟩ : BufTy).Contents (Elt F)) ::
    binary main_v2 main_v3 main_v4 ((fun l r => Host.dotGeneral dot_S8x64_S64x72_S8x72_1_0_0_1_n_n none l r) : (⟨S8x64, .f32⟩ : BufTy).Contents (Elt F) → (⟨S64x72, .f32⟩ : BufTy).Contents (Elt F) → (⟨S8x72, .f32⟩ : BufTy).Contents (Elt F)) ::
    unary main_arg2 main_v5 ((transpose S72x72 [1, 0] · transposes_S72x72_S72x72_1_0) : (⟨S72x72, .f32⟩ : BufTy).Contents (Elt F) → (⟨S72x72, .f32⟩ : BufTy).Contents (Elt F)) ::
    binary main_v4 main_v5 main_v6 ((fun l r => Host.dotGeneral dot_S8x72_S72x72_S8x72_1_0_0_1_n_n none l r) : (⟨S8x72, .f32⟩ : BufTy).Contents (Elt F) → (⟨S72x72, .f32⟩ : BufTy).Contents (Elt F) → (⟨S8x72, .f32⟩ : BufTy).Contents (Elt F)) ::
    unary main_v6 main_v7 (Host.negf : (⟨S8x72, .f32⟩ : BufTy).Contents (Elt F) → (⟨S8x72, .f32⟩ : BufTy).Contents (Elt F)) ::
    unary main_v7 main_v8 (Host.exp : (⟨S8x72, .f32⟩ : BufTy).Contents (Elt F) → (⟨S8x72, .f32⟩ : BufTy).Contents (Elt F)) ::
    nullary main_cst_1 (constant S_ .f32 0x3F800000#32) ::
    unary main_cst_1 main_v9 (broadcastInDim S8x72 ![] bcast_S_S8x72 : (⟨S_, .f32⟩ : BufTy).Contents (Elt F) → (⟨S8x72, .f32⟩ : BufTy).Contents (Elt F)) ::
    binary main_v9 main_v8 main_v10 (addf : (⟨S8x72, .f32⟩ : BufTy).Contents (Elt F) → (⟨S8x72, .f32⟩ : BufTy).Contents (Elt F) → (⟨S8x72, .f32⟩ : BufTy).Contents (Elt F)) ::
    nullary main_cst_2 (constant S_ .f32 0x3F800000#32) ::
    unary main_cst_2 main_v11 (broadcastInDim S8x72 ![] bcast_S_S8x72 : (⟨S_, .f32⟩ : BufTy).Contents (Elt F) → (⟨S8x72, .f32⟩ : BufTy).Contents (Elt F)) ::
    binary main_v11 main_v10 main_v12 (Host.divf : (⟨S8x72, .f32⟩ : BufTy).Contents (Elt F) → (⟨S8x72, .f32⟩ : BufTy).Contents (Elt F) → (⟨S8x72, .f32⟩ : BufTy).Contents (Elt F)) ::
    binary main_v4 main_v12 main_v13 (mulf : (⟨S8x72, .f32⟩ : BufTy).Contents (Elt F) → (⟨S8x72, .f32⟩ : BufTy).Contents (Elt F) → (⟨S8x72, .f32⟩ : BufTy).Contents (Elt F)) ::
    []

/-- The mean's six operations. -/
def opsMean : List (HloOp τ sig (Elt F)) :=
    nullary main_cst_3 (constant S_ .f32 0x00000000#32) ::
    binary main_v13 main_cst_3 main_v14 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)) ::
    unary main_v14 main_v15 (broadcastInDim S8x1 ![0] bcast_S8_S8x1_0 : (⟨S8, .f32⟩ : BufTy).Contents (Elt F) → (⟨S8x1, .f32⟩ : BufTy).Contents (Elt F)) ::
    nullary main_cst_4 (constant S_ .f32 0x42900000#32) ::
    unary main_cst_4 main_v16 (broadcastInDim S8x1 ![] bcast_S_S8x1 : (⟨S_, .f32⟩ : BufTy).Contents (Elt F) → (⟨S8x1, .f32⟩ : BufTy).Contents (Elt F)) ::
    binary main_v15 main_v16 main_v17 (Host.divf : (⟨S8x1, .f32⟩ : BufTy).Contents (Elt F) → (⟨S8x1, .f32⟩ : BufTy).Contents (Elt F) → (⟨S8x1, .f32⟩ : BufTy).Contents (Elt F)) ::
    []

/-- The variance's nine operations. -/
def opsVar : List (HloOp τ sig (Elt F)) :=
    unary main_v17 main_v18 (broadcastInDim S8x72 ![0, 1] bcast_S8x1_S8x72_0_1 : (⟨S8x1, .f32⟩ : BufTy).Contents (Elt F) → (⟨S8x72, .f32⟩ : BufTy).Contents (Elt F)) ::
    binary main_v13 main_v18 main_v19 (subf : (⟨S8x72, .f32⟩ : BufTy).Contents (Elt F) → (⟨S8x72, .f32⟩ : BufTy).Contents (Elt F) → (⟨S8x72, .f32⟩ : BufTy).Contents (Elt F)) ::
    binary main_v19 main_v19 main_v20 (mulf : (⟨S8x72, .f32⟩ : BufTy).Contents (Elt F) → (⟨S8x72, .f32⟩ : BufTy).Contents (Elt F) → (⟨S8x72, .f32⟩ : BufTy).Contents (Elt F)) ::
    nullary main_cst_5 (constant S_ .f32 0x00000000#32) ::
    binary main_v20 main_cst_5 main_v21 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)) ::
    unary main_v21 main_v22 (broadcastInDim S8x1 ![0] bcast_S8_S8x1_0 : (⟨S8, .f32⟩ : BufTy).Contents (Elt F) → (⟨S8x1, .f32⟩ : BufTy).Contents (Elt F)) ::
    nullary main_cst_6 (constant S_ .f32 0x42900000#32) ::
    unary main_cst_6 main_v23 (broadcastInDim S8x1 ![] bcast_S_S8x1 : (⟨S_, .f32⟩ : BufTy).Contents (Elt F) → (⟨S8x1, .f32⟩ : BufTy).Contents (Elt F)) ::
    binary main_v22 main_v23 main_v24 (Host.divf : (⟨S8x1, .f32⟩ : BufTy).Contents (Elt F) → (⟨S8x1, .f32⟩ : BufTy).Contents (Elt F) → (⟨S8x1, .f32⟩ : BufTy).Contents (Elt F)) ::
    []

/-- The normalisation's fourteen operations. -/
def opsNorm : List (HloOp τ sig (Elt F)) :=
    unary main_v17 main_v25 (broadcastInDim S8x72 ![0, 1] bcast_S8x1_S8x72_0_1 : (⟨S8x1, .f32⟩ : BufTy).Contents (Elt F) → (⟨S8x72, .f32⟩ : BufTy).Contents (Elt F)) ::
    binary main_v13 main_v25 main_v26 (subf : (⟨S8x72, .f32⟩ : BufTy).Contents (Elt F) → (⟨S8x72, .f32⟩ : BufTy).Contents (Elt F) → (⟨S8x72, .f32⟩ : BufTy).Contents (Elt F)) ::
    nullary main_cst_7 (constant S_ .f32 0x3727C5AC#32) ::
    unary main_cst_7 main_v27 (broadcastInDim S8x1 ![] bcast_S_S8x1 : (⟨S_, .f32⟩ : BufTy).Contents (Elt F) → (⟨S8x1, .f32⟩ : BufTy).Contents (Elt F)) ::
    binary main_v24 main_v27 main_v28 (addf : (⟨S8x1, .f32⟩ : BufTy).Contents (Elt F) → (⟨S8x1, .f32⟩ : BufTy).Contents (Elt F) → (⟨S8x1, .f32⟩ : BufTy).Contents (Elt F)) ::
    unary main_v28 main_v29 (Host.sqrt : (⟨S8x1, .f32⟩ : BufTy).Contents (Elt F) → (⟨S8x1, .f32⟩ : BufTy).Contents (Elt F)) ::
    unary main_v29 main_v30 (broadcastInDim S8x72 ![0, 1] bcast_S8x1_S8x72_0_1 : (⟨S8x1, .f32⟩ : BufTy).Contents (Elt F) → (⟨S8x72, .f32⟩ : BufTy).Contents (Elt F)) ::
    binary main_v26 main_v30 main_v31 (Host.divf : (⟨S8x72, .f32⟩ : BufTy).Contents (Elt F) → (⟨S8x72, .f32⟩ : BufTy).Contents (Elt F) → (⟨S8x72, .f32⟩ : BufTy).Contents (Elt F)) ::
    unary main_arg3 main_v32 (broadcastInDim S1x72 ![1] bcast_S72_S1x72_1 : (⟨S72, .f32⟩ : BufTy).Contents (Elt F) → (⟨S1x72, .f32⟩ : BufTy).Contents (Elt F)) ::
    unary main_v32 main_v33 (broadcastInDim S8x72 ![0, 1] bcast_S1x72_S8x72_0_1 : (⟨S1x72, .f32⟩ : BufTy).Contents (Elt F) → (⟨S8x72, .f32⟩ : BufTy).Contents (Elt F)) ::
    binary main_v31 main_v33 main_v34 (mulf : (⟨S8x72, .f32⟩ : BufTy).Contents (Elt F) → (⟨S8x72, .f32⟩ : BufTy).Contents (Elt F) → (⟨S8x72, .f32⟩ : BufTy).Contents (Elt F)) ::
    unary main_arg4 main_v35 (broadcastInDim S1x72 ![1] bcast_S72_S1x72_1 : (⟨S72, .f32⟩ : BufTy).Contents (Elt F) → (⟨S1x72, .f32⟩ : BufTy).Contents (Elt F)) ::
    unary main_v35 main_v36 (broadcastInDim S8x72 ![0, 1] bcast_S1x72_S8x72_0_1 : (⟨S1x72, .f32⟩ : BufTy).Contents (Elt F) → (⟨S8x72, .f32⟩ : BufTy).Contents (Elt F)) ::
    binary main_v34 main_v36 main_v37 (addf : (⟨S8x72, .f32⟩ : BufTy).Contents (Elt F) → (⟨S8x72, .f32⟩ : BufTy).Contents (Elt F) → (⟨S8x72, .f32⟩ : BufTy).Contents (Elt F)) ::
    []

/-- The softmax's fifteen operations. -/
def opsSoft : List (HloOp τ sig (Elt F)) :=
    reshape main_v37 main_v38 rfl shapeCasts_S8x72_S8x8x9 ::
    nullary main_cst_8 (constant S_ .f32 0xFF800000#32) ::
    binary main_v38 main_cst_8 main_v39 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)) ::
    nullary main_cst_9 (constant S_ .f32 0xFF800000#32) ::
    unary main_cst_9 main_v40 (broadcastInDim S8x8 ![] bcast_S_S8x8 : (⟨S_, .f32⟩ : BufTy).Contents (Elt F) → (⟨S8x8, .f32⟩ : BufTy).Contents (Elt F)) ::
    binary main_v40 main_v39 main_v41 (maximumf : (⟨S8x8, .f32⟩ : BufTy).Contents (Elt F) → (⟨S8x8, .f32⟩ : BufTy).Contents (Elt F) → (⟨S8x8, .f32⟩ : BufTy).Contents (Elt F)) ::
    unary main_v41 main_v42 (broadcastInDim S8x8x1 ![0, 1] bcast_S8x8_S8x8x1_0_1 : (⟨S8x8, .f32⟩ : BufTy).Contents (Elt F) → (⟨S8x8x1, .f32⟩ : BufTy).Contents (Elt F)) ::
    unary main_v42 main_v43 (broadcastInDim S8x8x9 ![0, 1, 2] bcast_S8x8x1_S8x8x9_0_1_2 : (⟨S8x8x1, .f32⟩ : BufTy).Contents (Elt F) → (⟨S8x8x9, .f32⟩ : BufTy).Contents (Elt F)) ::
    binary main_v38 main_v43 main_v44 (subf : (⟨S8x8x9, .f32⟩ : BufTy).Contents (Elt F) → (⟨S8x8x9, .f32⟩ : BufTy).Contents (Elt F) → (⟨S8x8x9, .f32⟩ : BufTy).Contents (Elt F)) ::
    unary main_v44 main_v45 (Host.exp : (⟨S8x8x9, .f32⟩ : BufTy).Contents (Elt F) → (⟨S8x8x9, .f32⟩ : BufTy).Contents (Elt F)) ::
    nullary main_cst_10 (constant S_ .f32 0x00000000#32) ::
    binary main_v45 main_cst_10 main_v46 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)) ::
    unary main_v46 main_v47 (broadcastInDim S8x8x1 ![0, 1] bcast_S8x8_S8x8x1_0_1 : (⟨S8x8, .f32⟩ : BufTy).Contents (Elt F) → (⟨S8x8x1, .f32⟩ : BufTy).Contents (Elt F)) ::
    unary main_v47 main_v48 (broadcastInDim S8x8x9 ![0, 1, 2] bcast_S8x8x1_S8x8x9_0_1_2 : (⟨S8x8x1, .f32⟩ : BufTy).Contents (Elt F) → (⟨S8x8x9, .f32⟩ : BufTy).Contents (Elt F)) ::
    binary main_v45 main_v48 main_v49 (Host.divf : (⟨S8x8x9, .f32⟩ : BufTy).Contents (Elt F) → (⟨S8x8x9, .f32⟩ : BufTy).Contents (Elt F) → (⟨S8x8x9, .f32⟩ : BufTy).Contents (Elt F)) ::
    []

/-- The repeat over the channels of a group (two operations) and the padding call's integer operand. -/
def opsRep : List (HloOp τ sig (Elt F)) :=
    unary main_v49 main_v50 (broadcastInDim S8x8x8x9 ![0, 1, 3] bcast_S8x8x9_S8x8x8x9_0_1_3 : (⟨S8x8x9, .f32⟩ : BufTy).Contents (Elt F) → (⟨S8x8x8x9, .f32⟩ : BufTy).Contents (Elt F)) ::
    reshape main_v50 main_v51 rfl shapeCasts_S8x8x8x9_S8x64x9 ::
    nullary main_c (constantI S_ 32 0#32) ::
    []

/-- The reflect padding's sixteen operations, at the call's buffers, each concatenation under its name above. -/
def opsPad : List (HloOp τ sig (Elt F)) :=
    unary main_arg0 main_call0_v0 (extractStridedSlice S8x64x1x128 ![0, 0, 0, 0] · slices_S8x64x128x128_S8x64x1x128_0_0_0_0) ::
    unary main_arg0 main_call0_v1 (extractStridedSlice S8x64x1x128 ![0, 0, 1, 0] · slices_S8x64x128x128_S8x64x1x128_0_0_1_0) ::
    unary main_call0_v1 main_call0_v2 (Host.reverse [2]) ::
    binary main_call0_v2 main_arg0 main_call0_v3 catTop ::
    unary main_call0_v3 main_call0_v4 (extractStridedSlice S8x64x1x128 ![0, 0, 128, 0] · slices_S8x64x129x128_S8x64x1x128_0_0_128_0) ::
    unary main_call0_v3 main_call0_v5 (extractStridedSlice S8x64x1x128 ![0, 0, 127, 0] · slices_S8x64x129x128_S8x64x1x128_0_0_127_0) ::
    unary main_call0_v5 main_call0_v6 (Host.reverse [2]) ::
    binary main_call0_v3 main_call0_v6 main_call0_v7 catRows ::
    unary main_call0_v7 main_call0_v8 (extractStridedSlice S8x64x130x1 ![0, 0, 0, 0] · slices_S8x64x130x128_S8x64x130x1_0_0_0_0) ::
    unary main_call0_v7 main_call0_v9 (extractStridedSlice S8x64x130x1 ![0, 0, 0, 1] · slices_S8x64x130x128_S8x64x130x1_0_0_0_1) ::
    unary main_call0_v9 main_call0_v10 (Host.reverse [3]) ::
    binary main_call0_v10 main_call0_v7 main_call0_v11 catLeft ::
    unary main_call0_v11 main_call0_v12 (extractStridedSlice S8x64x130x1 ![0, 0, 0, 128] · slices_S8x64x130x129_S8x64x130x1_0_0_0_128) ::
    unary main_call0_v11 main_call0_v13 (extractStridedSlice S8x64x130x1 ![0, 0, 0, 127] · slices_S8x64x130x129_S8x64x130x1_0_0_0_127) ::
    unary main_call0_v13 main_call0_v14 (Host.reverse [3]) ::
    binary main_call0_v11 main_call0_v14 main_v52 catRight ::
    []

/-- The nine-tap weighted sum's sixty-five operations. -/
def opsLow : List (HloOp τ sig (Elt F)) :=
    nullary main_cst_11 (constant S_ .f32 0x00000000#32) ::
    unary main_cst_11 main_v53 (broadcastInDim S8x64x128x128 ![] bcast_S_S8x64x128x128 : (⟨S_, .f32⟩ : BufTy).Contents (Elt F) → (⟨S8x64x128x128, .f32⟩ : BufTy).Contents (Elt F)) ::
    unary main_v52 main_v54 ((extractStridedSlice S8x64x128x128 ![0, 0, 0, 0] · slices_S8x64x130x130_S8x64x128x128_0_0_0_0) : (⟨S8x64x130x130, .f32⟩ : BufTy).Contents (Elt F) → (⟨S8x64x128x128, .f32⟩ : BufTy).Contents (Elt F)) ::
    unary main_v51 main_v55 ((extractStridedSlice S8x64x1 ![0, 0, 0] · slices_S8x64x9_S8x64x1_0_0_0) : (⟨S8x64x9, .f32⟩ : BufTy).Contents (Elt F) → (⟨S8x64x1, .f32⟩ : BufTy).Contents (Elt F)) ::
    reshape main_v55 main_v56 rfl shapeCasts_S8x64x1_S8x64 ::
    unary main_v56 main_v57 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v57 main_v58 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v54 main_v58 main_v59 (mulf : (⟨S8x64x128x128, .f32⟩ : BufTy).Contents (Elt F) → (⟨S8x64x128x128, .f32⟩ : BufTy).Contents (Elt F) → (⟨S8x64x128x128, .f32⟩ : BufTy).Contents (Elt F)) ::
    binary main_v53 main_v59 main_v60 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v61 ((extractStridedSlice S8x64x128x128 ![0, 0, 0, 1] · slices_S8x64x130x130_S8x64x128x128_0_0_0_1) : (⟨S8x64x130x130, .f32⟩ : BufTy).Contents (Elt F) → (⟨S8x64x128x128, .f32⟩ : BufTy).Contents (Elt F)) ::
    unary main_v51 main_v62 ((extractStridedSlice S8x64x1 ![0, 0, 1] · slices_S8x64x9_S8x64x1_0_0_1) : (⟨S8x64x9, .f32⟩ : BufTy).Contents (Elt F) → (⟨S8x64x1, .f32⟩ : BufTy).Contents (Elt F)) ::
    reshape main_v62 main_v63 rfl shapeCasts_S8x64x1_S8x64 ::
    unary main_v63 main_v64 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v64 main_v65 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v61 main_v65 main_v66 (mulf : (⟨S8x64x128x128, .f32⟩ : BufTy).Contents (Elt F) → (⟨S8x64x128x128, .f32⟩ : BufTy).Contents (Elt F) → (⟨S8x64x128x128, .f32⟩ : BufTy).Contents (Elt F)) ::
    binary main_v60 main_v66 main_v67 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v68 ((extractStridedSlice S8x64x128x128 ![0, 0, 0, 2] · slices_S8x64x130x130_S8x64x128x128_0_0_0_2) : (⟨S8x64x130x130, .f32⟩ : BufTy).Contents (Elt F) → (⟨S8x64x128x128, .f32⟩ : BufTy).Contents (Elt F)) ::
    unary main_v51 main_v69 ((extractStridedSlice S8x64x1 ![0, 0, 2] · slices_S8x64x9_S8x64x1_0_0_2) : (⟨S8x64x9, .f32⟩ : BufTy).Contents (Elt F) → (⟨S8x64x1, .f32⟩ : BufTy).Contents (Elt F)) ::
    reshape main_v69 main_v70 rfl shapeCasts_S8x64x1_S8x64 ::
    unary main_v70 main_v71 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v71 main_v72 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v68 main_v72 main_v73 (mulf : (⟨S8x64x128x128, .f32⟩ : BufTy).Contents (Elt F) → (⟨S8x64x128x128, .f32⟩ : BufTy).Contents (Elt F) → (⟨S8x64x128x128, .f32⟩ : BufTy).Contents (Elt F)) ::
    binary main_v67 main_v73 main_v74 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v75 ((extractStridedSlice S8x64x128x128 ![0, 0, 1, 0] · slices_S8x64x130x130_S8x64x128x128_0_0_1_0) : (⟨S8x64x130x130, .f32⟩ : BufTy).Contents (Elt F) → (⟨S8x64x128x128, .f32⟩ : BufTy).Contents (Elt F)) ::
    unary main_v51 main_v76 ((extractStridedSlice S8x64x1 ![0, 0, 3] · slices_S8x64x9_S8x64x1_0_0_3) : (⟨S8x64x9, .f32⟩ : BufTy).Contents (Elt F) → (⟨S8x64x1, .f32⟩ : BufTy).Contents (Elt F)) ::
    reshape main_v76 main_v77 rfl shapeCasts_S8x64x1_S8x64 ::
    unary main_v77 main_v78 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v78 main_v79 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v75 main_v79 main_v80 (mulf : (⟨S8x64x128x128, .f32⟩ : BufTy).Contents (Elt F) → (⟨S8x64x128x128, .f32⟩ : BufTy).Contents (Elt F) → (⟨S8x64x128x128, .f32⟩ : BufTy).Contents (Elt F)) ::
    binary main_v74 main_v80 main_v81 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v82 ((extractStridedSlice S8x64x128x128 ![0, 0, 1, 1] · slices_S8x64x130x130_S8x64x128x128_0_0_1_1) : (⟨S8x64x130x130, .f32⟩ : BufTy).Contents (Elt F) → (⟨S8x64x128x128, .f32⟩ : BufTy).Contents (Elt F)) ::
    unary main_v51 main_v83 ((extractStridedSlice S8x64x1 ![0, 0, 4] · slices_S8x64x9_S8x64x1_0_0_4) : (⟨S8x64x9, .f32⟩ : BufTy).Contents (Elt F) → (⟨S8x64x1, .f32⟩ : BufTy).Contents (Elt F)) ::
    reshape main_v83 main_v84 rfl shapeCasts_S8x64x1_S8x64 ::
    unary main_v84 main_v85 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v85 main_v86 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v82 main_v86 main_v87 (mulf : (⟨S8x64x128x128, .f32⟩ : BufTy).Contents (Elt F) → (⟨S8x64x128x128, .f32⟩ : BufTy).Contents (Elt F) → (⟨S8x64x128x128, .f32⟩ : BufTy).Contents (Elt F)) ::
    binary main_v81 main_v87 main_v88 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v89 ((extractStridedSlice S8x64x128x128 ![0, 0, 1, 2] · slices_S8x64x130x130_S8x64x128x128_0_0_1_2) : (⟨S8x64x130x130, .f32⟩ : BufTy).Contents (Elt F) → (⟨S8x64x128x128, .f32⟩ : BufTy).Contents (Elt F)) ::
    unary main_v51 main_v90 ((extractStridedSlice S8x64x1 ![0, 0, 5] · slices_S8x64x9_S8x64x1_0_0_5) : (⟨S8x64x9, .f32⟩ : BufTy).Contents (Elt F) → (⟨S8x64x1, .f32⟩ : BufTy).Contents (Elt F)) ::
    reshape main_v90 main_v91 rfl shapeCasts_S8x64x1_S8x64 ::
    unary main_v91 main_v92 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v92 main_v93 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v89 main_v93 main_v94 (mulf : (⟨S8x64x128x128, .f32⟩ : BufTy).Contents (Elt F) → (⟨S8x64x128x128, .f32⟩ : BufTy).Contents (Elt F) → (⟨S8x64x128x128, .f32⟩ : BufTy).Contents (Elt F)) ::
    binary main_v88 main_v94 main_v95 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v96 ((extractStridedSlice S8x64x128x128 ![0, 0, 2, 0] · slices_S8x64x130x130_S8x64x128x128_0_0_2_0) : (⟨S8x64x130x130, .f32⟩ : BufTy).Contents (Elt F) → (⟨S8x64x128x128, .f32⟩ : BufTy).Contents (Elt F)) ::
    unary main_v51 main_v97 ((extractStridedSlice S8x64x1 ![0, 0, 6] · slices_S8x64x9_S8x64x1_0_0_6) : (⟨S8x64x9, .f32⟩ : BufTy).Contents (Elt F) → (⟨S8x64x1, .f32⟩ : BufTy).Contents (Elt F)) ::
    reshape main_v97 main_v98 rfl shapeCasts_S8x64x1_S8x64 ::
    unary main_v98 main_v99 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v99 main_v100 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v96 main_v100 main_v101 (mulf : (⟨S8x64x128x128, .f32⟩ : BufTy).Contents (Elt F) → (⟨S8x64x128x128, .f32⟩ : BufTy).Contents (Elt F) → (⟨S8x64x128x128, .f32⟩ : BufTy).Contents (Elt F)) ::
    binary main_v95 main_v101 main_v102 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v103 ((extractStridedSlice S8x64x128x128 ![0, 0, 2, 1] · slices_S8x64x130x130_S8x64x128x128_0_0_2_1) : (⟨S8x64x130x130, .f32⟩ : BufTy).Contents (Elt F) → (⟨S8x64x128x128, .f32⟩ : BufTy).Contents (Elt F)) ::
    unary main_v51 main_v104 ((extractStridedSlice S8x64x1 ![0, 0, 7] · slices_S8x64x9_S8x64x1_0_0_7) : (⟨S8x64x9, .f32⟩ : BufTy).Contents (Elt F) → (⟨S8x64x1, .f32⟩ : BufTy).Contents (Elt F)) ::
    reshape main_v104 main_v105 rfl shapeCasts_S8x64x1_S8x64 ::
    unary main_v105 main_v106 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v106 main_v107 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v103 main_v107 main_v108 (mulf : (⟨S8x64x128x128, .f32⟩ : BufTy).Contents (Elt F) → (⟨S8x64x128x128, .f32⟩ : BufTy).Contents (Elt F) → (⟨S8x64x128x128, .f32⟩ : BufTy).Contents (Elt F)) ::
    binary main_v102 main_v108 main_v109 (addf : (⟨S8x64x128x128, .f32⟩ : BufTy).Contents (Elt F) → (⟨S8x64x128x128, .f32⟩ : BufTy).Contents (Elt F) → (⟨S8x64x128x128, .f32⟩ : BufTy).Contents (Elt F)) ::
    unary main_v52 main_v110 ((extractStridedSlice S8x64x128x128 ![0, 0, 2, 2] · slices_S8x64x130x130_S8x64x128x128_0_0_2_2) : (⟨S8x64x130x130, .f32⟩ : BufTy).Contents (Elt F) → (⟨S8x64x128x128, .f32⟩ : BufTy).Contents (Elt F)) ::
    unary main_v51 main_v111 ((extractStridedSlice S8x64x1 ![0, 0, 8] · slices_S8x64x9_S8x64x1_0_0_8) : (⟨S8x64x9, .f32⟩ : BufTy).Contents (Elt F) → (⟨S8x64x1, .f32⟩ : BufTy).Contents (Elt F)) ::
    reshape main_v111 main_v112 rfl shapeCasts_S8x64x1_S8x64 ::
    unary main_v112 main_v113 (broadcastInDim S8x64x1x1 ![0, 1] bcast_S8x64_S8x64x1x1_0_1 : (⟨S8x64, .f32⟩ : BufTy).Contents (Elt F) → (⟨S8x64x1x1, .f32⟩ : BufTy).Contents (Elt F)) ::
    unary main_v113 main_v114 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)) ::
    binary main_v110 main_v114 main_v115 (mulf : (⟨S8x64x128x128, .f32⟩ : BufTy).Contents (Elt F) → (⟨S8x64x128x128, .f32⟩ : BufTy).Contents (Elt F) → (⟨S8x64x128x128, .f32⟩ : BufTy).Contents (Elt F)) ::
    binary main_v109 main_v115 main_v116 (addf : (⟨S8x64x128x128, .f32⟩ : BufTy).Contents (Elt F) → (⟨S8x64x128x128, .f32⟩ : BufTy).Contents (Elt F) → (⟨S8x64x128x128, .f32⟩ : BufTy).Contents (Elt F)) ::
    []

/-- The final subtraction. -/
def opsHigh : List (HloOp τ sig (Elt F)) :=
    binary main_arg0 main_v116 main_v117 (subf : (⟨S8x64x128x128, .f32⟩ : BufTy).Contents (Elt F) → (⟨S8x64x128x128, .f32⟩ : BufTy).Contents (Elt F) → (⟨S8x64x128x128, .f32⟩ : BufTy).Contents (Elt F)) ::
    []

set_option maxHeartbeats 1000000 in
/-- The line is its ten consecutive segments (the padding's typed references are its buffers, a concatenation its name). -/
theorem ops_split : (ops : List (HloOp τ sig (Elt F))) = opsGap ++ (opsGate ++ (opsMean ++ (opsVar ++ (opsNorm ++ (opsSoft ++ (opsRep ++ (opsPad ++ (opsLow ++ (opsHigh))))))))) := rfl

end Segments

/-- The fold over a concatenation is the fold over the second part from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
set_option maxHeartbeats 1000000 in
/-- The segment does not write `arg4`'s buffer. -/
theorem opsGap_arg4 (W : Valuation τ sig (Elt Ideal)) :
    after opsGap W (main_arg4 : DevRef τ sig) = W (main_arg4 : DevRef τ sig) := by
  unfold opsGap
  after_results_simp

set_option maxRecDepth 8192 in
set_option maxHeartbeats 1000000 in
/-- The segment does not write `arg3`'s buffer. -/
theorem opsGap_arg3 (W : Valuation τ sig (Elt Ideal)) :
    after opsGap W (main_arg3 : DevRef τ sig) = W (main_arg3 : DevRef τ sig) := by
  unfold opsGap
  after_results_simp

set_option maxRecDepth 8192 in
set_option maxHeartbeats 1000000 in
/-- The segment does not write `arg2`'s buffer. -/
theorem opsGap_arg2 (W : Valuation τ sig (Elt Ideal)) :
    after opsGap W (main_arg2 : DevRef τ sig) = W (main_arg2 : DevRef τ sig) := by
  unfold opsGap
  after_results_simp

set_option maxRecDepth 8192 in
set_option maxHeartbeats 1000000 in
/-- The segment does not write `arg1`'s buffer. -/
theorem opsGap_arg1 (W : Valuation τ sig (Elt Ideal)) :
    after opsGap W (main_arg1 : DevRef τ sig) = W (main_arg1 : DevRef τ sig) := by
  unfold opsGap
  after_results_simp

attribute [local irreducible] Host.reduce Host.reduceAdd in
set_option maxRecDepth 8192 in
set_option maxHeartbeats 1000000 in
/-- After the segment, `v2`'s buffer holds the segment's specification applied to the contents it read. -/
theorem opsGap_v2 (W : Valuation τ sig (Elt Ideal)) :
    after opsGap W (main_v2 : DevRef τ sig) = gapRef (W (main_arg0 : DevRef τ sig)) := by
  unfold opsGap
  after_results_simp
  rfl

set_option maxRecDepth 8192 in
set_option maxHeartbeats 1000000 in
/-- The segment does not write `arg0`'s buffer. -/
theorem opsGap_arg0 (W : Valuation τ sig (Elt Ideal)) :
    after opsGap W (main_arg0 : DevRef τ sig) = W (main_arg0 : DevRef τ sig) := by
  unfold opsGap
  after_results_simp

set_option maxRecDepth 8192 in
set_option maxHeartbeats 1000000 in
/-- The segment does not write `arg4`'s buffer. -/
theorem opsGate_arg4 (W : Valuation τ sig (Elt Ideal)) :
    after opsGate W (main_arg4 : DevRef τ sig) = W (main_arg4 : DevRef τ sig) := by
  unfold opsGate
  after_results_simp

set_option maxRecDepth 8192 in
set_option maxHeartbeats 1000000 in
/-- The segment does not write `arg3`'s buffer. -/
theorem opsGate_arg3 (W : Valuation τ sig (Elt Ideal)) :
    after opsGate W (main_arg3 : DevRef τ sig) = W (main_arg3 : DevRef τ sig) := by
  unfold opsGate
  after_results_simp

set_option maxRecDepth 8192 in
set_option maxHeartbeats 1000000 in
/-- After the segment, `v13`'s buffer holds the segment's specification applied to the contents it read. -/
theorem opsGate_v13 (W : Valuation τ sig (Elt Ideal)) :
    after opsGate W (main_v13 : DevRef τ sig) = fchGate (W (main_v2 : DevRef τ sig)) (W (main_arg1 : DevRef τ sig)) (W (main_arg2 : DevRef τ sig)) := by
  unfold opsGate
  after_results_simp
  rfl

set_option maxRecDepth 8192 in
set_option maxHeartbeats 1000000 in
/-- The segment does not write `arg0`'s buffer. -/
theorem opsGate_arg0 (W : Valuation τ sig (Elt Ideal)) :
    after opsGate W (main_arg0 : DevRef τ sig) = W (main_arg0 : DevRef τ sig) := by
  unfold opsGate
  after_results_simp

set_option maxRecDepth 8192 in
set_option maxHeartbeats 1000000 in
/-- The segment does not write `arg4`'s buffer. -/
theorem opsMean_arg4 (W : Valuation τ sig (Elt Ideal)) :
    after opsMean W (main_arg4 : DevRef τ sig) = W (main_arg4 : DevRef τ sig) := by
  unfold opsMean
  after_results_simp

set_option maxRecDepth 8192 in
set_option maxHeartbeats 1000000 in
/-- The segment does not write `arg3`'s buffer. -/
theorem opsMean_arg3 (W : Valuation τ sig (Elt Ideal)) :
    after opsMean W (main_arg3 : DevRef τ sig) = W (main_arg3 : DevRef τ sig) := by
  unfold opsMean
  after_results_simp

attribute [local irreducible] Host.reduce Host.reduceAdd in
set_option maxRecDepth 8192 in
set_option maxHeartbeats 1000000 in
/-- After the segment, `v17`'s buffer holds the segment's specification applied to the contents it read. -/
theorem opsMean_v17 (W : Valuation τ sig (Elt Ideal)) :
    after opsMean W (main_v17 : DevRef τ sig) = fchMean (W (main_v13 : DevRef τ sig)) := by
  unfold opsMean
  after_results_simp
  rfl

set_option maxRecDepth 8192 in
set_option maxHeartbeats 1000000 in
/-- The segment does not write `v13`'s buffer. -/
theorem opsMean_v13 (W : Valuation τ sig (Elt Ideal)) :
    after opsMean W (main_v13 : DevRef τ sig) = W (main_v13 : DevRef τ sig) := by
  unfold opsMean
  after_results_simp

set_option maxRecDepth 8192 in
set_option maxHeartbeats 1000000 in
/-- The segment does not write `arg0`'s buffer. -/
theorem opsMean_arg0 (W : Valuation τ sig (Elt Ideal)) :
    after opsMean W (main_arg0 : DevRef τ sig) = W (main_arg0 : DevRef τ sig) := by
  unfold opsMean
  after_results_simp

set_option maxRecDepth 8192 in
set_option maxHeartbeats 1000000 in
/-- The segment does not write `arg4`'s buffer. -/
theorem opsVar_arg4 (W : Valuation τ sig (Elt Ideal)) :
    after opsVar W (main_arg4 : DevRef τ sig) = W (main_arg4 : DevRef τ sig) := by
  unfold opsVar
  after_results_simp

set_option maxRecDepth 8192 in
set_option maxHeartbeats 1000000 in
/-- The segment does not write `arg3`'s buffer. -/
theorem opsVar_arg3 (W : Valuation τ sig (Elt Ideal)) :
    after opsVar W (main_arg3 : DevRef τ sig) = W (main_arg3 : DevRef τ sig) := by
  unfold opsVar
  after_results_simp

attribute [local irreducible] Host.reduce Host.reduceAdd in
set_option maxRecDepth 8192 in
set_option maxHeartbeats 1000000 in
/-- After the segment, `v24`'s buffer holds the segment's specification applied to the contents it read. -/
theorem opsVar_v24 (W : Valuation τ sig (Elt Ideal)) :
    after opsVar W (main_v24 : DevRef τ sig) = fchVar (W (main_v13 : DevRef τ sig)) (W (main_v17 : DevRef τ sig)) := by
  unfold opsVar
  after_results_simp
  rfl

set_option maxRecDepth 8192 in
set_option maxHeartbeats 1000000 in
/-- The segment does not write `v17`'s buffer. -/
theorem opsVar_v17 (W : Valuation τ sig (Elt Ideal)) :
    after opsVar W (main_v17 : DevRef τ sig) = W (main_v17 : DevRef τ sig) := by
  unfold opsVar
  after_results_simp

set_option maxRecDepth 8192 in
set_option maxHeartbeats 1000000 in
/-- The segment does not write `v13`'s buffer. -/
theorem opsVar_v13 (W : Valuation τ sig (Elt Ideal)) :
    after opsVar W (main_v13 : DevRef τ sig) = W (main_v13 : DevRef τ sig) := by
  unfold opsVar
  after_results_simp

set_option maxRecDepth 8192 in
set_option maxHeartbeats 1000000 in
/-- The segment does not write `arg0`'s buffer. -/
theorem opsVar_arg0 (W : Valuation τ sig (Elt Ideal)) :
    after opsVar W (main_arg0 : DevRef τ sig) = W (main_arg0 : DevRef τ sig) := by
  unfold opsVar
  after_results_simp

set_option maxRecDepth 8192 in
set_option maxHeartbeats 1000000 in
/-- After the segment, `v37`'s buffer holds the segment's specification applied to the contents it read. -/
theorem opsNorm_v37 (W : Valuation τ sig (Elt Ideal)) :
    after opsNorm W (main_v37 : DevRef τ sig) = fchNorm (W (main_v13 : DevRef τ sig)) (W (main_v17 : DevRef τ sig)) (W (main_v24 : DevRef τ sig)) (W (main_arg3 : DevRef τ sig)) (W (main_arg4 : DevRef τ sig)) := by
  unfold opsNorm
  after_results_simp
  rfl

set_option maxRecDepth 8192 in
set_option maxHeartbeats 1000000 in
/-- The segment does not write `arg0`'s buffer. -/
theorem opsNorm_arg0 (W : Valuation τ sig (Elt Ideal)) :
    after opsNorm W (main_arg0 : DevRef τ sig) = W (main_arg0 : DevRef τ sig) := by
  unfold opsNorm
  after_results_simp

attribute [local irreducible] Host.reduce Host.reduceAdd in
set_option maxRecDepth 8192 in
set_option maxHeartbeats 1000000 in
/-- After the segment, `v49`'s buffer holds the segment's specification applied to the contents it read. -/
theorem opsSoft_v49 (W : Valuation τ sig (Elt Ideal)) :
    after opsSoft W (main_v49 : DevRef τ sig) = fchSoft (W (main_v37 : DevRef τ sig)) := by
  unfold opsSoft
  after_results_simp
  rfl

set_option maxRecDepth 8192 in
set_option maxHeartbeats 1000000 in
/-- The segment does not write `arg0`'s buffer. -/
theorem opsSoft_arg0 (W : Valuation τ sig (Elt Ideal)) :
    after opsSoft W (main_arg0 : DevRef τ sig) = W (main_arg0 : DevRef τ sig) := by
  unfold opsSoft
  after_results_simp

set_option maxRecDepth 8192 in
set_option maxHeartbeats 1000000 in
/-- After the segment, `v51`'s buffer holds the segment's specification applied to the contents it read. -/
theorem opsRep_v51 (W : Valuation τ sig (Elt Ideal)) :
    after opsRep W (main_v51 : DevRef τ sig) = shapeCast S8x64x9 (broadcastInDim S8x8x8x9 ![0, 1, 3] bcast_S8x8x9_S8x8x8x9_0_1_3 (W (main_v49 : DevRef τ sig))) shapeCasts_S8x8x8x9_S8x64x9 := by
  unfold opsRep
  after_results_simp
  rfl

set_option maxRecDepth 8192 in
set_option maxHeartbeats 1000000 in
/-- The segment does not write `arg0`'s buffer. -/
theorem opsRep_arg0 (W : Valuation τ sig (Elt Ideal)) :
    after opsRep W (main_arg0 : DevRef τ sig) = W (main_arg0 : DevRef τ sig) := by
  unfold opsRep
  after_results_simp

set_option maxRecDepth 8192 in
set_option maxHeartbeats 1000000 in
/-- The segment does not write `arg0`'s buffer. -/
theorem opsPad_arg0 (W : Valuation τ sig (Elt Ideal)) :
    after opsPad W (main_arg0 : DevRef τ sig) = W (main_arg0 : DevRef τ sig) := by
  unfold opsPad
  after_results_simp

set_option maxRecDepth 8192 in
set_option maxHeartbeats 1000000 in
/-- The segment does not write `v51`'s buffer. -/
theorem opsPad_v51 (W : Valuation τ sig (Elt Ideal)) :
    after opsPad W (main_v51 : DevRef τ sig) = W (main_v51 : DevRef τ sig) := by
  unfold opsPad
  after_results_simp

set_option maxRecDepth 8192 in
set_option maxHeartbeats 1000000 in
/-- After the segment, `v52`'s buffer holds the segment's specification applied to the contents it read. -/
theorem opsPad_v52 (W : Valuation τ sig (Elt Ideal)) :
    after opsPad W (main_v52 : DevRef τ sig) = padOf (W (main_arg0 : DevRef τ sig)) := by
  unfold opsPad
  after_results_simp
  rfl

set_option maxRecDepth 8192 in
set_option maxHeartbeats 1000000 in
/-- The segment does not write `arg0`'s buffer. -/
theorem opsLow_arg0 (W : Valuation τ sig (Elt Ideal)) :
    after opsLow W (main_arg0 : DevRef τ sig) = W (main_arg0 : DevRef τ sig) := by
  unfold opsLow
  after_results_simp

set_option maxRecDepth 8192 in
set_option maxHeartbeats 1000000 in
/-- After the segment, `v116`'s buffer holds the segment's specification applied to the contents it read. -/
theorem opsLow_v116 (W : Valuation τ sig (Elt Ideal)) :
    after opsLow W (main_v116 : DevRef τ sig) = lowOf (W (main_v52 : DevRef τ sig)) (W (main_v51 : DevRef τ sig)) := by
  unfold opsLow
  after_results_simp
  rfl

set_option maxRecDepth 8192 in
set_option maxHeartbeats 1000000 in
/-- After the segment, `v117`'s buffer holds the segment's specification applied to the contents it read. -/
theorem opsHigh_v117 (W : Valuation τ sig (Elt Ideal)) :
    after opsHigh W (main_v117 : DevRef τ sig) = subf (F := Ideal) (s := S8x64x128x128) (φ := .f32) (W (main_arg0 : DevRef τ sig)) (W (main_v116 : DevRef τ sig)) := by
  unfold opsHigh
  after_results_simp

set_option maxRecDepth 8192 in
set_option maxHeartbeats 1000000 in
/-- The segment does not write `v116`'s buffer. -/
theorem opsHigh_v116 (W : Valuation τ sig (Elt Ideal)) :
    after opsHigh W (main_v116 : DevRef τ sig) = W (main_v116 : DevRef τ sig) := by
  unfold opsHigh
  after_results_simp

set_option maxRecDepth 8192 in
set_option maxHeartbeats 1000000 in
/-- The first result's buffer after the operations: the nine-tap weighted sum of the reflect-padded first
    argument under the tap weights computed from its pooled means and the four parameter arrays: the ten
    segments' value lemmas composed, the buffers in between carried by the frame lemmas. -/
theorem low_eq (V : Valuation τ sig (Elt Ideal)) :
    after ops V (main_v116 : DevRef τ sig) = lowOf (padOf (V (main_arg0 : DevRef τ sig))) (fchOf (gapRef (V (main_arg0 : DevRef τ sig))) (V (main_arg1 : DevRef τ sig)) (V (main_arg2 : DevRef τ sig)) (V (main_arg3 : DevRef τ sig)) (V (main_arg4 : DevRef τ sig))) := by
  rw [ops_split]
  simp only [after_append]
  rw [opsHigh_v116, opsLow_v116, opsPad_v52, opsPad_v51, opsRep_arg0, opsRep_v51, opsSoft_arg0, opsSoft_v49, opsNorm_arg0, opsNorm_v37, opsVar_arg0, opsVar_v13, opsVar_v17, opsVar_v24, opsVar_arg3, opsVar_arg4, opsMean_arg0, opsMean_v13, opsMean_v17, opsMean_arg3, opsMean_arg4, opsGate_arg0, opsGate_v13, opsGate_arg3, opsGate_arg4, opsGap_arg0, opsGap_v2, opsGap_arg1, opsGap_arg2, opsGap_arg3, opsGap_arg4]
  rfl

set_option maxRecDepth 8192 in
set_option maxHeartbeats 1000000 in
/-- The second result's buffer after the operations: the first argument minus the first result. -/
theorem high_eq (V : Valuation τ sig (Elt Ideal)) :
    after ops V (main_v117 : DevRef τ sig) = subf (V (main_arg0 : DevRef τ sig)) (lowOf (padOf (V (main_arg0 : DevRef τ sig))) (fchOf (gapRef (V (main_arg0 : DevRef τ sig))) (V (main_arg1 : DevRef τ sig)) (V (main_arg2 : DevRef τ sig)) (V (main_arg3 : DevRef τ sig)) (V (main_arg4 : DevRef τ sig)))) := by
  rw [ops_split]
  simp only [after_append]
  rw [opsHigh_v117, opsLow_arg0, opsLow_v116, opsPad_arg0, opsPad_v52, opsPad_v51, opsRep_arg0, opsRep_v51, opsSoft_arg0, opsSoft_v49, opsNorm_arg0, opsNorm_v37, opsVar_arg0, opsVar_v13, opsVar_v17, opsVar_v24, opsVar_arg3, opsVar_arg4, opsMean_arg0, opsMean_v13, opsMean_v17, opsMean_arg3, opsMean_arg4, opsGate_arg0, opsGate_v13, opsGate_arg3, opsGate_arg4, opsGap_arg0, opsGap_v2, opsGap_arg1, opsGap_arg2, opsGap_arg3, opsGap_arg4]
  rfl

/-- On every device, at the extended reals, from any memory with zero counters: every weakly fair execution of
    @main terminates with the first result the weighted sum `lowOf (padOf x) (fchOf (gapRef x) wc wg gam bet)` of
    the arguments' launch contents `x, wc, wg, gam, bet`, the second result `x` minus it, and the five
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v116)
        = lowOf (padOf (m ((c.tc : Thread nD τ).loc main_arg0))) (fchOf (gapRef (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v117)
        = subf (m ((c.tc : Thread nD τ).loc main_arg0))
            (lowOf (padOf (m ((c.tc : Thread nD τ).loc main_arg0))) (fchOf (gapRef (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c main_v116).trans (low_eq _), (h c main_v117).trans (high_eq _),
      (h c main_arg0).trans (arg0_eq _), (h c main_arg1).trans (arg1_eq _), (h c main_arg2).trans (arg2_eq _),
      (h c main_arg3).trans (arg3_eq _), (h c main_arg4).trans (arg4_eq _)⟩)
    (run_all (F := Ideal) m ρ)

end Cert.ReferenceIdeal.RefValue

end
-- ==== Proof.lean ====
/-
  Dynamic low-pass / high-pass split of an image batch x : f32[8, 64, 128, 128].
  Both programs pool each 128 x 128 plane to its mean, turn the 8 x 64 means into per-channel 3 x 3 tap weights f (a 1 x 1
  convolution, a sigmoid gate, a layer norm over 72 and a softmax over the nine taps, repeated over the eight channels of a
  group), reflect-pad the image by one on the two last axes, and return
      low  = sum over the nine taps (ky, kx) of xp[:, :, ky : ky+128, kx : kx+128] * f[:, :, 3 ky + kx],      high = x - low.
  The kernel program pools in a two-point grid that accumulates the two half-plane sums and scales by 2^-14, where the
  reference sums the whole plane and divides by 16384; and it reads the image's centre out of the padded block, where
  the reference subtracts from x itself. On the extended reals a sum may be split and regrouped freely, multiplying by
  the exact dyadic 2^-14 is dividing by 16384, and the centre of a reflect-padded array is the array: so the results agree
  for every input, and the finiteness precondition is not used.
  The three frames: each kernel program runs as its four segments (the pooling region, two host stretches, the filtering
  region), each region's body by symbolic execution, the pooling region's accumulator carried by the region's invariant;
  the reference is a straight line of host operations. The idealization rewrote nothing, so `preserves` is trivial.
-/
import proofs.«141267_j22771916603489_2_alg».proof.Defs
import proofs.«141267_j22771916603489_2_alg».proof.Proof.Gen.Kernel
import proofs.«141267_j22771916603489_2_alg».proof.Proof.Gen.KernelIdeal
import proofs.«141267_j22771916603489_2_alg».proof.Proof.Gen.ReferenceIdeal
import proofs.«141267_j22771916603489_2_alg».proof.Proof.Gen.Pre_finite_inputs
import proofs.«141267_j22771916603489_2_alg».proof.Proof.BRun
import proofs.«141267_j22771916603489_2_alg».proof.Proof.KValue
import proofs.«141267_j22771916603489_2_alg».proof.Proof.RefRun

noncomputable section

namespace Cert.Proof

open Idealize.ShloMosaic Idealize.ShloMosaic.TcCoe Idealize.SL.Sem
open Cert.ReferenceIdeal.RefValue (gapRef fchOf padOf lowOf)

/-- The printed kernel program runs and leaves its arguments unchanged (at the word-level instance). -/
theorem frame_k : Cert.frame_Kernel := fun m ρ _ => Cert.Kernel.Fr.frame m ρ

/-- The idealized kernel program runs and leaves its arguments unchanged. -/
theorem frame_ki : Cert.frame_KernelIdeal := fun m ρ _ => Cert.KernelIdeal.Fr.frame m ρ

/-- The idealized reference runs and leaves its arguments unchanged. -/
theorem frame_ri : Cert.frame_ReferenceIdeal := Cert.ReferenceIdeal.RefValue.frame_ri

/-- The idealization rewrote no operation. -/
theorem preserves : Cert.preserves_Kernel_KernelIdeal := trivial

/-- From memories agreeing on the arguments both idealized programs end with the low-pass result at
    `lowOf (padOf x) f` and the high-pass result at `x - lowOf (padOf x) f`, `f` the tap weights of the mean of `x`. -/
theorem algebraic : Cert.algebraic_KernelIdeal_ReferenceIdeal := by
  intro m ρ m' ρ' _ hagree
  refine ⟨fun c => lowOf (padOf (m ((c : Thread Cert.KernelIdeal.nD Cert.KernelIdeal.τ).loc Cert.KernelIdeal.main_arg0))) (Cert.KernelIdeal.Fr.fK m c),
    fun c => subf (m ((c : Thread Cert.KernelIdeal.nD Cert.KernelIdeal.τ).loc Cert.KernelIdeal.main_arg0))
      (lowOf (padOf (m ((c : Thread Cert.KernelIdeal.nD Cert.KernelIdeal.τ).loc Cert.KernelIdeal.main_arg0))) (Cert.KernelIdeal.Fr.fK m c)),
    Cert.KernelIdeal.Fr.run_value m ρ, ?_⟩
  refine (θ_run Cert.ReferenceIdeal.defs _ _).mono (fun _ h c => ?_) (Cert.ReferenceIdeal.RefValue.run m' ρ')
  obtain ⟨h1, h2, h3⟩ := h c
  obtain ⟨a0, a1, a2, a3, a4⟩ := hagree c
  refine ⟨h1.trans ?_, h2.trans ?_, h3⟩
  · rw [a0, a1, a2, a3, a4]
  · rw [a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
